-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S256x128x128 : Shape := ⟨3, ![256, 128, 128]⟩
abbrev S256x32 : Shape := ⟨2, ![256, 32]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S256x128x128 .f32) (main_arg1 : FVec F S256x128x128 .f32) (main_arg2 : IVec S256x32 32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S256x128x128 .f32 := Host.absf main_arg1
  let main_cst_0 : FVec F S_ .f32 := constant S_ .f32 0x7F800000#32
  let main_v5 : FVec F S256x128x128 .f32 := broadcastInDim S256x128x128 ![] bcast_S_S256x128x128 main_cst_0
  let main_v6 : IVec S256x128x128 1 := cmpf .olt main_v4 main_v5
  let main_c_1 : IVec S_ 1 := constantI S_ 1 1#1
  let main_v7 : IVec S_ 1 := (fun x v => Host.reduce IntOp.andi x v reducesTo_S256x128x128_S_d0_1_2 h_S_) main_v6 main_c_1
  let main_v8 : IVec S_ 1 := andi main_v3 main_v7
  let main_c_2 : IVec S_ 32 := constantI S_ 32 0#32
  let main_v9 : IVec S256x32 32 := broadcastInDim S256x32 ![] bcast_S_S256x32 main_c_2
  let main_v10 : IVec S256x32 1 := cmpi .sge main_arg2 main_v9
  let main_c_3 : IVec S_ 32 := constantI S_ 32 127#32
  let main_v11 : IVec S256x32 32 := broadcastInDim S256x32 ![] bcast_S_S256x32 main_c_3
  let main_v12 : IVec S256x32 1 := cmpi .sle main_arg2 main_v11
  let main_v13 : IVec S256x32 1 := andi main_v10 main_v12
  let main_c_4 : IVec S_ 1 := constantI S_ 1 1#1
  let main_v14 : IVec S_ 1 := (fun x v => Host.reduce IntOp.andi x v reducesTo_S256x32_S_d0_1 h_S_) main_v13 main_c_4
  let main_v15 : IVec S_ 1 := andi main_v8 main_v14
  main_v15
-- ==== Kernel.lean ====
abbrev S256x128x128 : Shape := ⟨3, ![256, 128, 128]⟩
abbrev S256x32 : Shape := ⟨2, ![256, 32]⟩
abbrev S4194304 : Shape := ⟨1, ![4194304]⟩
abbrev S8x32 : Shape := ⟨2, ![8, 32]⟩
abbrev S32768 : Shape := ⟨1, ![32768]⟩
abbrev S_ : Shape := ⟨0, ![]⟩
abbrev S16 : Shape := ⟨1, ![16]⟩
abbrev S1x16 : Shape := ⟨2, ![1, 16]⟩

abbrev nBuf : Table → Nat
  | .hbm => 6
  | .local .scVector .vmem => 4
  | _ => 0

abbrev bufTy : (tb : Table) → Fin (nBuf tb) → BufTy
  | .hbm, ⟨0, _⟩ => ⟨S256x128x128, .f32⟩
  | .hbm, ⟨1, _⟩ => ⟨S256x128x128, .f32⟩
  | .hbm, ⟨2, _⟩ => ⟨S256x32, .i32⟩
  | .hbm, ⟨3, _⟩ => ⟨S4194304, .f32⟩
  | .hbm, ⟨4, _⟩ => ⟨S4194304, .f32⟩
  | .hbm, ⟨5, _⟩ => ⟨S256x128x128, .f32⟩
  | .local .scVector .vmem, ⟨0, _⟩ => ⟨S8x32, .i32⟩
  | .local .scVector .vmem, ⟨1, _⟩ => ⟨S32768, .f32⟩
  | .local .scVector .vmem, ⟨2, _⟩ => ⟨S32768, .f32⟩
  | .local .scVector .vmem, ⟨3, _⟩ => ⟨S32768, .f32⟩
  | _, _ => ⟨S256x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  let v3 : BitVec 32 := Scalar.muli v2 c16384_i32
  let v4 : BitVec 32 := Scalar.addi v3 c0_i32
  ![v4.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_76_r0 : BitVec 32 := 0#32
  ![v2.toNat, 0]

def k0_chk1 (v22 : IVec S16 32) : Prop :=
  (∀ a x, ((![v22] : Fin 1 → IVec S16 32) a x).toNat < S32768.size a)
instance k0_chk1.dec : ∀ (v22 : IVec S16 32), Decidable (k0_chk1 v22) := fun v22 => decidable_of_iff' _ (Iff.of_eq (k0_chk1.eq_1 v22))
theorem k0_idx1_inb : ∀ (v22 : IVec S16 32) (k0_hw1 : k0_chk1 v22), ∀ a x, ((![v22] : Fin 1 → IVec S16 32) a x).toNat < S32768.size a := fun v22 k0_hw1 => k0_hw1

def k0_chk2 (v24 : IVec S16 32) : Prop :=
  (∀ a x, ((![v24] : Fin 1 → IVec S16 32) a x).toNat < S32768.size a)
instance k0_chk2.dec : ∀ (v24 : IVec S16 32), Decidable (k0_chk2 v24) := fun v24 => decidable_of_iff' _ (Iff.of_eq (k0_chk2.eq_1 v24))
theorem k0_idx2_inb : ∀ (v24 : IVec S16 32) (k0_hw2 : k0_chk2 v24), ∀ a x, ((![v24] : Fin 1 → IVec S16 32) a x).toNat < S32768.size a := fun v24 k0_hw2 => k0_hw2

def k0_chk3 (v30 : IVec S16 32) : Prop :=
  (∀ a x, ((![v30] : Fin 1 → IVec S16 32) a x).toNat < S32768.size a)
instance k0_chk3.dec : ∀ (v30 : IVec S16 32), Decidable (k0_chk3 v30) := fun v30 => decidable_of_iff' _ (Iff.of_eq (k0_chk3.eq_1 v30))
theorem k0_idx3_inb : ∀ (v30 : IVec S16 32) (k0_hw3 : k0_chk3 v30), ∀ a x, ((![v30] : Fin 1 → IVec S16 32) a x).toNat < S32768.size a := fun v30 k0_hw3 => k0_hw3

def k0_chk4 (v32 : IVec S16 32) : Prop :=
  (∀ a x, ((![v32] : Fin 1 → IVec S16 32) a x).toNat < S32768.size a)
instance k0_chk4.dec : ∀ (v32 : IVec S16 32), Decidable (k0_chk4 v32) := fun v32 => decidable_of_iff' _ (Iff.of_eq (k0_chk4.eq_1 v32))
theorem k0_idx4_inb : ∀ (v32 : IVec S16 32) (k0_hw4 : k0_chk4 v32), ∀ a x, ((![v32] : Fin 1 → IVec S16 32) a x).toNat < S32768.size a := fun v32 k0_hw4 => k0_hw4

def k0_chk5 (v38 : IVec S16 32) : Prop :=
  (∀ a x, ((![v38] : Fin 1 → IVec S16 32) a x).toNat < S32768.size a)
instance k0_chk5.dec : ∀ (v38 : IVec S16 32), Decidable (k0_chk5 v38) := fun v38 => decidable_of_iff' _ (Iff.of_eq (k0_chk5.eq_1 v38))
theorem k0_idx5_inb : ∀ (v38 : IVec S16 32) (k0_hw5 : k0_chk5 v38), ∀ a x, ((![v38] : Fin 1 → IVec S16 32) a x).toNat < S32768.size a := fun v38 k0_hw5 => k0_hw5

def k0_chk6 (v40 : IVec S16 32) : Prop :=
  (∀ a x, ((![v40] : Fin 1 → IVec S16 32) a x).toNat < S32768.size a)
instance k0_chk6.dec : ∀ (v40 : IVec S16 32), Decidable (k0_chk6 v40) := fun v40 => decidable_of_iff' _ (Iff.of_eq (k0_chk6.eq_1 v40))
theorem k0_idx6_inb : ∀ (v40 : IVec S16 32) (k0_hw6 : k0_chk6 v40), ∀ a x, ((![v40] : Fin 1 → IVec S16 32) a x).toNat < S32768.size a := fun v40 k0_hw6 => k0_hw6

def k0_chk7 (v46 : IVec S16 32) : Prop :=
  (∀ a x, ((![v46] : Fin 1 → IVec S16 32) a x).toNat < S32768.size a)
instance k0_chk7.dec : ∀ (v46 : IVec S16 32), Decidable (k0_chk7 v46) := fun v46 => decidable_of_iff' _ (Iff.of_eq (k0_chk7.eq_1 v46))
theorem k0_idx7_inb : ∀ (v46 : IVec S16 32) (k0_hw7 : k0_chk7 v46), ∀ a x, ((![v46] : Fin 1 → IVec S16 32) a x).toNat < S32768.size a := fun v46 k0_hw7 => k0_hw7

def k0_chk8 (v48 : IVec S16 32) : Prop :=
  (∀ a x, ((![v48] : Fin 1 → IVec S16 32) a x).toNat < S32768.size a)
instance k0_chk8.dec : ∀ (v48 : IVec S16 32), Decidable (k0_chk8 v48) := fun v48 => decidable_of_iff' _ (Iff.of_eq (k0_chk8.eq_1 v48))
theorem k0_idx8_inb : ∀ (v48 : IVec S16 32) (k0_hw8 : k0_chk8 v48), ∀ a x, ((![v48] : Fin 1 → IVec S16 32) a x).toNat < S32768.size a := fun v48 k0_hw8 => k0_hw8
def k0_off3 (i : grid0.Coords) (c0_i32_17 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  let v3 : BitVec 32 := Scalar.muli v2 c16384_i32
  let v49 : BitVec 32 := Scalar.addi v3 c0_i32_17
  ![v49.toNat]

def k0_chk9 (v59 : IVec S16 32) : Prop :=
  (∀ a x, ((![v59] : Fin 1 → IVec S16 32) a x).toNat < S32768.size a)
instance k0_chk9.dec : ∀ (v59 : IVec S16 32), Decidable (k0_chk9 v59) := fun v59 => decidable_of_iff' _ (Iff.of_eq (k0_chk9.eq_1 v59))
theorem k0_idx9_inb : ∀ (v59 : IVec S16 32) (k0_hw9 : k0_chk9 v59), ∀ a x, ((![v59] : Fin 1 → IVec S16 32) a x).toNat < S32768.size a := fun v59 k0_hw9 => k0_hw9

def k0_chk10 (v61 : IVec S16 32) : Prop :=
  (∀ a x, ((![v61] : Fin 1 → IVec S16 32) a x).toNat < S32768.size a)
instance k0_chk10.dec : ∀ (v61 : IVec S16 32), Decidable (k0_chk10 v61) := fun v61 => decidable_of_iff' _ (Iff.of_eq (k0_chk10.eq_1 v61))
theorem k0_idx10_inb : ∀ (v61 : IVec S16 32) (k0_hw10 : k0_chk10 v61), ∀ a x, ((![v61] : Fin 1 → IVec S16 32) a x).toNat < S32768.size a := fun v61 k0_hw10 => k0_hw10

def k0_chk11 (v67 : IVec S16 32) : Prop :=
  (∀ a x, ((![v67] : Fin 1 → IVec S16 32) a x).toNat < S32768.size a)
instance k0_chk11.dec : ∀ (v67 : IVec S16 32), Decidable (k0_chk11 v67) := fun v67 => decidable_of_iff' _ (Iff.of_eq (k0_chk11.eq_1 v67))
theorem k0_idx11_inb : ∀ (v67 : IVec S16 32) (k0_hw11 : k0_chk11 v67), ∀ a x, ((![v67] : Fin 1 → IVec S16 32) a x).toNat < S32768.size a := fun v67 k0_hw11 => k0_hw11

def k0_chk12 (v69 : IVec S16 32) : Prop :=
  (∀ a x, ((![v69] : Fin 1 → IVec S16 32) a x).toNat < S32768.size a)
instance k0_chk12.dec : ∀ (v69 : IVec S16 32), Decidable (k0_chk12 v69) := fun v69 => decidable_of_iff' _ (Iff.of_eq (k0_chk12.eq_1 v69))
theorem k0_idx12_inb : ∀ (v69 : IVec S16 32) (k0_hw12 : k0_chk12 v69), ∀ a x, ((![v69] : Fin 1 → IVec S16 32) a x).toNat < S32768.size a := fun v69 k0_hw12 => k0_hw12

def k0_chk13 (v75 : IVec S16 32) : Prop :=
  (∀ a x, ((![v75] : Fin 1 → IVec S16 32) a x).toNat < S32768.size a)
instance k0_chk13.dec : ∀ (v75 : IVec S16 32), Decidable (k0_chk13 v75) := fun v75 => decidable_of_iff' _ (Iff.of_eq (k0_chk13.eq_1 v75))
theorem k0_idx13_inb : ∀ (v75 : IVec S16 32) (k0_hw13 : k0_chk13 v75), ∀ a x, ((![v75] : Fin 1 → IVec S16 32) a x).toNat < S32768.size a := fun v75 k0_hw13 => k0_hw13

def k0_chk14 (v77 : IVec S16 32) : Prop :=
  (∀ a x, ((![v77] : Fin 1 → IVec S16 32) a x).toNat < S32768.size a)
instance k0_chk14.dec : ∀ (v77 : IVec S16 32), Decidable (k0_chk14 v77) := fun v77 => decidable_of_iff' _ (Iff.of_eq (k0_chk14.eq_1 v77))
theorem k0_idx14_inb : ∀ (v77 : IVec S16 32) (k0_hw14 : k0_chk14 v77), ∀ a x, ((![v77] : Fin 1 → IVec S16 32) a x).toNat < S32768.size a := fun v77 k0_hw14 => k0_hw14

def k0_chk15 (v83 : IVec S16 32) : Prop :=
  (∀ a x, ((![v83] : Fin 1 → IVec S16 32) a x).toNat < S32768.size a)
instance k0_chk15.dec : ∀ (v83 : IVec S16 32), Decidable (k0_chk15 v83) := fun v83 => decidable_of_iff' _ (Iff.of_eq (k0_chk15.eq_1 v83))
theorem k0_idx15_inb : ∀ (v83 : IVec S16 32) (k0_hw15 : k0_chk15 v83), ∀ a x, ((![v83] : Fin 1 → IVec S16 32) a x).toNat < S32768.size a := fun v83 k0_hw15 => k0_hw15

def k0_chk16 (v85 : IVec S16 32) : Prop :=
  (∀ a x, ((![v85] : Fin 1 → IVec S16 32) a x).toNat < S32768.size a)
instance k0_chk16.dec : ∀ (v85 : IVec S16 32), Decidable (k0_chk16 v85) := fun v85 => decidable_of_iff' _ (Iff.of_eq (k0_chk16.eq_1 v85))
theorem k0_idx16_inb : ∀ (v85 : IVec S16 32) (k0_hw16 : k0_chk16 v85), ∀ a x, ((![v85] : Fin 1 → IVec S16 32) a x).toNat < S32768.size a := fun v85 k0_hw16 => k0_hw16
def k0_off4 (i : grid0.Coords) (c32768_i32_37 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  let v3 : BitVec 32 := Scalar.muli v2 c16384_i32
  let v86 : BitVec 32 := Scalar.addi v3 c32768_i32_37
  ![v86.toNat]

def k0_chk17 (v96 : IVec S16 32) : Prop :=
  (∀ a x, ((![v96] : Fin 1 → IVec S16 32) a x).toNat < S32768.size a)
instance k0_chk17.dec : ∀ (v96 : IVec S16 32), Decidable (k0_chk17 v96) := fun v96 => decidable_of_iff' _ (Iff.of_eq (k0_chk17.eq_1 v96))
theorem k0_idx17_inb : ∀ (v96 : IVec S16 32) (k0_hw17 : k0_chk17 v96), ∀ a x, ((![v96] : Fin 1 → IVec S16 32) a x).toNat < S32768.size a := fun v96 k0_hw17 => k0_hw17

def k0_chk18 (v98 : IVec S16 32) : Prop :=
  (∀ a x, ((![v98] : Fin 1 → IVec S16 32) a x).toNat < S32768.size a)
instance k0_chk18.dec : ∀ (v98 : IVec S16 32), Decidable (k0_chk18 v98) := fun v98 => decidable_of_iff' _ (Iff.of_eq (k0_chk18.eq_1 v98))
theorem k0_idx18_inb : ∀ (v98 : IVec S16 32) (k0_hw18 : k0_chk18 v98), ∀ a x, ((![v98] : Fin 1 → IVec S16 32) a x).toNat < S32768.size a := fun v98 k0_hw18 => k0_hw18

def k0_chk19 (v104 : IVec S16 32) : Prop :=
  (∀ a x, ((![v104] : Fin 1 → IVec S16 32) a x).toNat < S32768.size a)
instance k0_chk19.dec : ∀ (v104 : IVec S16 32), Decidable (k0_chk19 v104) := fun v104 => decidable_of_iff' _ (Iff.of_eq (k0_chk19.eq_1 v104))
theorem k0_idx19_inb : ∀ (v104 : IVec S16 32) (k0_hw19 : k0_chk19 v104), ∀ a x, ((![v104] : Fin 1 → IVec S16 32) a x).toNat < S32768.size a := fun v104 k0_hw19 => k0_hw19

def k0_chk20 (v106 : IVec S16 32) : Prop :=
  (∀ a x, ((![v106] : Fin 1 → IVec S16 32) a x).toNat < S32768.size a)
instance k0_chk20.dec : ∀ (v106 : IVec S16 32), Decidable (k0_chk20 v106) := fun v106 => decidable_of_iff' _ (Iff.of_eq (k0_chk20.eq_1 v106))
theorem k0_idx20_inb : ∀ (v106 : IVec S16 32) (k0_hw20 : k0_chk20 v106), ∀ a x, ((![v106] : Fin 1 → IVec S16 32) a x).toNat < S32768.size a := fun v106 k0_hw20 => k0_hw20

def k0_chk21 (v112 : IVec S16 32) : Prop :=
  (∀ a x, ((![v112] : Fin 1 → IVec S16 32) a x).toNat < S32768.size a)
instance k0_chk21.dec : ∀ (v112 : IVec S16 32), Decidable (k0_chk21 v112) := fun v112 => decidable_of_iff' _ (Iff.of_eq (k0_chk21.eq_1 v112))
theorem k0_idx21_inb : ∀ (v112 : IVec S16 32) (k0_hw21 : k0_chk21 v112), ∀ a x, ((![v112] : Fin 1 → IVec S16 32) a x).toNat < S32768.size a := fun v112 k0_hw21 => k0_hw21

def k0_chk22 (v114 : IVec S16 32) : Prop :=
  (∀ a x, ((![v114] : Fin 1 → IVec S16 32) a x).toNat < S32768.size a)
instance k0_chk22.dec : ∀ (v114 : IVec S16 32), Decidable (k0_chk22 v114) := fun v114 => decidable_of_iff' _ (Iff.of_eq (k0_chk22.eq_1 v114))
theorem k0_idx22_inb : ∀ (v114 : IVec S16 32) (k0_hw22 : k0_chk22 v114), ∀ a x, ((![v114] : Fin 1 → IVec S16 32) a x).toNat < S32768.size a := fun v114 k0_hw22 => k0_hw22

def k0_chk23 (v120 : IVec S16 32) : Prop :=
  (∀ a x, ((![v120] : Fin 1 → IVec S16 32) a x).toNat < S32768.size a)
instance k0_chk23.dec : ∀ (v120 : IVec S16 32), Decidable (k0_chk23 v120) := fun v120 => decidable_of_iff' _ (Iff.of_eq (k0_chk23.eq_1 v120))
theorem k0_idx23_inb : ∀ (v120 : IVec S16 32) (k0_hw23 : k0_chk23 v120), ∀ a x, ((![v120] : Fin 1 → IVec S16 32) a x).toNat < S32768.size a := fun v120 k0_hw23 => k0_hw23

def k0_chk24 (v122 : IVec S16 32) : Prop :=
  (∀ a x, ((![v122] : Fin 1 → IVec S16 32) a x).toNat < S32768.size a)
instance k0_chk24.dec : ∀ (v122 : IVec S16 32), Decidable (k0_chk24 v122) := fun v122 => decidable_of_iff' _ (Iff.of_eq (k0_chk24.eq_1 v122))
theorem k0_idx24_inb : ∀ (v122 : IVec S16 32) (k0_hw24 : k0_chk24 v122), ∀ a x, ((![v122] : Fin 1 → IVec S16 32) a x).toNat < S32768.size a := fun v122 k0_hw24 => k0_hw24
def k0_off5 (i : grid0.Coords) (c65536_i32_56 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  let v3 : BitVec 32 := Scalar.muli v2 c16384_i32
  let v123 : BitVec 32 := Scalar.addi v3 c65536_i32_56
  ![v123.toNat]
def k0_off5_at (r : Fin 3) : BitVec 32 :=
  if r.val < 1 then
    65536#32
  else
    if r.val < 2 then
      0#32
    else
      98304#32

def k0_chk25 (v138 : IVec S16 32) : Prop :=
  (∀ a x, ((![v138] : Fin 1 → IVec S16 32) a x).toNat < S32768.size a)
instance k0_chk25.dec : ∀ (v138 : IVec S16 32), Decidable (k0_chk25 v138) := fun v138 => decidable_of_iff' _ (Iff.of_eq (k0_chk25.eq_1 v138))
theorem k0_idx25_inb : ∀ (v138 : IVec S16 32) (k0_hw25 : k0_chk25 v138), ∀ a x, ((![v138] : Fin 1 → IVec S16 32) a x).toNat < S32768.size a := fun v138 k0_hw25 => k0_hw25

def k0_chk26 (v140 : IVec S16 32) : Prop :=
  (∀ a x, ((![v140] : Fin 1 → IVec S16 32) a x).toNat < S32768.size a)
instance k0_chk26.dec : ∀ (v140 : IVec S16 32), Decidable (k0_chk26 v140) := fun v140 => decidable_of_iff' _ (Iff.of_eq (k0_chk26.eq_1 v140))
theorem k0_idx26_inb : ∀ (v140 : IVec S16 32) (k0_hw26 : k0_chk26 v140), ∀ a x, ((![v140] : Fin 1 → IVec S16 32) a x).toNat < S32768.size a := fun v140 k0_hw26 => k0_hw26

def k0_chk27 (v146 : IVec S16 32) : Prop :=
  (∀ a x, ((![v146] : Fin 1 → IVec S16 32) a x).toNat < S32768.size a)
instance k0_chk27.dec : ∀ (v146 : IVec S16 32), Decidable (k0_chk27 v146) := fun v146 => decidable_of_iff' _ (Iff.of_eq (k0_chk27.eq_1 v146))
theorem k0_idx27_inb : ∀ (v146 : IVec S16 32) (k0_hw27 : k0_chk27 v146), ∀ a x, ((![v146] : Fin 1 → IVec S16 32) a x).toNat < S32768.size a := fun v146 k0_hw27 => k0_hw27

def k0_chk28 (v148 : IVec S16 32) : Prop :=
  (∀ a x, ((![v148] : Fin 1 → IVec S16 32) a x).toNat < S32768.size a)
instance k0_chk28.dec : ∀ (v148 : IVec S16 32), Decidable (k0_chk28 v148) := fun v148 => decidable_of_iff' _ (Iff.of_eq (k0_chk28.eq_1 v148))
theorem k0_idx28_inb : ∀ (v148 : IVec S16 32) (k0_hw28 : k0_chk28 v148), ∀ a x, ((![v148] : Fin 1 → IVec S16 32) a x).toNat < S32768.size a := fun v148 k0_hw28 => k0_hw28

def k0_chk29 (v154 : IVec S16 32) : Prop :=
  (∀ a x, ((![v154] : Fin 1 → IVec S16 32) a x).toNat < S32768.size a)
instance k0_chk29.dec : ∀ (v154 : IVec S16 32), Decidable (k0_chk29 v154) := fun v154 => decidable_of_iff' _ (Iff.of_eq (k0_chk29.eq_1 v154))
theorem k0_idx29_inb : ∀ (v154 : IVec S16 32) (k0_hw29 : k0_chk29 v154), ∀ a x, ((![v154] : Fin 1 → IVec S16 32) a x).toNat < S32768.size a := fun v154 k0_hw29 => k0_hw29

def k0_chk30 (v156 : IVec S16 32) : Prop :=
  (∀ a x, ((![v156] : Fin 1 → IVec S16 32) a x).toNat < S32768.size a)
instance k0_chk30.dec : ∀ (v156 : IVec S16 32), Decidable (k0_chk30 v156) := fun v156 => decidable_of_iff' _ (Iff.of_eq (k0_chk30.eq_1 v156))
theorem k0_idx30_inb : ∀ (v156 : IVec S16 32) (k0_hw30 : k0_chk30 v156), ∀ a x, ((![v156] : Fin 1 → IVec S16 32) a x).toNat < S32768.size a := fun v156 k0_hw30 => k0_hw30

def k0_chk31 (v162 : IVec S16 32) : Prop :=
  (∀ a x, ((![v162] : Fin 1 → IVec S16 32) a x).toNat < S32768.size a)
instance k0_chk31.dec : ∀ (v162 : IVec S16 32), Decidable (k0_chk31 v162) := fun v162 => decidable_of_iff' _ (Iff.of_eq (k0_chk31.eq_1 v162))
theorem k0_idx31_inb : ∀ (v162 : IVec S16 32) (k0_hw31 : k0_chk31 v162), ∀ a x, ((![v162] : Fin 1 → IVec S16 32) a x).toNat < S32768.size a := fun v162 k0_hw31 => k0_hw31

def k0_chk32 (v164 : IVec S16 32) : Prop :=
  (∀ a x, ((![v164] : Fin 1 → IVec S16 32) a x).toNat < S32768.size a)
instance k0_chk32.dec : ∀ (v164 : IVec S16 32), Decidable (k0_chk32 v164) := fun v164 => decidable_of_iff' _ (Iff.of_eq (k0_chk32.eq_1 v164))
theorem k0_idx32_inb : ∀ (v164 : IVec S16 32) (k0_hw32 : k0_chk32 v164), ∀ a x, ((![v164] : Fin 1 → IVec S16 32) a x).toNat < S32768.size a := fun v164 k0_hw32 => k0_hw32
def k0_off6 (i : grid0.Coords) (c98304_i32_75 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16384_i32 : BitVec 32 := 16384#32
  let v3 : BitVec 32 := Scalar.muli v2 c16384_i32
  let v165 : BitVec 32 := Scalar.addi v3 c98304_i32_75
  ![v165.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S256x128x128_S4194304 : S256x128x128.ShapeCasts S4194304
  inb_S8x32_S1x16_0_0 : ∀ a, (![0, 0] : Fin 2 → Nat) a + S1x16.size a ≤ S8x32.size a
  h_S1x16 : 0 < S1x16.numel
  shapeCasts_S1x16_S16 : S1x16.ShapeCasts S16
  h_S32768 : 0 < S32768.numel
  inb_S8x32_S1x16_0_16 : ∀ a, (![0, 16] : Fin 2 → Nat) a + S1x16.size a ≤ S8x32.size a
  inb_S8x32_S1x16_1_0 : ∀ a, (![1, 0] : Fin 2 → Nat) a + S1x16.size a ≤ S8x32.size a
  inb_S8x32_S1x16_1_16 : ∀ a, (![1, 16] : Fin 2 → Nat) a + S1x16.size a ≤ S8x32.size a
  inb_S8x32_S1x16_2_0 : ∀ a, (![2, 0] : Fin 2 → Nat) a + S1x16.size a ≤ S8x32.size a
  inb_S8x32_S1x16_2_16 : ∀ a, (![2, 16] : Fin 2 → Nat) a + S1x16.size a ≤ S8x32.size a
  inb_S8x32_S1x16_3_0 : ∀ a, (![3, 0] : Fin 2 → Nat) a + S1x16.size a ≤ S8x32.size a
  inb_S8x32_S1x16_3_16 : ∀ a, (![3, 16] : Fin 2 → Nat) a + S1x16.size a ≤ S8x32.size a
  inb_S8x32_S1x16_4_0 : ∀ a, (![4, 0] : Fin 2 → Nat) a + S1x16.size a ≤ S8x32.size a
  inb_S8x32_S1x16_4_16 : ∀ a, (![4, 16] : Fin 2 → Nat) a + S1x16.size a ≤ S8x32.size a
  inb_S8x32_S1x16_5_0 : ∀ a, (![5, 0] : Fin 2 → Nat) a + S1x16.size a ≤ S8x32.size a
  inb_S8x32_S1x16_5_16 : ∀ a, (![5, 16] : Fin 2 → Nat) a + S1x16.size a ≤ S8x32.size a
  inb_S8x32_S1x16_6_0 : ∀ a, (![6, 0] : Fin 2 → Nat) a + S1x16.size a ≤ S8x32.size a
  inb_S8x32_S1x16_6_16 : ∀ a, (![6, 16] : Fin 2 → Nat) a + S1x16.size a ≤ S8x32.size a
  inb_S8x32_S1x16_7_0 : ∀ a, (![7, 0] : Fin 2 → Nat) a + S1x16.size a ≤ S8x32.size a
  inb_S8x32_S1x16_7_16 : ∀ a, (![7, 16] : Fin 2 → Nat) a + S1x16.size a ≤ S8x32.size a
  shapeCasts_S4194304_S256x128x128 : S4194304.ShapeCasts S256x128x128
  hcc0_scratch4 : 0 + S_.numel ≤ 7
  hcc0_scratch5 : 1 + S_.numel ≤ 7
  hcc0_scratch6 : 2 + S_.numel ≤ 7
  hcc0_scratch7 : 3 + S_.numel ≤ 7
  hcc0_scratch8 : 4 + S_.numel ≤ 7
  hcc0_scratch9 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (32768 * r.val))) a + S32768.size a ≤ S4194304.size a
  k0_off2_inb : ∀ i : grid0.Coords, ∀ a, (k0_off2 i) a + S8x32.size a ≤ S256x32.size a
  k0_off3_inb : ∀ i : grid0.Coords, ∀ (r : Fin 2), ∀ a, (k0_off3 i (BitVec.ofNat 32 (32768 * r.val))) a + S32768.size a ≤ S4194304.size a
  k0_off4_inb : ∀ i : grid0.Coords, ∀ (r : Fin 2), ∀ a, (k0_off4 i (BitVec.ofNat 32 (32768 + 32768 * r.val))) a + S32768.size a ≤ S4194304.size a
  k0_off5_inb : ∀ i : grid0.Coords, ∀ (r : Fin 3), ∀ a, (k0_off5 i (k0_off5_at r)) a + S32768.size a ≤ S4194304.size a
  k0_off6_inb : ∀ i : grid0.Coords, ∀ (r : Fin 3), ∀ a, (k0_off6 i (BitVec.ofNat 32 (32768 + 32768 * r.val))) a + S32768.size a ≤ S4194304.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0

class Facts : Prop extends Facts₀ where

variable [Facts]
-- ==== ReferenceIdeal.lean ====
abbrev S256x128x128 : Shape := ⟨3, ![256, 128, 128]⟩
abbrev S256x32 : Shape := ⟨2, ![256, 32]⟩
abbrev S256 : Shape := ⟨1, ![256]⟩
abbrev S256x1 : Shape := ⟨2, ![256, 1]⟩
abbrev S_ : Shape := ⟨0, ![]⟩
abbrev S256x32x1 : Shape := ⟨3, ![256, 32, 1]⟩
abbrev S256x32x3 : Shape := ⟨3, ![256, 32, 3]⟩

abbrev nBuf : Space → Nat
  | .hbm => 55
  | .vmem => 0
  | .smem => 0
  | _ => 0

abbrev bufTy : (tb : Table) → Fin (tcTables nBuf tb) → BufTy
  | .hbm, ⟨0, _⟩ => ⟨S256x128x128, .f32⟩
  | .hbm, ⟨1, _⟩ => ⟨S256x128x128, .f32⟩
  | .hbm, ⟨2, _⟩ => ⟨S256x32, .i32⟩
  | .hbm, ⟨3, _⟩ => ⟨S256, .i32⟩
  | .hbm, ⟨4, _⟩ => ⟨S256x1, .i32⟩
  | .hbm, ⟨5, _⟩ => ⟨S_, .i32⟩
  | .hbm, ⟨6, _⟩ => ⟨S256x1, .i32⟩
  | .hbm, ⟨7, _⟩ => ⟨S256x1, .i1⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x32, .i32⟩
  | .hbm, ⟨14, _⟩ => ⟨S256x32, .i1⟩
  | .hbm, ⟨15, _⟩ => ⟨S_, .i32⟩
  | .hbm, ⟨16, _⟩ => ⟨S256x32, .i32⟩
  | .hbm, ⟨17, _⟩ => ⟨S256x32, .i32⟩
  | .hbm, ⟨18, _⟩ => ⟨S256x32, .i32⟩
  | .hbm, ⟨19, _⟩ => ⟨S256x32, .i32⟩
  | .hbm, ⟨20, _⟩ => ⟨S_, .i32⟩
  | .hbm, ⟨21, _⟩ => ⟨S256x32, .i32⟩
  | .hbm, ⟨22, _⟩ => ⟨S256x32, .i32⟩
  | .hbm, ⟨23, _⟩ => ⟨S256x32x1, .i32⟩
  | .hbm, ⟨24, _⟩ => ⟨S256x32x1, .i32⟩
  | .hbm, ⟨25, _⟩ => ⟨S256x32x1, .i32⟩
  | .hbm, ⟨26, _⟩ => ⟨S256x32x3, .i32⟩
  | .hbm, ⟨27, _⟩ => ⟨S_, .f32⟩
  | .hbm, ⟨28, _⟩ => ⟨S256x32, .f32⟩
  | .hbm, ⟨29, _⟩ => ⟨S256x128x128, .f32⟩
  | .hbm, ⟨30, _⟩ => ⟨S_, .i32⟩
  | .hbm, ⟨31, _⟩ => ⟨S256x1, .i32⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x32, .i32⟩
  | .hbm, ⟨39, _⟩ => ⟨S256x32, .i1⟩
  | .hbm, ⟨40, _⟩ => ⟨S_, .i32⟩
  | .hbm, ⟨41, _⟩ => ⟨S256x32, .i32⟩
  | .hbm, ⟨42, _⟩ => ⟨S256x32, .i32⟩
  | .hbm, ⟨43, _⟩ => ⟨S256x32, .i32⟩
  | .hbm, ⟨44, _⟩ => ⟨S256x32, .i32⟩
  | .hbm, ⟨45, _⟩ => ⟨S_, .i32⟩
  | .hbm, ⟨46, _⟩ => ⟨S256x32, .i32⟩
  | .hbm, ⟨47, _⟩ => ⟨S256x32, .i32⟩
  | .hbm, ⟨48, _⟩ => ⟨S256x32x1, .i32⟩
  | .hbm, ⟨49, _⟩ => ⟨S256x32x1, .i32⟩
  | .hbm, ⟨50, _⟩ => ⟨S256x32x1, .i32⟩
  | .hbm, ⟨51, _⟩ => ⟨S256x32x3, .i32⟩
  | .hbm, ⟨52, _⟩ => ⟨S_, .f32⟩
  | .hbm, ⟨53, _⟩ => ⟨S256x32, .f32⟩
  | .hbm, ⟨54, _⟩ => ⟨S256x128x128, .f32⟩
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x1 : S_.BroadcastsInDim S256x1 (![] : Fin 0 → Fin S256x1.rank)
  bcast_S_S256x32 : S_.BroadcastsInDim S256x32 (![] : Fin 0 → Fin S256x32.rank)
  bcast_S256x1_S256x32_0_1 : S256x1.BroadcastsInDim S256x32 (![0, 1] : Fin 2 → Fin S256x32.rank)
  bcast_S256x32_S256x32x1_0_1 : S256x32.BroadcastsInDim S256x32x1 (![0, 1] : Fin 2 → Fin S256x32x1.rank)
  concatenates_S256x32x1_S256x32x1_S256x32x1_S256x32x3_d2 : Shape.Concatenates [S256x32x1, S256x32x1, S256x32x1] S256x32x3 2
  scatter_S256x128x128_S256x32x3_S256x32_n_012_012_2_wf : ScatterDims.WF S256x128x128 S256x32x3 S256x32 [] [0, 1, 2] [0, 1, 2] 2

variable [Facts₀]

def scatter_S256x128x128_S256x32x3_S256x32_n_012_012_2 : ScatterDims S256x128x128 S256x32x3 S256x32 where
  updateWindowDims := []
  insertedWindowDims := [0, 1, 2]
  scatterDimsToOperandDims := [0, 1, 2]
  indexVectorDim := 2
  wf := scatter_S256x128x128_S256x32x3_S256x32_n_012_012_2_wf

class Facts : Prop extends Facts₀ where

variable [Facts]
-- ==== Proof.RefFrame.lean ====
/-
  The reference's frame. Its @main is a straight line of host operations, so every weakly fair execution ends with
  each value at the operations' composed term of the arguments and the arguments unchanged; the frame is that run with
  the result's value dropped.
-/
import proofs.«212448_g4037269258948_cont_8to1_b_1693_16_alg».proof.Defs
import proofs.«212448_g4037269258948_cont_8to1_b_1693_16_alg».proof.Proof.Gen.ReferenceIdeal
import proofs.«212448_g4037269258948_cont_8to1_b_1693_16_alg».proof.Proof.Gen.ReferenceIdeal.Run
import proofs.«212448_g4037269258948_cont_8to1_b_1693_16_alg».proof.Proof.Gen.ReferenceIdeal.Read
import proofs.«212448_g4037269258948_cont_8to1_b_1693_16_alg».proof.Proof.Gen.Pre_input_domain

noncomputable section

namespace Cert.Proof.RefFrame

open Idealize.ShloMosaic Idealize.SL.Sem

theorem frame_ri : @Cert.frame_ReferenceIdeal Cert.ReferenceIdeal.Gen.facts Cert.Pre_input_domain.Gen.facts := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The function both programs compute. A batch of 256 graphs, each 128 nodes by 128 features, and for every graph a
  list of 32 node numbers. The result is the feature array with, in every listed node's row, feature 0 replaced by one
  constant and feature 1 by another; every other element is the input's. A node listed twice is written twice with the
  same value, so the order of the writes does not matter and "listed" is an existential.
  Stated twice: over the array as [256, 128, 128], and over the same elements in row-major order as [4194304], where
  element q belongs to graph q / 16384, node q / 128 mod 128, feature q mod 128.
-/
import Idealize.ShloMosaic.PureOps
import Idealize.ShloMosaic.Lib.ValueIdx

noncomputable section

namespace Cert.Proof.Spec

open Idealize.ShloMosaic
open Classical

abbrev S3 : Shape := ⟨3, ![256, 128, 128]⟩
abbrev SI : Shape := ⟨2, ![256, 32]⟩
abbrev SF : Shape := ⟨1, ![4194304]⟩

/-- Node `n` is among the 32 node numbers listed for graph `b` (each number read as an unsigned word). -/
def Listed (x2 : IVec SI 32) (b n : Nat) : Prop := ∃ k : SI.Idx, (k 0).val = b ∧ (x2 k).toNat = n

/-- The result over [256, 128, 128]: feature 0 of a listed node is `cm`, feature 1 of a listed node is `cz`, every
    other element is `x0`'s. -/
def G {α : Type} (cm cz : α) (x0 : S3.Idx → α) (x2 : IVec SI 32) : S3.Idx → α := fun i =>
  if (i 2).val = 0 ∧ Listed x2 (i 0).val (i 1).val then cm
  else if (i 2).val = 1 ∧ Listed x2 (i 0).val (i 1).val then cz
  else x0 i

/-- The same result over the elements in row-major order. -/
def Gflat {α : Type} (cm cz : α) (y : SF.Idx → α) (x2 : IVec SI 32) : SF.Idx → α := fun p =>
  if (p 0).val % 128 = 0 ∧ Listed x2 ((p 0).val / 16384) ((p 0).val / 128 % 128) then cm
  else if (p 0).val % 128 = 1 ∧ Listed x2 ((p 0).val / 16384) ((p 0).val / 128 % 128) then cz
  else y p

end Cert.Proof.Spec

end
-- ==== Proof.LibScatterSet.lean ====
/-
  A scatter whose combiner returns the update and whose updates all hold one constant. Every write stores the same
  value, so the order of the writes does not matter: the result at an element is the constant when some update index
  lands on the element, and the operand's element otherwise. Also stated here: where an update index lands, by
  coordinates (start plus window coordinate on every axis, inside the operand).
-/
import Idealize.ShloMosaic.PureOps

noncomputable section

namespace Cert.Proof.LibScatterSet

open Idealize.ShloMosaic
open Classical

variable {α : Type} {s si u : Shape} {w : Nat}

/-- A left fold, over any list of update numbers, of a step that writes the constant `c` at the element the update
    lands on and leaves every other element (and, when the update lands nowhere, every element) as it was: the result at
    `i'` is `c` when some update of the list lands on `i'`, and the starting value's element otherwise. -/
theorem foldl_set_const (d : ScatterDims s si u) (idx : IVec si w) (c : α)
    (step : (s.Idx → α) → Fin u.numel → (s.Idx → α))
    (hhit : ∀ r n i, d.resultIdx? (u.rowMajor.symm n) idx = some i → step r n i = c)
    (hmiss : ∀ r n i i', d.resultIdx? (u.rowMajor.symm n) idx = some i → i' ≠ i → step r n i' = r i')
    (hnone : ∀ r n, d.resultIdx? (u.rowMajor.symm n) idx = none → step r n = r)
    (i' : s.Idx) : ∀ (l : List (Fin u.numel)) (x : s.Idx → α),
      l.foldl step x i' = if ∃ n ∈ l, d.resultIdx? (u.rowMajor.symm n) idx = some i' then c else x i' := by
  intro l
  induction l with
  | nil => intro x; simp
  | cons n l ih =>
    intro x
    rw [List.foldl_cons, ih]
    by_cases h1 : ∃ m ∈ l, d.resultIdx? (u.rowMajor.symm m) idx = some i'
    · obtain ⟨m, hm, e⟩ := h1
      rw [if_pos ⟨m, hm, e⟩, if_pos ⟨m, List.mem_cons_of_mem _ hm, e⟩]
    · rw [if_neg h1]
      cases hn : d.resultIdx? (u.rowMajor.symm n) idx with
      | none =>
        rw [hnone x n hn, if_neg]
        rintro ⟨m, hm, e⟩
        rcases List.mem_cons.1 hm with rfl | hm
        · rw [hn] at e; cases e
        · exact h1 ⟨m, hm, e⟩
      | some i =>
        by_cases hi : i' = i
        · subst hi
          rw [hhit x n i' hn, if_pos ⟨n, List.mem_cons_self, hn⟩]
        · rw [hmiss x n i i' hn hi, if_neg]
          rintro ⟨m, hm, e⟩
          rcases List.mem_cons.1 hm with rfl | hm
          · rw [hn] at e; exact hi (Option.some.inj e).symm
          · exact h1 ⟨m, hm, e⟩

/-- **A scatter of one constant with the combiner "take the update"**, read at an element: the constant when some
    update index lands on the element, the operand's element otherwise. -/
theorem scatter_set_const (d : ScatterDims s si u) (x : s.Idx → α) (idx : IVec si w) (c : α) (i' : s.Idx) :
    Host.scatter d (fun _ b => b) x idx (fun _ => c) i'
      = if ∃ j, d.resultIdx? j idx = some i' then c else x i' := by
  have hiff : (∃ n ∈ List.finRange u.numel, d.resultIdx? (u.rowMajor.symm n) idx = some i')
      ↔ ∃ j, d.resultIdx? j idx = some i' :=
    ⟨fun ⟨n, _, h⟩ => ⟨_, h⟩,
     fun ⟨j, h⟩ => ⟨u.rowMajor j, List.mem_finRange _, by rw [Equiv.symm_apply_apply]; exact h⟩⟩
  unfold Host.scatter
  rw [foldl_set_const d idx c _ ?_ ?_ ?_ i' (List.finRange u.numel) x]
  · by_cases h : ∃ j, d.resultIdx? j idx = some i'
    · rw [if_pos h, if_pos (hiff.2 h)]
    · rw [if_neg h, if_neg (mt hiff.1 h)]
  · intro r n i h
    simp only [h, if_true]
  · intro r n i i' h hne
    simp only [h, if_neg hne]
  · intro r n h
    simp only [h]

/-- **Where an update index lands**: on `i'` exactly when, on every axis, the start read off the scatter indices plus
    the window coordinate is `i'`'s coordinate. (An update whose sum leaves the operand on some axis lands nowhere,
    and then no `i'` has these coordinates.) -/
theorem resultIdx?_eq_some_iff (d : ScatterDims s si u) (j : u.Idx) (idx : IVec si w) (i' : s.Idx) :
    d.resultIdx? j idx = some i' ↔ ∀ a, d.start j idx a + (d.window j a : Int) = ((i' a).val : Int) := by
  unfold ScatterDims.resultIdx?
  split
  · next h =>
    constructor
    · intro e a
      have e' := congrArg (fun f : s.Idx => (f a).val) (Option.some.inj e)
      simp only at e'
      have h0 := (h a).1
      omega
    · intro e
      congr 1
      funext a
      apply Fin.ext
      have := e a
      simp only
      omega
  · next h =>
    constructor
    · intro e; cases e
    · intro e
      exact absurd (fun a => ⟨by have := e a; omega, by have := e a; have := (i' a).isLt; omega⟩) h

end Cert.Proof.LibScatterSet

end
-- ==== Proof.RefValue.lean ====
/-
  The reference program computes the specification's function G.
  The program is two scatters. For every graph b and every position j of its list it forms the index triple
  (b, the listed node number with a negative value wrapped by +128, f) and writes one constant there: 119.0 with f = 0
  in the first scatter, 0.0 with f = 1 in the second. Under the hypothesis that every listed number is at most 127 read
  unsigned (so it is non-negative read signed, and the wrap never happens), the triple of update (b, j) is
  (b, x2[b, j], f), always inside the array. A scatter of one constant is the constant wherever some update lands and the
  operand elsewhere, so the first scatter replaces feature 0 of every listed node, the second feature 1, and the two
  sets of elements are disjoint: that is G.
-/
import proofs.«212448_g4037269258948_cont_8to1_b_1693_16_alg».proof.Proof.Spec
import proofs.«212448_g4037269258948_cont_8to1_b_1693_16_alg».proof.Proof.Gen.ReferenceIdeal.Read
import proofs.«212448_g4037269258948_cont_8to1_b_1693_16_alg».proof.Proof.LibScatterSet

noncomputable section

namespace Cert.Proof.RefValue

open Idealize.ShloMosaic Cert.ReferenceIdeal Cert.ReferenceIdeal.Gen Cert.ReferenceIdeal.Read Cert.Proof.LibScatterSet
open Classical

/-- The dimension numbers of both scatters: no window axes, every operand axis inserted, component c of the index
    vector naming operand axis c, the index vector along the last axis of the scatter indices. -/
abbrev d := scatter_S256x128x128_S256x32x3_S256x32_n_012_012_2

/-- The place in the [256, 32, 3] scatter indices of component `c` of the index triple of update `j = (b, k)`: (b, k, c). -/
def tri (j : S256x32.Idx) (c : Fin 3) : S256x32x3.Idx := fun b => match b with
  | ⟨0, _⟩ => ⟨(j 0).val, (j 0).isLt⟩
  | ⟨1, _⟩ => ⟨(j 1).val, (j 1).isLt⟩
  | ⟨2, _⟩ => ⟨c.val, c.isLt⟩

/-- Every operand axis is inserted, so the window coordinate is 0 on every axis. -/
theorem window_zero (j : S256x32.Idx) (a : Fin S256x128x128.rank) : d.window j a = 0 := by
  have hk : d.sKept = [] := by decide
  unfold ScatterDims.window
  rw [dif_neg]
  rw [hk]; exact List.not_mem_nil

/-- The start on operand axis `a` of update `j` is component `a` of its index triple, read signed. -/
theorem start_eq (j : S256x32.Idx) (idx : IVec S256x32x3 32) (a : Fin S256x128x128.rank) :
    d.start j idx a = (idx (tri j a)).toInt := by
  have h0 : d.start j idx 0 = (idx (tri j 0)).toInt := by
    unfold ScatterDims.start
    rw [dif_pos (by decide)]
    congr 2
    funext b
    match b with
    | ⟨0, _⟩ => rfl
    | ⟨1, _⟩ => rfl
    | ⟨2, _⟩ => rfl
  have h1 : d.start j idx 1 = (idx (tri j 1)).toInt := by
    unfold ScatterDims.start
    rw [dif_pos (by decide)]
    congr 2
    funext b
    match b with
    | ⟨0, _⟩ => rfl
    | ⟨1, _⟩ => rfl
    | ⟨2, _⟩ => rfl
  have h2 : d.start j idx 2 = (idx (tri j 2)).toInt := by
    unfold ScatterDims.start
    rw [dif_pos (by decide)]
    congr 2
    funext b
    match b with
    | ⟨0, _⟩ => rfl
    | ⟨1, _⟩ => rfl
    | ⟨2, _⟩ => rfl
  match a with
  | ⟨0, _⟩ => exact h0
  | ⟨1, _⟩ => exact h1
  | ⟨2, _⟩ => exact h2

/-- The place of update `j = (b, k)` in each [256, 32, 1] piece of the concatenation: (b, k, 0). -/
def piece (j : S256x32.Idx) : S256x32x1.Idx := fun b => match b with
  | ⟨0, _⟩ => ⟨(j 0).val, (j 0).isLt⟩
  | ⟨1, _⟩ => ⟨(j 1).val, (j 1).isLt⟩
  | ⟨2, _⟩ => ⟨0, Nat.one_pos⟩

/-- A word below 2^31 read unsigned is non-negative read signed: the signed comparison with 0 answers no. -/
theorem slt_zero_of_small (x : BitVec 32) (h : x.toNat < 2147483648) : IntOp.cmpi .slt x 0#32 = 0#1 := by
  have e : x.toInt = (x.toNat : Int) := by
    rw [BitVec.toInt_eq_toNat_cond, if_pos (by omega)]
  have hn : ¬ ((x.toNat : Int) < 0) := by omega
  unfold IntOp.cmpi
  simp [BitVec.slt, e, hn]

/-- A select on the condition 0 takes its second branch. -/
theorem select_zero {α : Type} (a b : α) : Scalar.select 0#1 a b = b := by
  unfold Scalar.select; rw [if_neg (by decide)]

/-- Three [256, 32, 1] arrays joined along the last axis into [256, 32, 3], read at (b, k, c): piece c at (b, k, 0). -/
theorem concat3_piece (y0 y1 y2 : S256x32x1.Idx → BitVec 32) (j : S256x32.Idx) :
    concatenate S256x32x3 2 [⟨S256x32x1, y0⟩, ⟨S256x32x1, y1⟩, ⟨S256x32x1, y2⟩]
        concatenates_S256x32x1_S256x32x1_S256x32x1_S256x32x3_d2 (tri j 0) = y0 (piece j)
    ∧ concatenate S256x32x3 2 [⟨S256x32x1, y0⟩, ⟨S256x32x1, y1⟩, ⟨S256x32x1, y2⟩]
        concatenates_S256x32x1_S256x32x1_S256x32x1_S256x32x3_d2 (tri j 1) = y1 (piece j)
    ∧ concatenate S256x32x3 2 [⟨S256x32x1, y0⟩, ⟨S256x32x1, y1⟩, ⟨S256x32x1, y2⟩]
        concatenates_S256x32x1_S256x32x1_S256x32x1_S256x32x3_d2 (tri j 2) = y2 (piece j) := by
  have hi : ∀ (c : Fin 3) (b : Fin S256x32x1.rank), b.cast (rfl : S256x32x1.rank = S256x32x3.rank) ≠ (2 : Fin 3) →
      (piece j b).val = (tri j c (b.cast rfl)).val := by
    intro c b hb
    match b with
    | ⟨0, _⟩ => rfl
    | ⟨1, _⟩ => rfl
    | ⟨2, _⟩ => exact absurd rfl hb
  refine ⟨?_, ?_, ?_⟩
  · exact concatenate_apply_piece (t := S256x32x3) (2 : Fin 3) [⟨S256x32x1, y0⟩, ⟨S256x32x1, y1⟩, ⟨S256x32x1, y2⟩]
      concatenates_S256x32x1_S256x32x1_S256x32x1_S256x32x3_d2 (tri j 0) 0 (by simp)
      S256x32x1 y0 rfl rfl 0 rfl (piece j) (hi 0) rfl
  · exact concatenate_apply_piece (t := S256x32x3) (2 : Fin 3) [⟨S256x32x1, y0⟩, ⟨S256x32x1, y1⟩, ⟨S256x32x1, y2⟩]
      concatenates_S256x32x1_S256x32x1_S256x32x1_S256x32x3_d2 (tri j 1) 1 (by simp)
      S256x32x1 y1 rfl rfl 1 rfl (piece j) (hi 1) rfl
  · exact concatenate_apply_piece (t := S256x32x3) (2 : Fin 3) [⟨S256x32x1, y0⟩, ⟨S256x32x1, y1⟩, ⟨S256x32x1, y2⟩]
      concatenates_S256x32x1_S256x32x1_S256x32x1_S256x32x3_d2 (tri j 2) 2 (by simp)
      S256x32x1 y2 rfl rfl 2 rfl (piece j) (hi 2) rfl

/-- First scatter, component 0 of the triple: the graph number b (an iota, never negative, so the wrap by +256 is not taken). -/
theorem comp0_first (j : S256x32.Idx) : val_main_v15 (F := Ideal) (piece j) = BitVec.ofNat 32 (j 0).val := by
  have hb : (j 0).val < 256 := (j 0).isLt
  rw [val_main_v15_apply, val_main_v12_apply, val_main_v6_apply, val_main_v3_apply, val_main_v1_apply, val_main_v0_apply,
    val_main_v2_apply, val_main_c_apply]
  show Scalar.select (IntOp.cmpi .slt (BitVec.ofNat 32 (j 0).val) 0#32) _ (BitVec.ofNat 32 (j 0).val) = _
  rw [slt_zero_of_small _ (by rw [BitVec.toNat_ofNat]; exact Nat.lt_of_le_of_lt (Nat.mod_le _ _) (by omega)), select_zero]

/-- First scatter, component 1: the listed node number (at most 127, so not negative and the wrap by +128 is not taken). -/
theorem comp1_first (x2 : (⟨S256x32, .i32⟩ : BufTy).Contents (Elt Ideal)) (hr : ∀ k, (x2 k).toNat ≤ 127) (j : S256x32.Idx) :
    val_main_v16 (F := Ideal) x2 (piece j) = x2 j := by
  have hj : idx_main_v16 (piece j) = j := by
    funext b
    match b with
    | ⟨0, _⟩ => rfl
    | ⟨1, _⟩ => rfl
  rw [val_main_v16_apply, val_main_v11_apply, val_main_v8_apply, val_main_v7_apply, val_main_c_1_apply, hj,
    slt_zero_of_small _ (by have := hr j; omega), select_zero]

/-- First scatter, component 2: the constant 0. -/
theorem comp2_first (j : S256x32.Idx) : val_main_v17 (F := Ideal) (piece j) = 0#32 := by
  rw [val_main_v17_apply, val_main_v14_apply, val_main_v13_apply, val_main_c_3_apply]

/-- Second scatter, component 0: the graph number b. -/
theorem comp0_second (j : S256x32.Idx) : val_main_v34 (F := Ideal) (piece j) = BitVec.ofNat 32 (j 0).val := by
  have hb : (j 0).val < 256 := (j 0).isLt
  rw [val_main_v34_apply, val_main_v31_apply, val_main_v25_apply, val_main_v22_apply, val_main_v1_apply, val_main_v0_apply,
    val_main_v21_apply, val_main_c_4_apply]
  show Scalar.select (IntOp.cmpi .slt (BitVec.ofNat 32 (j 0).val) 0#32) _ (BitVec.ofNat 32 (j 0).val) = _
  rw [slt_zero_of_small _ (by rw [BitVec.toNat_ofNat]; exact Nat.lt_of_le_of_lt (Nat.mod_le _ _) (by omega)), select_zero]

/-- Second scatter, component 1: the listed node number. -/
theorem comp1_second (x2 : (⟨S256x32, .i32⟩ : BufTy).Contents (Elt Ideal)) (hr : ∀ k, (x2 k).toNat ≤ 127) (j : S256x32.Idx) :
    val_main_v35 (F := Ideal) x2 (piece j) = x2 j := by
  have hj : idx_main_v35 (piece j) = j := by
    funext b
    match b with
    | ⟨0, _⟩ => rfl
    | ⟨1, _⟩ => rfl
  rw [val_main_v35_apply, val_main_v30_apply, val_main_v27_apply, val_main_v26_apply, val_main_c_6_apply, hj,
    slt_zero_of_small _ (by have := hr j; omega), select_zero]

/-- Second scatter, component 2: the constant 1. -/
theorem comp2_second (j : S256x32.Idx) : val_main_v36 (F := Ideal) (piece j) = 1#32 := by
  rw [val_main_v36_apply, val_main_v33_apply, val_main_v32_apply, val_main_c_8_apply]

/-- Scatter indices whose triple at update (b, k) is (b, x2[b, k], c): some update lands on element `i` exactly when `i`'s
    feature is `c` and `i`'s node is listed for `i`'s graph. Every coordinate is small and non-negative, so the signed
    reading of each component is its unsigned one and the landing place is always inside the array. -/
theorem lands_iff (x2 : IVec S256x32 32) (hr : ∀ k, (x2 k).toNat ≤ 127) (idx : IVec S256x32x3 32) (c : Nat)
    (h0 : ∀ j, idx (tri j 0) = BitVec.ofNat 32 (j 0).val) (h1 : ∀ j, idx (tri j 1) = x2 j)
    (h2 : ∀ j, (idx (tri j 2)).toInt = (c : Int)) (i : S256x128x128.Idx) :
    (∃ j, d.resultIdx? j idx = some i) ↔ (i 2).val = c ∧ Spec.Listed x2 (i 0).val (i 1).val := by
  have t0 : ∀ j : S256x32.Idx, (BitVec.ofNat 32 (j 0).val).toInt = ((j 0).val : Int) := by
    intro j
    have hb : (j 0).val < 256 := (j 0).isLt
    rw [BitVec.toInt_eq_toNat_cond, BitVec.toNat_ofNat, Nat.mod_eq_of_lt (by omega), if_pos (by omega)]
  have t1 : ∀ j, (x2 j).toInt = ((x2 j).toNat : Int) := by
    intro j
    have := hr j
    rw [BitVec.toInt_eq_toNat_cond, if_pos (by omega)]
  constructor
  · rintro ⟨j, hj⟩
    rw [resultIdx?_eq_some_iff] at hj
    have e0 := hj 0
    have e1 := hj 1
    have e2 := hj 2
    rw [start_eq, window_zero] at e0 e1 e2
    rw [h0, t0] at e0
    rw [h1, t1] at e1
    rw [h2] at e2
    exact ⟨by omega, j, by omega, by omega⟩
  · rintro ⟨hc, k, hk0, hk1⟩
    refine ⟨k, (resultIdx?_eq_some_iff _ _ _ _).2 ?_⟩
    intro a
    rw [start_eq, window_zero]
    match a with
    | ⟨0, _⟩ =>
      show (idx (tri k 0)).toInt + _ = ((i 0).val : Int)
      rw [h0, t0]; omega
    | ⟨1, _⟩ =>
      show (idx (tri k 1)).toInt + _ = ((i 1).val : Int)
      rw [h1, t1]; omega
    | ⟨2, _⟩ =>
      show (idx (tri k 2)).toInt + _ = ((i 2).val : Int)
      rw [h2]; omega

/-- **The reference's result is G** of the two constants, the feature array and the lists, when every listed number is
    at most 127. The second scatter writes feature 1 of listed nodes; elsewhere the first scatter's result stands, which
    is the first constant at feature 0 of listed nodes and the input elsewhere. Feature 0 and feature 1 are different
    elements, so the order in which G tests them does not matter. -/
theorem ref_eq_G (x0 : (⟨Cert.ReferenceIdeal.S256x128x128, .f32⟩ : BufTy).Contents (Elt Ideal)) (x2 : (⟨Cert.ReferenceIdeal.S256x32, .i32⟩ : BufTy).Contents (Elt Ideal))
    (hr : ∀ k, (x2 k).toNat ≤ 127) :
    Cert.ReferenceIdeal.Read.val_main_v39 (F := Ideal) x0 x2
      = Cert.Proof.Spec.G (Ideal.ofBits .f32 0x42EE0000#32) (Ideal.ofBits .f32 0x00000000#32) x0 x2 := by
  have hv19 : val_main_v19 (F := Ideal) = fun _ => Ideal.ofBits .f32 0x42EE0000#32 := by
    funext k; rw [val_main_v19_apply, val_main_cst_apply]; rfl
  have hv38 : val_main_v38 (F := Ideal) = fun _ => Ideal.ofBits .f32 0x00000000#32 := by
    funext k; rw [val_main_v38_apply, val_main_cst_9_apply]; rfl
  funext i
  have L1 := lands_iff x2 hr (val_main_v18 (F := Ideal) x2) 0
    (fun j => by unfold val_main_v18; rw [(concat3_piece _ _ _ j).1, comp0_first])
    (fun j => by unfold val_main_v18; rw [(concat3_piece _ _ _ j).2.1, comp1_first x2 hr])
    (fun j => by unfold val_main_v18; rw [(concat3_piece _ _ _ j).2.2, comp2_first]; rfl) i
  have L2 := lands_iff x2 hr (val_main_v37 (F := Ideal) x2) 1
    (fun j => by unfold val_main_v37; rw [(concat3_piece _ _ _ j).1, comp0_second])
    (fun j => by unfold val_main_v37; rw [(concat3_piece _ _ _ j).2.1, comp1_second x2 hr])
    (fun j => by unfold val_main_v37; rw [(concat3_piece _ _ _ j).2.2, comp2_second]; rfl) i
  unfold val_main_v39 val_main_v20
  rw [hv19, hv38, scatter_set_const, scatter_set_const]
  unfold Spec.G
  by_cases hP0 : (i 2).val = 0 ∧ Spec.Listed x2 (i 0).val (i 1).val
  · have hnP1 : ¬ ((i 2).val = 1 ∧ Spec.Listed x2 (i 0).val (i 1).val) := fun h => by have := h.1; have := hP0.1; omega
    rw [if_neg (mt L2.1 hnP1), if_pos (L1.2 hP0), if_pos hP0]
  · by_cases hP1 : (i 2).val = 1 ∧ Spec.Listed x2 (i 0).val (i 1).val
    · rw [if_pos (L2.2 hP1), if_neg hP0, if_pos hP1]
    · rw [if_neg (mt L2.1 hP1), if_neg (mt L1.1 hP0), if_neg hP0, if_neg hP1]

end Cert.Proof.RefValue

end
-- ==== Proof.PreRange.lean ====
/-
  What the input-domain precondition says of the node numbers. The precondition is the conjunction of three
  all-reductions; the third is "every word of the index array is, read as a signed number, between 0 and 127". From the
  conjunction being 1 the third reduction is 1, so every element of the reduced array is 1, and a signed word between
  0 and 127 is, read unsigned, at most 127.
-/
import proofs.«212448_g4037269258948_cont_8to1_b_1693_16_alg».proof.Pre_input_domain
import proofs.«212448_g4037269258948_cont_8to1_b_1693_16_alg».proof.Proof.Gen.Pre_input_domain
import Idealize.ShloMosaic.Lib.ReduceAll

noncomputable section

namespace Cert.Proof.PreRange

open Idealize.ShloMosaic

/-- The rank-0 shape has exactly one index. -/
instance : Subsingleton Cert.Pre_input_domain.S_.Idx := ⟨fun a b => funext fun d => d.elim0⟩

/-- A 32-bit word that is at least 0 and at most 127 as a signed number is at most 127 as an unsigned one. -/
theorem toNat_le_of_signed (v : BitVec 32)
    (e : IntOp.andi (IntOp.cmpi .sge v 0#32) (IntOp.cmpi .sle v 127#32) = 1#1) : v.toNat ≤ 127 := by
  obtain ⟨e1, e2⟩ := IntOp.andi_eq_one.1 e
  rw [IntOp.cmpi_sge] at e1
  rw [IntOp.cmpi_sle] at e2
  rw [show (0#32 : BitVec 32).toInt = 0 from by decide] at e1
  rw [show (127#32 : BitVec 32).toInt = 127 from by decide] at e2
  rw [BitVec.toInt_eq_toNat_cond] at e1 e2
  have hlt : v.toNat < 2 ^ 32 := v.isLt
  split at e1 <;> omega

/-- Under the input-domain precondition every node number is at most 127. -/
theorem pre_range {F : FTy → Type} [FloatOps F] (a0 a1 : FVec F Cert.Pre_input_domain.S256x128x128 .f32) (a2 : IVec Cert.Pre_input_domain.S256x32 32)
    (h : @Cert.Pre_input_domain.fn Cert.Pre_input_domain.Gen.facts F _ a0 a1 a2 = fun _ => 1#1) : ∀ k, (a2 k).toNat ≤ 127 := by
  intro k
  have e := congrFun h (fun d => d.elim0)
  dsimp only [Cert.Pre_input_domain.fn, andi] at e
  obtain ⟨-, e3⟩ := IntOp.andi_eq_one.1 e
  have ek := Host.reduce_andi_all _ _ _ _ _ e3 k
  exact toNat_le_of_signed (a2 k) ek

end Cert.Proof.PreRange

end
-- ==== Proof.Reshape.lean ====
/-
  The flat statement of the result, reshaped, is the three-dimensional statement. Element (b, n, f) of a
  [256, 128, 128] array sits at row-major position 16384 b + 128 n + f of the same elements taken as [4194304]; at that
  position the flat result's feature number q mod 128 is f, its graph number q / 16384 is b, and its node number
  q / 128 mod 128 is n, so the two results test the same conditions and, where neither holds, read the same input element.
-/
import proofs.«212448_g4037269258948_cont_8to1_b_1693_16_alg».proof.Proof.Spec
import Idealize.ShloMosaic.Lib.Pipeline.Value

noncomputable section

namespace Cert.Proof.Reshape

open Idealize.ShloMosaic

/-- The flat result of the flattened input, reshaped to [256, 128, 128], is the three-dimensional result of the input. -/
theorem shapeCast_Gflat {α : Type} (cm cz : α) (x0 : Cert.Proof.Spec.S3.Idx → α) (x2 : IVec Cert.Proof.Spec.SI 32)
    (h1 : Cert.Proof.Spec.S3.ShapeCasts Cert.Proof.Spec.SF) (h2 : Cert.Proof.Spec.SF.ShapeCasts Cert.Proof.Spec.S3) :
    shapeCast Cert.Proof.Spec.S3 (Cert.Proof.Spec.Gflat cm cz (shapeCast Cert.Proof.Spec.SF x0 h1) x2) h2 = Cert.Proof.Spec.G cm cz x0 x2 := by
  funext i
  have b0 : (i 0).val < 256 := (i 0).isLt
  have b1 : (i 1).val < 128 := (i 1).isLt
  have b2 : (i 2).val < 128 := (i 2).isLt
  -- the flat index at the same row-major position
  obtain ⟨p, hp0⟩ : ∃ p : Cert.Proof.Spec.SF.Idx, (p 0).val = 16384 * (i 0).val + 128 * (i 1).val + (i 2).val :=
    ⟨ValueIdx.ix1 ⟨16384 * (i 0).val + 128 * (i 1).val + (i 2).val, by omega⟩, rfl⟩
  have hp : (Cert.Proof.Spec.SF.rowMajor p).val = (Cert.Proof.Spec.S3.rowMajor i).val := by
    rw [Shape.rowMajor_val_one, Shape.rowMajor_val_three, hp0]
    show 16384 * (i 0).val + 128 * (i 1).val + (i 2).val = ((i 0).val * 128 + (i 1).val) * 128 + (i 2).val
    omega
  rw [shapeCast_apply _ h2 i p hp]
  have e0 : (p 0).val % 128 = (i 2).val := by omega
  have e1 : (p 0).val / 16384 = (i 0).val := by omega
  have e2 : (p 0).val / 128 % 128 = (i 1).val := by omega
  have e3 : shapeCast Cert.Proof.Spec.SF x0 h1 p = x0 i := shapeCast_apply x0 h1 p i hp.symm
  unfold Cert.Proof.Spec.Gflat Cert.Proof.Spec.G
  rw [e0, e1, e2, e3]

end Cert.Proof.Reshape

end
-- ==== Proof.KISetup.lean ====
/-
  The set-up shared by the proof of one tile's task and of the launch, for the program `KernelIdeal`.
  The kernel runs on the 32 vector subcores (2 SparseCores of 16). Subcore s of SparseCore c has number 2 s + c and owns
  graphs 8 (2 s + c) … 8 (2 s + c) + 7: the 131072 consecutive elements of the flat feature array from
  262144 s + 131072 c on, cut into four chunks of 32768 (two graphs each), and rows 16 s + 8 c … + 7 of the index array.
  It stages a chunk in one of three buffers, overwrites in it feature 0 and feature 1 of every listed node's row, and
  copies the chunk to the same place of the flat result. Every copy is local to the subcore and waited for by it, so no
  schedule between threads is needed: the ghost state is the launch handshakes' rounds beside the transfers' counters.
  Here: the program as the launch theorem sees it, the resource algebra, the memrefs as the body slices them, and why
  every indexed store stays inside its staging buffer (a listed node number is at most 127).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The kernel's memrefs, as the body table passes them and as the body slices them -/

abbrev nfW : Memref sig .scVector .hbm S4194304 .f32 := Memref.whole main_v0_scv
abbrev ixW : Memref sig .scVector .hbm S256x32 .i32 := Memref.whole main_arg2_scv
abbrev outW : Memref sig .scVector .hbm S4194304 .f32 := Memref.whole main_v1_scv
abbrev s0W : Memref sig .scVector .vmem S8x32 .i32 := Memref.whole cc0_scratch0
abbrev b1W : Memref sig .scVector .vmem S32768 .f32 := Memref.whole cc0_scratch1
abbrev b2W : Memref sig .scVector .vmem S32768 .f32 := Memref.whole cc0_scratch2
abbrev b3W : Memref sig .scVector .vmem S32768 .f32 := Memref.whole cc0_scratch3

abbrev cV (L : grid0.Coords) : Fin τ.nSC := (L 0).castLE hcore0
abbrev jV (L : grid0.Coords) : Fin τ.nSub := (L 1).castLE hsub0

abbrev nf0 (L : grid0.Coords) : Memref sig .scVector .hbm S32768 .f32 := nfW.slice (Rect.unit (s := S4194304) (k0_off1 L 0#32) S32768.size (k0_off1_inb L 0)) (fun _ => rfl)
abbrev nf1 (L : grid0.Coords) : Memref sig .scVector .hbm S32768 .f32 := nfW.slice (Rect.unit (s := S4194304) (k0_off1 L 32768#32) S32768.size (k0_off1_inb L 1)) (fun _ => rfl)
abbrev nf2 (L : grid0.Coords) : Memref sig .scVector .hbm S32768 .f32 := nfW.slice (Rect.unit (s := S4194304) (k0_off1 L 65536#32) S32768.size (k0_off1_inb L 2)) (fun _ => rfl)
abbrev nf3 (L : grid0.Coords) : Memref sig .scVector .hbm S32768 .f32 := nfW.slice (Rect.unit (s := S4194304) (k0_off5 L 98304#32) S32768.size (k0_off5_inb L 2)) (fun _ => rfl)
abbrev ixB (L : grid0.Coords) : Memref sig .scVector .hbm S8x32 .i32 := ixW.slice (Rect.unit (s := S256x32) (k0_off2 L) S8x32.size (k0_off2_inb L)) (fun _ => rfl)
abbrev out0 (L : grid0.Coords) : Memref sig .scVector .hbm S32768 .f32 := outW.slice (Rect.unit (s := S4194304) (k0_off3 L 0#32) S32768.size (k0_off3_inb L 0)) (fun _ => rfl)
abbrev out1 (L : grid0.Coords) : Memref sig .scVector .hbm S32768 .f32 := outW.slice (Rect.unit (s := S4194304) (k0_off4 L 32768#32) S32768.size (k0_off4_inb L 0)) (fun _ => rfl)
abbrev out2 (L : grid0.Coords) : Memref sig .scVector .hbm S32768 .f32 := outW.slice (Rect.unit (s := S4194304) (k0_off5 L 65536#32) S32768.size (k0_off5_inb L 0)) (fun _ => rfl)
abbrev out3 (L : grid0.Coords) : Memref sig .scVector .hbm S32768 .f32 := outW.slice (Rect.unit (s := S4194304) (k0_off6 L 98304#32) S32768.size (k0_off6_inb L 2)) (fun _ => rfl)

/-! ## The indexed stores stay inside the staging buffer

A listed node number is at most 127 (the precondition), so the flat position of its row's feature 0 in a staged pair of
graphs, `w · 128 + c` with `c` the offset `0` or `16384` of the graph inside the pair, and of its feature 1, one more,
are computed without overflow and lie below `32768`. -/

theorem flat_toNat (w c : BitVec 32) (hw : w.toNat ≤ 127) (hc : c.toNat ≤ 16384) :
    (IntOp.addi (IntOp.muli w 128#32) c).toNat = w.toNat * 128 + c.toNat := by
  unfold IntOp.addi IntOp.muli
  rw [BitVec.toNat_add, BitVec.toNat_mul]
  have h1 : (128#32 : BitVec 32).toNat = 128 := rfl
  rw [h1, Nat.mod_eq_of_lt (a := w.toNat * 128) (by omega), Nat.mod_eq_of_lt (by omega)]

theorem flat1_toNat (w c : BitVec 32) (hw : w.toNat ≤ 127) (hc : c.toNat ≤ 16384) :
    (IntOp.addi (IntOp.addi (IntOp.muli w 128#32) c) 1#32).toNat = w.toNat * 128 + c.toNat + 1 := by
  have h := flat_toNat w c hw hc
  unfold IntOp.addi at h ⊢
  rw [BitVec.toNat_add, h]
  have h1 : (1#32 : BitVec 32).toNat = 1 := rfl
  rw [h1, Nat.mod_eq_of_lt (by omega)]

/-- Every word of an index vector is a node number. -/
def Small {s : Shape} (g : s.Idx → BitVec 32) : Prop := ∀ k, (g k).toNat ≤ 127

theorem chk_flat (c : BitVec 32) (hc : c.toNat ≤ 16384) (w : IVec S16 32) (hw : Small w) :
    ∀ a x, ((![addi (muli w (broadcast S16 128#32)) (broadcast S16 c)] : Fin 1 → IVec S16 32) a x).toNat < S32768.size a := by
  intro a x
  obtain rfl : a = 0 := Subsingleton.elim _ _
  show (IntOp.addi (IntOp.muli (w x) 128#32) c).toNat < 32768
  rw [flat_toNat _ _ (hw x) hc]; have := hw x; omega

theorem chk_flat1 (c : BitVec 32) (hc : c.toNat ≤ 16384) (w : IVec S16 32) (hw : Small w) :
    ∀ a x, ((![addi (addi (muli w (broadcast S16 128#32)) (broadcast S16 c)) (broadcast S16 1#32)] : Fin 1 → IVec S16 32) a x).toNat < S32768.size a := by
  intro a x
  obtain rfl : a = 0 := Subsingleton.elim _ _
  show (IntOp.addi (IntOp.addi (IntOp.muli (w x) 128#32) c) 1#32).toNat < 32768
  rw [flat1_toNat _ _ (hw x) hc]; have := hw x; omega

theorem small_shapeCast {s t : Shape} (g : s.Idx → BitVec 32) (h : s.ShapeCasts t) (hg : Small g) : Small (shapeCast t g h) :=
  fun k => hg _

theorem chk_a0 (w : IVec S16 32) (hw : Small w) :
    ∀ a x, ((![addi (muli w (broadcast S16 128#32)) (broadcast S16 0#32)] : Fin 1 → IVec S16 32) a x).toNat < S32768.size a := chk_flat 0#32 (by decide) w hw
theorem chk_a1 (w : IVec S16 32) (hw : Small w) :
    ∀ a x, ((![addi (muli w (broadcast S16 128#32)) (broadcast S16 16384#32)] : Fin 1 → IVec S16 32) a x).toNat < S32768.size a := chk_flat 16384#32 (by decide) w hw
theorem chk_b0 (w : IVec S16 32) (hw : Small w) :
    ∀ a x, ((![addi (addi (muli w (broadcast S16 128#32)) (broadcast S16 0#32)) (broadcast S16 1#32)] : Fin 1 → IVec S16 32) a x).toNat < S32768.size a := chk_flat1 0#32 (by decide) w hw
theorem chk_b1 (w : IVec S16 32) (hw : Small w) :
    ∀ a x, ((![addi (addi (muli w (broadcast S16 128#32)) (broadcast S16 16384#32)) (broadcast S16 1#32)] : Fin 1 → IVec S16 32) a x).toNat < S32768.size a := chk_flat1 16384#32 (by decide) w hw

section SmallThrough
variable (d : Dev nD) (L : grid0.Coords) [FloatOps F]

/-- What the tile's copy of its eight index rows carries is words of the index array. -/
theorem small_dma (x2 : Buf (Elt F) ((ixW).view.loc (V d (cV L) (jV L)))) (h : Small (s := S256x32) x2) :
    Small (s := S8x32) (ReadAs.same.apply (View.read (Elt F) (ixB L).view x2)) := fun k => by
  show ((View.read (Elt F) (ixB L).view x2) k).toNat ≤ 127
  rw [View.read_apply]; simp only [cast_eq]; exact h _

/-- The index scratch written whole holds what was written. -/
theorem small_write (f0 : Buf (Elt F) ((s0W).view.loc (V d (cV L) (jV L)))) (p : S8x32.Idx → BitVec 32) (hp : Small p) :
    Small (s := S8x32) (View.write (Elt F) s0W.view f0 p Finset.univ) := by
  have e : View.write (Elt F) s0W.view f0 p Finset.univ = p := View.write_whole_univ _ _ _
  rw [e]; exact hp

/-- A load from the index scratch reads words of it. -/
theorem small_readAt (r : LoadRect S8x32) (g : S8x32.Idx → BitVec 32) (hg : Small g) :
    Small (View.readAt (Elt F) (s0W).view r g) := fun k => hg _

end SmallThrough

open Lean Elab Tactic Meta in
/-- The range fact of the N-th indexed store: an odd N stores feature 0 and an even N feature 1; stores 1-4 of each group of
    eight belong to the first graph of the staged pair (offset 0) and stores 5-8 to the second (offset 16384). Picks the
    lemma of that shape by N and closes the goal with it. -/
elab "chk_pick " a0:term ", " b0:term ", " a1:term ", " b1:term : tactic => withMainContext do
  let g ← getMainGoal
  let tgt ← instantiateMVars (← g.getType)
  let some nm := tgt.getAppFn.constName? | throwError "chk_pick: the goal is not a printed check"
  let s := nm.getString!
  unless s.startsWith "k0_chk" do throwError "chk_pick: the goal is not a printed check"
  let n := (s.drop 6).toNat!
  let gi := ((n - 1) / 4) % 2
  let t := if n % 2 == 1 then (if gi == 0 then a0 else a1) else (if gi == 0 then b0 else b1)
  evalTactic (← `(tactic| exact $t))

/-- The two constants the kernel stores: at feature 0 of a listed node, and at feature 1. -/
abbrev cmK [FloatOps F] : F .f32 := Scalar.ofBits .f32 0x42EE0000#32
abbrev czK [FloatOps F] : F .f32 := Scalar.ofBits .f32 0x00000000#32

/-- The vector subcore at grid coordinates `L` of device `d`, and one of its DMA semaphores as a cell. -/
abbrev thr (d : Dev nD) (L : grid0.Coords) : Thread nD τ := V d (cV L) (jV L)
abbrev cell (d : Dev nD) (L : grid0.Coords) (sm : DmaSems sig S_) : GSem nD τ sig := (thr d L, .dma sm.sem)

end Cert.Proof.KI

end
-- ==== Proof.Chunks.lean ====
/-
  The cut of the flat array and of the index array into the pieces the kernel works on.
  The flat array of 4194304 elements is 128 consecutive chunks of 32768 elements: chunk (c, s, r), with c < 2, s < 16,
  r < 4, starts at 262144 s + 131072 c + 32768 r, so it is chunk number 4 (2 s + c) + r, and the numbers 4 (2 s + c) + r
  run over 0 .. 127 once each. The index array [256, 32] is 32 blocks of 8 whole rows: block (c, s) starts at row
  16 s + 8 c, block number 2 s + c. Each family is pairwise disjoint and covers its array.
-/
import proofs.«212448_g4037269258948_cont_8to1_b_1693_16_alg».proof.Proof.Spec

noncomputable section

namespace Cert.Proof.Chunks

open Idealize.ShloMosaic
open Cert.Proof

/-- One chunk of the flat array: 32768 elements. -/
abbrev SC : Shape := ⟨1, ![32768]⟩
/-- One block of the index array: 8 rows of 32. -/
abbrev SB : Shape := ⟨2, ![8, 32]⟩

/-- Chunk (c, s, r) ends inside the flat array: its start is at most 127 * 32768. -/
theorem cInb (c : Fin 2) (s : Fin 16) (r : Fin 4) : ∀ a, (![262144 * s.val + 131072 * c.val + 32768 * r.val] : Fin 1 → Nat) a + SC.size a ≤ Spec.SF.size a := by
  intro a
  match a with
  | ⟨0, _⟩ =>
    show 262144 * s.val + 131072 * c.val + 32768 * r.val + 32768 ≤ 4194304
    omega

/-- Block (c, s) ends inside the index array: its first row is at most 248, and it takes whole rows. -/
theorem bInb (c : Fin 2) (s : Fin 16) : ∀ a, (![16 * s.val + 8 * c.val, 0] : Fin 2 → Nat) a + SB.size a ≤ Spec.SI.size a := by
  intro a
  match a with
  | ⟨0, _⟩ =>
    show 16 * s.val + 8 * c.val + 8 ≤ 256
    omega
  | ⟨1, _⟩ =>
    show 0 + 32 ≤ 32
    omega

/-- Chunk (c, s, r) of the flat array. -/
def cRect (c : Fin 2) (s : Fin 16) (r : Fin 4) : Rect Spec.SF := Rect.unit (s := Spec.SF) ![262144 * s.val + 131072 * c.val + 32768 * r.val] SC.size (cInb c s r)
/-- Block (c, s) of the index array. -/
def bRect (c : Fin 2) (s : Fin 16) : Rect Spec.SI := Rect.unit (s := Spec.SI) ![16 * s.val + 8 * c.val, 0] SB.size (bInb c s)

/-- An element is in chunk (c, s, r) exactly when its position is in the chunk's interval. -/
theorem mem_cRect (c : Fin 2) (s : Fin 16) (r : Fin 4) (p : Spec.SF.Idx) :
    p ∈ (cRect c s r).set ↔ 262144 * s.val + 131072 * c.val + 32768 * r.val ≤ (p 0).val ∧ (p 0).val < 262144 * s.val + 131072 * c.val + 32768 * r.val + 32768 := by
  unfold cRect
  rw [Rect.mem_set_unit]
  constructor
  · intro h
    exact h 0
  · intro h a
    match a with
    | ⟨0, _⟩ => exact h

/-- An index is in block (c, s) exactly when its row is in the block's interval of rows (the column is free). -/
theorem mem_bRect (c : Fin 2) (s : Fin 16) (k : Spec.SI.Idx) :
    k ∈ (bRect c s).set ↔ 16 * s.val + 8 * c.val ≤ (k 0).val ∧ (k 0).val < 16 * s.val + 8 * c.val + 8 := by
  unfold bRect
  rw [Rect.mem_set_unit]
  constructor
  · intro h
    exact h 0
  · intro h a
    match a with
    | ⟨0, _⟩ => exact h
    | ⟨1, _⟩ =>
      have h1 : (k 1).val < 32 := (k 1).isLt
      refine ⟨Nat.zero_le _, ?_⟩
      show (k 1).val < 0 + 32
      omega

/-- Two different chunks share no element: their starts are different multiples of 32768. -/
theorem cRect_disjoint : ∀ t ∈ (Finset.univ : Finset (Fin 2 × Fin 16 × Fin 4)), ∀ t' ∈ (Finset.univ : Finset (Fin 2 × Fin 16 × Fin 4)), t ≠ t' →
    Disjoint (cRect t.1 t.2.1 t.2.2).set (cRect t'.1 t'.2.1 t'.2.2).set := by
  rintro ⟨c, s, r⟩ _ ⟨c', s', r'⟩ _ hne
  rw [Finset.disjoint_left]
  intro p hp hp'
  have h := (mem_cRect c s r p).1 hp
  have h' := (mem_cRect c' s' r' p).1 hp'
  apply hne
  have hc := c.isLt
  have hc' := c'.isLt
  have hr := r.isLt
  have hr' := r'.isLt
  have e : c.val = c'.val ∧ s.val = s'.val ∧ r.val = r'.val := by omega
  exact Prod.ext (Fin.ext e.1) (Prod.ext (Fin.ext e.2.1) (Fin.ext e.2.2))

/-- the chunk an element lies in -/
theorem exists_chunk (p : Spec.SF.Idx) : ∃ (c : Fin 2) (s : Fin 16) (r : Fin 4), p ∈ (cRect c s r).set := by
  have hp : (p 0).val < 4194304 := (p 0).isLt
  refine ⟨⟨(p 0).val / 131072 % 2, by omega⟩, ⟨(p 0).val / 131072 / 2, by omega⟩, ⟨(p 0).val / 32768 % 4, by omega⟩, ?_⟩
  rw [mem_cRect]
  show 262144 * ((p 0).val / 131072 / 2) + 131072 * ((p 0).val / 131072 % 2) + 32768 * ((p 0).val / 32768 % 4) ≤ (p 0).val
    ∧ (p 0).val < 262144 * ((p 0).val / 131072 / 2) + 131072 * ((p 0).val / 131072 % 2) + 32768 * ((p 0).val / 32768 % 4) + 32768
  omega

/-- The chunks cover the flat array. -/
theorem cRect_cover : (Finset.univ : Finset (Fin 2 × Fin 16 × Fin 4)).biUnion (fun t => (cRect t.1 t.2.1 t.2.2).set) = Finset.univ := by
  apply Finset.eq_univ_of_forall
  intro p
  obtain ⟨c, s, r, h⟩ := exists_chunk p
  exact Finset.mem_biUnion.2 ⟨(c, s, r), Finset.mem_univ _, h⟩

/-- Two different blocks share no row. -/
theorem bRect_disjoint : ∀ t ∈ (Finset.univ : Finset (Fin 2 × Fin 16)), ∀ t' ∈ (Finset.univ : Finset (Fin 2 × Fin 16)), t ≠ t' →
    Disjoint (bRect t.1 t.2).set (bRect t'.1 t'.2).set := by
  rintro ⟨c, s⟩ _ ⟨c', s'⟩ _ hne
  rw [Finset.disjoint_left]
  intro k hk hk'
  have h := (mem_bRect c s k).1 hk
  have h' := (mem_bRect c' s' k).1 hk'
  apply hne
  have hc := c.isLt
  have hc' := c'.isLt
  have e : c.val = c'.val ∧ s.val = s'.val := by omega
  exact Prod.ext (Fin.ext e.1) (Fin.ext e.2)

/-- the block an index lies in -/
theorem exists_block (k : Spec.SI.Idx) : ∃ (c : Fin 2) (s : Fin 16), k ∈ (bRect c s).set := by
  have hk : (k 0).val < 256 := (k 0).isLt
  refine ⟨⟨(k 0).val / 8 % 2, by omega⟩, ⟨(k 0).val / 16, by omega⟩, ?_⟩
  rw [mem_bRect]
  show 16 * ((k 0).val / 16) + 8 * ((k 0).val / 8 % 2) ≤ (k 0).val
    ∧ (k 0).val < 16 * ((k 0).val / 16) + 8 * ((k 0).val / 8 % 2) + 8
  omega

/-- The blocks cover the index array. -/
theorem bRect_cover : (Finset.univ : Finset (Fin 2 × Fin 16)).biUnion (fun t => (bRect t.1 t.2).set) = Finset.univ := by
  apply Finset.eq_univ_of_forall
  intro k
  obtain ⟨c, s, h⟩ := exists_block k
  exact Finset.mem_biUnion.2 ⟨(c, s), Finset.mem_univ _, h⟩

end Cert.Proof.Chunks

end
-- ==== Proof.KIRes.lean ====
/-
  What the one SparseCore call of `KernelIdeal` takes and brings back.
  The TensorCore reshapes the feature array to the flat input, starts the kernel on the 32 tiles and reshapes the flat
  result back. The call takes the flat input, the index array and the flat result whole; tile (c, s) is handed its four
  chunks of the flat input, its eight rows of the index array and its four chunks of the flat result (`GO`), and hands
  back the first two unchanged and each chunk of the result at some contents that agree, element by element, with the
  specification over the flat array (`TD`). The pieces are disjoint and cover the arrays (Chunks.lean), so the call is
  whole arrays in, whole arrays out.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.Spec
import proofs.«212448_g4037269258948_cont_8to1_b_1693_16_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Spec.Gflat Chunks.cRect Chunks.bRect)

variable (m : (ℓ : Loc nD τ sig) → Buf (Elt F) ℓ)

/-- The TensorCore's names for the arrays of @main: the three arguments, the flat input, the flat result, the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

theorem nCore_zero : (K (F := F)).nCore 0 = 2 := rfl
theorem nSub_zero : (K (F := F)).nSub 0 = 16 := rfl

/-- The flat input: the feature array's elements in row-major order (what the first reshape leaves). -/
abbrev Yf (d : Dev nD) : Buf (Elt F) (v0Loc d) := shapeCast S4194304 (m (a0Loc d)) shapeCasts_S256x128x128_S4194304

/-- A chunk of the flat arrays and a block of rows of the index array, as sets of indices. -/
abbrev cS (c : Fin 2) (s : Fin 16) (r : Fin 4) : Finset S4194304.Idx := (Chunks.cRect c s r).set
abbrev bS (c : Fin 2) (s : Fin 16) : Finset S256x32.Idx := (Chunks.bRect c s).set

variable [FloatOps F]

/-- The flat result agrees with the specification on chunk (c, s, r). -/
def OKc (d : Dev nD) (f : Buf (Elt F) (v1Loc d)) (c : Fin 2) (s : Fin 16) (r : Fin 4) : Prop :=
  ∀ p ∈ cS c s r, f p = Spec.Gflat (cmK (F := F)) (czK (F := F)) (Yf m d) (m (a2Loc d)) p

/-- What tile (c, s) is handed. -/
def GO (d : Dev nD) (c : Fin 2) (s : Fin 16) : sProp 𝕄 :=
  iprop((v0Loc d ↦[cS c s 0]{fullShare} Yf m d) ∗ (v0Loc d ↦[cS c s 1]{fullShare} Yf m d)
    ∗ (v0Loc d ↦[cS c s 2]{fullShare} Yf m d) ∗ (v0Loc d ↦[cS c s 3]{fullShare} Yf m d)
    ∗ (a2Loc d ↦[bS c s]{fullShare} m (a2Loc d))
    ∗ (v1Loc d ↦[cS c s 0]{fullShare} m (v1Loc d)) ∗ (v1Loc d ↦[cS c s 1]{fullShare} m (v1Loc d))
    ∗ (v1Loc d ↦[cS c s 2]{fullShare} m (v1Loc d)) ∗ (v1Loc d ↦[cS c s 3]{fullShare} m (v1Loc d)))

/-- What tile (c, s) hands back. -/
def TD (d : Dev nD) (c : Fin 2) (s : Fin 16) : sProp 𝕄 :=
  iprop((v0Loc d ↦[cS c s 0]{fullShare} Yf m d) ∗ (v0Loc d ↦[cS c s 1]{fullShare} Yf m d)
    ∗ (v0Loc d ↦[cS c s 2]{fullShare} Yf m d) ∗ (v0Loc d ↦[cS c s 3]{fullShare} Yf m d)
    ∗ (a2Loc d ↦[bS c s]{fullShare} m (a2Loc d))
    ∗ (∃ f, (v1Loc d ↦[cS c s 0]{fullShare} f) ∗ ⌜OKc m d f c s 0⌝) ∗ (∃ f, (v1Loc d ↦[cS c s 1]{fullShare} f) ∗ ⌜OKc m d f c s 1⌝)
    ∗ (∃ f, (v1Loc d ↦[cS c s 2]{fullShare} f) ∗ ⌜OKc m d f c s 2⌝) ∗ (∃ f, (v1Loc d ↦[cS c s 3]{fullShare} f) ∗ ⌜OKc m d f c s 3⌝))

instance GO_storable (d : Dev nD) (c : Fin 2) (s : Fin 16) : BI.Storable (upEmb : UEmb _ 𝕄) (GO m d c s) := by
  unfold GO; infer_instance
instance TD_storable (d : Dev nD) (c : Fin 2) (s : Fin 16) : BI.Storable (upEmb : UEmb _ 𝕄) (TD m d c s) := by
  unfold TD; infer_instance

/-- The call's payloads: a SparseCore takes and brings back its sixteen tiles' pieces; the kernel has no protocol of its
    own between threads. -/
def P : (K (F := F)).Pay (nD := nD) (Val := Elt F) (Name := ℕ) (U := UU) where
  st := fun q d c => match q with | 0 => bigSep Finset.univ fun s : Fin 16 => GO m d (Fin.cast nCore_zero c) s
  dn := fun q d c => match q with | 0 => bigSep Finset.univ fun s : Fin 16 => TD m d (Fin.cast nCore_zero c) s
  go := fun q d c i => match q with | 0 => GO m d (Fin.cast nCore_zero c) (Fin.cast nSub_zero i)
  td := fun q d c i => match q with | 0 => TD m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => GO m d (Fin.cast nCore_zero c) s))
  dn q d c := match q with | 0 => (inferInstance : BI.Storable (upEmb : UEmb _ 𝕄) (bigSep Finset.univ fun s : Fin 16 => TD m d (Fin.cast nCore_zero c) s))
  go q d c i := match q with | 0 => (inferInstance : BI.Storable (upEmb : UEmb _ 𝕄) (GO m d (Fin.cast nCore_zero c) (Fin.cast nSub_zero i)))
  td q d c i := match q with | 0 => (inferInstance : BI.Storable (upEmb : UEmb _ 𝕄) (TD m d (Fin.cast nCore_zero c) (Fin.cast nSub_zero i)))

end Cert.Proof.KI

end
-- ==== Proof.Stores.lean ====
/-
  What a staging buffer holds after the eight indexed stores of one chunk, as one pure term.
  A chunk is two graphs of 16384 elements. For each of the two graphs, and each half (16 lanes) of its 32 listed node
  numbers `w`, the kernel stores one constant at the positions `w · 128 + c` (feature 0 of row `w`; `c` is 0 for the first
  graph of the chunk and 16384 for the second) and another constant at the positions one further (feature 1).
  A node number is at most 127, so these positions are computed without overflow and lie below 32768.
-/
import Idealize.ShloMosaic.PureOps
import proofs.«212448_g4037269258948_cont_8to1_b_1693_16_alg».proof.Proof.Spec

noncomputable section

namespace Cert.Proof.Stores

open Idealize.ShloMosaic

abbrev S16 : Shape := ⟨1, ![16]⟩
abbrev SC : Shape := ⟨1, ![32768]⟩

/-- Every word is a node number. -/
def Small {s : Shape} (g : s.Idx → BitVec 32) : Prop := ∀ k, (g k).toNat ≤ 127

theorem flat_toNat (w c : BitVec 32) (hw : w.toNat ≤ 127) (hc : c.toNat ≤ 16384) :
    (IntOp.addi (IntOp.muli w 128#32) c).toNat = w.toNat * 128 + c.toNat := by
  unfold IntOp.addi IntOp.muli
  rw [BitVec.toNat_add, BitVec.toNat_mul]
  have h1 : (128#32 : BitVec 32).toNat = 128 := rfl
  rw [h1, Nat.mod_eq_of_lt (a := w.toNat * 128) (by omega), Nat.mod_eq_of_lt (by omega)]

theorem flat1_toNat (w c : BitVec 32) (hw : w.toNat ≤ 127) (hc : c.toNat ≤ 16384) :
    (IntOp.addi (IntOp.addi (IntOp.muli w 128#32) c) 1#32).toNat = w.toNat * 128 + c.toNat + 1 := by
  have h := flat_toNat w c hw hc
  unfold IntOp.addi at h ⊢
  rw [BitVec.toNat_add, h]
  have h1 : (1#32 : BitVec 32).toNat = 1 := rfl
  rw [h1, Nat.mod_eq_of_lt (by omega)]

/-- The positions of feature 0 of the rows `w` names, in the graph at offset `c` of the chunk; and of feature 1. -/
def flatA (w : IVec S16 32) (c : BitVec 32) : IVec S16 32 := addi (muli w (broadcast S16 128#32)) (broadcast S16 c)
def flatB (w : IVec S16 32) (c : BitVec 32) : IVec S16 32 := addi (flatA w c) (broadcast S16 1#32)

theorem flatA_toNat (w : IVec S16 32) (c : BitVec 32) (hw : Small w) (hc : c.toNat ≤ 16384) (x : S16.Idx) :
    (flatA w c x).toNat = (w x).toNat * 128 + c.toNat := flat_toNat _ _ (hw x) hc
theorem flatB_toNat (w : IVec S16 32) (c : BitVec 32) (hw : Small w) (hc : c.toNat ≤ 16384) (x : S16.Idx) :
    (flatB w c x).toNat = (w x).toNat * 128 + c.toNat + 1 := flat1_toNat _ _ (hw x) hc

theorem inbA (c : BitVec 32) (hc : c.toNat ≤ 16384) (w : IVec S16 32) (hw : Small w) :
    ∀ a x, ((![flatA w c] : Fin 1 → IVec S16 32) a x).toNat < SC.size a := by
  intro a x
  obtain rfl : a = 0 := Subsingleton.elim _ _
  show (flatA w c x).toNat < 32768
  rw [flatA_toNat w c hw hc]; have := hw x; omega

theorem inbB (c : BitVec 32) (hc : c.toNat ≤ 16384) (w : IVec S16 32) (hw : Small w) :
    ∀ a x, ((![flatB w c] : Fin 1 → IVec S16 32) a x).toNat < SC.size a := by
  intro a x
  obtain rfl : a = 0 := Subsingleton.elim _ _
  show (flatB w c x).toNat < 32768
  rw [flatB_toNat w c hw hc]; have := hw x; omega

variable {F : FTy → Type} [FloatOps F]

/-- One unmasked indexed store of the constant `c` in every lane, at the positions `v`. -/
def st (f : Vec F SC .f32) (v : IVec S16 32) (c : F .f32)
    (h : ∀ a x, ((![v] : Fin 1 → IVec S16 32) a x).toNat < SC.size a) : Vec F SC .f32 :=
  storeIdx f ![v] (broadcast S16 c) (fun _ => 1#1) false h

/-- The chunk after its eight stores: over the staged contents `P`, for the first graph the two halves `w00`, `w01` of its
    listed nodes and for the second `w10`, `w11`, each half storing `cm` at feature 0 and then `cz` at feature 1. -/
def W8 (P : Vec F SC .f32) (cm cz : F .f32) (w00 w01 w10 w11 : IVec S16 32)
    (h00 : Small w00) (h01 : Small w01) (h10 : Small w10) (h11 : Small w11) : Vec F SC .f32 :=
  st (st (st (st (st (st (st (st P
    (flatA w00 0#32) cm (inbA _ (by decide) _ h00)) (flatB w00 0#32) cz (inbB _ (by decide) _ h00))
    (flatA w01 0#32) cm (inbA _ (by decide) _ h01)) (flatB w01 0#32) cz (inbB _ (by decide) _ h01))
    (flatA w10 16384#32) cm (inbA _ (by decide) _ h10)) (flatB w10 16384#32) cz (inbB _ (by decide) _ h10))
    (flatA w11 16384#32) cm (inbA _ (by decide) _ h11)) (flatB w11 16384#32) cz (inbB _ (by decide) _ h11)

/-- Position `n` of the chunk lies in a row one of the four half-lists names: the graph `n / 16384` of the chunk, the
    row `n / 128 mod 128`. -/
def Hit (w00 w01 w10 w11 : IVec S16 32) (n : Nat) : Prop :=
  ∃ x : S16.Idx, (n / 16384 = 0 ∧ ((w00 x).toNat = n / 128 % 128 ∨ (w01 x).toNat = n / 128 % 128))
    ∨ (n / 16384 = 1 ∧ ((w10 x).toNat = n / 128 % 128 ∨ (w11 x).toNat = n / 128 % 128))

end Cert.Proof.Stores

end
-- ==== Proof.KIBody.lean ====
/-
  One tile's task of `KernelIdeal`, run from its resources to its results.
  The task's own data are four chunks of the flat input, its eight rows of the index array and the same four chunks of the
  flat result. In order: three chunks start towards the three staging buffers; the index rows are fetched and waited for;
  then for each chunk: its fill is waited for, the eight indexed stores are made in the staging buffer (their positions
  inside it because every listed node number is at most 127), and the buffer starts towards the chunk's place in the
  result; the first buffer is refilled with the fourth chunk only after its own copy-out has been waited for; the last
  three copy-outs are waited for at the end. So no store touches a buffer while a copy from or into it is pending, every
  counter ends at zero, and each chunk of the result ends at the staged chunk after its eight stores (`Stores.W8`).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.Stores
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Stores.W8)

section Body
variable (d : Dev nD) (L : grid0.Coords) [FloatOps F]

/-- What a copy out of a chunk of the flat input carries: the input's elements under the chunk. -/
abbrev chunkPay (off : Fin 1 → Nat) (hin : ∀ a, off a + S32768.size a ≤ S4194304.size a) (y : Buf (Elt F) ((nfW).view.loc (thr d L))) : Vec F S32768 .f32 :=
  ReadAs.same.apply (View.read (Elt F) (nfW.slice (Rect.unit (s := S4194304) off S32768.size hin) (fun _ => rfl)).view y)

/-- The tile's index rows as staged, and a half (16 lanes) of one of them as the task loads it. -/
abbrev ixPay (x2 : Buf (Elt F) ((ixW).view.loc (thr d L))) : S8x32.Idx → BitVec 32 :=
  ReadAs.same.apply (View.read (Elt F) (ixB L).view x2)
abbrev half (x2 : Buf (Elt F) ((ixW).view.loc (thr d L))) (f0 : Buf (Elt F) ((s0W).view.loc (thr d L))) (off : Fin 2 → Nat) (hin : ∀ a, off a + S1x16.size a ≤ S8x32.size a) : IVec S16 32 :=
  shapeCast S16 (View.readAt (Elt F) s0W.view (Rect.unit (s := S8x32) off S1x16.size hin).toLoadRect
    (View.write (Elt F) s0W.view f0 (ixPay d L x2) Finset.univ)) shapeCasts_S1x16_S16

theorem small_ixPay (x2 : Buf (Elt F) ((ixW).view.loc (thr d L))) (h : Small (s := S256x32) x2) : Small (s := S8x32) (ixPay d L x2) :=
  small_dma d L x2 h
theorem small_half (x2 : Buf (Elt F) ((ixW).view.loc (thr d L))) (f0 : Buf (Elt F) ((s0W).view.loc (thr d L))) (h : Small (s := S256x32) x2) (off : Fin 2 → Nat) (hin : ∀ a, off a + S1x16.size a ≤ S8x32.size a) :
    Stores.Small (half d L x2 f0 off hin) :=
  small_shapeCast _ _ (small_readAt (F := F) _ _ (small_write (F := F) d L f0 _ (small_ixPay d L x2 h)))

/-- Chunk `r` of the tile's result: the staged chunk `P` after the stores for rows `2 r` and `2 r + 1` of the tile's eight. -/
abbrev chunkOut (x2 : Buf (Elt F) ((ixW).view.loc (thr d L))) (f0 : Buf (Elt F) ((s0W).view.loc (thr d L))) (h : Small (s := S256x32) x2) (P : Vec F S32768 .f32)
    (o00 o01 o10 o11 : Fin 2 → Nat) (i00 : ∀ a, o00 a + S1x16.size a ≤ S8x32.size a) (i01 : ∀ a, o01 a + S1x16.size a ≤ S8x32.size a)
    (i10 : ∀ a, o10 a + S1x16.size a ≤ S8x32.size a) (i11 : ∀ a, o11 a + S1x16.size a ≤ S8x32.size a) : Vec F S32768 .f32 :=
  Stores.W8 P cmK czK (half d L x2 f0 o00 i00) (half d L x2 f0 o01 i01) (half d L x2 f0 o10 i10) (half d L x2 f0 o11 i11)
    (small_half d L x2 f0 h _ _) (small_half d L x2 f0 h _ _) (small_half d L x2 f0 h _ _) (small_half d L x2 f0 h _ _)

abbrev out0V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 0#32) (k0_off1_inb L 0) y) ![0, 0] ![0, 16] ![1, 0] ![1, 16] inb_S8x32_S1x16_0_0 inb_S8x32_S1x16_0_16 inb_S8x32_S1x16_1_0 inb_S8x32_S1x16_1_16
abbrev out1V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 32768#32) (k0_off1_inb L 1) y) ![2, 0] ![2, 16] ![3, 0] ![3, 16] inb_S8x32_S1x16_2_0 inb_S8x32_S1x16_2_16 inb_S8x32_S1x16_3_0 inb_S8x32_S1x16_3_16
abbrev out2V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 65536#32) (k0_off1_inb L 2) y) ![4, 0] ![4, 16] ![5, 0] ![5, 16] inb_S8x32_S1x16_4_0 inb_S8x32_S1x16_4_16 inb_S8x32_S1x16_5_0 inb_S8x32_S1x16_5_16
abbrev out3V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off5 L 98304#32) (k0_off5_inb L 2) y) ![6, 0] ![6, 16] ![7, 0] ![7, 16] inb_S8x32_S1x16_6_0 inb_S8x32_S1x16_6_16 inb_S8x32_S1x16_7_0 inb_S8x32_S1x16_7_16

/-- A chunk of the result written whole holds, under the chunk, what was written. -/
theorem writes_whole_emb (off : Fin 1 → Nat) (hin : ∀ a, off a + S32768.size a ≤ S4194304.size a) (o : Buf (Elt F) ((outW).view.loc (thr d L)))
    (w : S32768.Idx → Elt F .f32) (q : S32768.Idx) :
    (outW.slice (Rect.unit (s := S4194304) off S32768.size hin) (fun _ => rfl)).view.writes (Elt F) o [⟨Rect.whole S32768, w⟩]
      ((outW.slice (Rect.unit (s := S4194304) off S32768.size hin) (fun _ => rfl)).view.emb q) = w q := by
  have h := View.read_writes_cons_emb (v := (outW.slice (Rect.unit (s := S4194304) off S32768.size hin) (fun _ => rfl)).view) (f := o) (Rect.whole S32768) w [] q
  rw [show (Rect.whole S32768).emb q = q from Rect.emb_whole_apply S32768 q, View.read_apply] at h
  simpa only [cast_eq] using h

/-- A staging buffer read after a list of writes whose last one is the whole buffer holds that write's value. -/
theorem read_head (v : View sig .scVector .vmem S32768 .f32) (B : v.ty.Contents (Elt F)) (w : S32768.Idx → Elt F .f32)
    (Lst : List (View.Piece (Elt F) S32768 .f32)) (q : S32768.Idx) :
    (ReadAs.same.apply (View.read (Elt F) v (v.writes (Elt F) B (⟨Rect.whole S32768, w⟩ :: Lst))) : S32768.Idx → Elt F .f32) q = w q := by
  have h := View.read_writes_cons_emb (v := v) (f := B) (Rect.whole S32768) w Lst q
  rwa [show (Rect.whole S32768).emb q = q from Rect.emb_whole_apply S32768 q] at h

/-- A whole load after a list of writes whose last one is the whole buffer reads that write's value. -/
theorem cov_head (v : View sig .scVector .vmem S32768 .f32) (w : S32768.Idx → Elt F .f32) (Lst : List (View.Piece (Elt F) S32768 .f32)) :
    v.readCov (⟨Rect.whole S32768, w⟩ :: Lst) (LoadRect.whole S32768) = w :=
  View.readCov_cons_toLoadRect v (Rect.whole S32768) w Lst

/-- A whole load of a staging buffer just filled whole reads the fill. -/
theorem base_read1 (f : Buf (Elt F) ((b1W).view.loc (thr d L))) (p : S32768.Idx → Elt F .f32) :
    View.readAt (Elt F) b1W.view (LoadRect.whole S32768) (View.write (Elt F) b1W.view f p Finset.univ) = p := by
  have e : View.write (Elt F) b1W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))
theorem base_read2 (f : Buf (Elt F) ((b2W).view.loc (thr d L))) (p : S32768.Idx → Elt F .f32) :
    View.readAt (Elt F) b2W.view (LoadRect.whole S32768) (View.write (Elt F) b2W.view f p Finset.univ) = p := by
  have e : View.write (Elt F) b2W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))
theorem base_read3 (f : Buf (Elt F) ((b3W).view.loc (thr d L))) (p : S32768.Idx → Elt F .f32) :
    View.readAt (Elt F) b3W.view (LoadRect.whole S32768) (View.write (Elt F) b3W.view f p Finset.univ) = p := by
  have e : View.write (Elt F) b3W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))

set_option maxHeartbeats 16000000 in
theorem body_core (O : CellTallies nD τ sig (HIx 1)) (W : Waits sig (HIx 1))
    (y : Buf (Elt F) ((nfW).view.loc (thr d L))) (x2 : Buf (Elt F) ((ixW).view.loc (thr d L))) (o : Buf (Elt F) ((outW).view.loc (thr d L)))
    (f0 : Buf (Elt F) ((s0W).view.loc (thr d L))) (f1 : Buf (Elt F) ((b1W).view.loc (thr d L))) (f2 : Buf (Elt F) ((b2W).view.loc (thr d L))) (f3 : Buf (Elt F) ((b3W).view.loc (thr d L)))
    (hx2 : Small (s := S256x32) x2) :
    (iprop(Transfers.MayWaits (thr d L) (none : HIx 1) O
        ∗ ((nf0 L).view.loc (thr d L) ↦[(nf0 L).view.set]{fullShare} y) ∗ ((nf1 L).view.loc (thr d L) ↦[(nf1 L).view.set]{fullShare} y)
        ∗ ((nf2 L).view.loc (thr d L) ↦[(nf2 L).view.set]{fullShare} y) ∗ ((nf3 L).view.loc (thr d L) ↦[(nf3 L).view.set]{fullShare} y)
        ∗ ((ixB L).view.loc (thr d L) ↦[(ixB L).view.set]{fullShare} x2)
        ∗ ((out0 L).view.loc (thr d L) ↦[(out0 L).view.set]{fullShare} o) ∗ ((out1 L).view.loc (thr d L) ↦[(out1 L).view.set]{fullShare} o)
        ∗ ((out2 L).view.loc (thr d L) ↦[(out2 L).view.set]{fullShare} o) ∗ ((out3 L).view.loc (thr d L) ↦[(out3 L).view.set]{fullShare} o)
        ∗ ((s0W).view.loc (thr d L) ↦{fullShare} f0) ∗ ((b1W).view.loc (thr d L) ↦{fullShare} f1)
        ∗ ((b2W).view.loc (thr d L) ↦{fullShare} f2) ∗ ((b3W).view.loc (thr d L) ↦{fullShare} f3)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W) : sProp 𝕄)
      ⊢ wp frame (wpE (defs₀ (F := F)) 𝒱₀ (thr d L) none) Set.univ
          (cc0__mask_kernel L nfW (Memref.isWhole_whole _) ixW (Memref.isWhole_whole _) outW (Memref.isWhole_whole _)
            s0W (Memref.isWhole_whole _) b1W (Memref.isWhole_whole _) b2W (Memref.isWhole_whole _) b3W (Memref.isWhole_whole _)
            cc0_scratch4 cc0_scratch5 cc0_scratch6 cc0_scratch7 cc0_scratch8 cc0_scratch9 cc0_scoped0)
          fun _ => iprop(
            ((nf0 L).view.loc (thr d L) ↦[(nf0 L).view.set]{fullShare} y) ∗ ((nf1 L).view.loc (thr d L) ↦[(nf1 L).view.set]{fullShare} y)
            ∗ ((nf2 L).view.loc (thr d L) ↦[(nf2 L).view.set]{fullShare} y) ∗ ((nf3 L).view.loc (thr d L) ↦[(nf3 L).view.set]{fullShare} y)
            ∗ ((ixB L).view.loc (thr d L) ↦[(ixB L).view.set]{fullShare} x2)
            ∗ (∃ f, ((out0 L).view.loc (thr d L) ↦[(out0 L).view.set]{fullShare} f) ∗ ⌜∀ q, f ((out0 L).view.emb q) = out0V d L y x2 f0 hx2 q⌝)
            ∗ (∃ f, ((out1 L).view.loc (thr d L) ↦[(out1 L).view.set]{fullShare} f) ∗ ⌜∀ q, f ((out1 L).view.emb q) = out1V d L y x2 f0 hx2 q⌝)
            ∗ (∃ f, ((out2 L).view.loc (thr d L) ↦[(out2 L).view.set]{fullShare} f) ∗ ⌜∀ q, f ((out2 L).view.emb q) = out2V d L y x2 f0 hx2 q⌝)
            ∗ (∃ f, ((out3 L).view.loc (thr d L) ↦[(out3 L).view.set]{fullShare} f) ∗ ⌜∀ q, f ((out3 L).view.emb q) = out3V d L y x2 f0 hx2 q⌝)
            ∗ (∃ f, (s0W).view.loc (thr d L) ↦{fullShare} f) ∗ (∃ f, (b1W).view.loc (thr d L) ↦{fullShare} f)
            ∗ (∃ f, (b2W).view.loc (thr d L) ↦{fullShare} f) ∗ (∃ f, (b3W).view.loc (thr d L) ↦{fullShare} f)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W') := by
  iintro ⟨#Hmw, Hn0, Hn1, Hn2, Hn3, Hix, Ho0, Ho1, Ho2, Ho3, Hs0, Hb1, Hb2, Hb3, H4, H5, H6, H7, H8, H9, Hsc, HO⟩
  sl_exec_parts (disch := chk_pick (chk_a0 _ (small_shapeCast _ _ (small_readAt (F := F) _ _ (small_write (F := F) d L _ _ (small_dma (F := F) d L _ hx2))))), (chk_b0 _ (small_shapeCast _ _ (small_readAt (F := F) _ _ (small_write (F := F) d L _ _ (small_dma (F := F) d L _ hx2))))), (chk_a1 _ (small_shapeCast _ _ (small_readAt (F := F) _ _ (small_write (F := F) d L _ _ (small_dma (F := F) d L _ hx2))))), (chk_b1 _ (small_shapeCast _ _ (small_readAt (F := F) _ _ (small_write (F := F) d L _ _ (small_dma (F := F) d L _ hx2))))))
  repeat (unfold SparseCore.vectorStoreIdx; sl_exec_parts (disch := chk_pick (chk_a0 _ (small_shapeCast _ _ (small_readAt (F := F) _ _ (small_write (F := F) d L _ _ (small_dma (F := F) d L _ hx2))))), (chk_b0 _ (small_shapeCast _ _ (small_readAt (F := F) _ _ (small_write (F := F) d L _ _ (small_dma (F := F) d L _ hx2))))), (chk_a1 _ (small_shapeCast _ _ (small_readAt (F := F) _ _ (small_write (F := F) d L _ _ (small_dma (F := F) d L _ hx2))))), (chk_b1 _ (small_shapeCast _ _ (small_readAt (F := F) _ _ (small_write (F := F) d L _ _ (small_dma (F := F) d L _ hx2)))))))
  sl_step
  isplitl [Hn0]; · iexact Hn0
  isplitl [Hn1]; · iexact Hn1
  isplitl [Hn2]; · iexact Hn2
  isplitl [Hn3]; · iexact Hn3
  isplitl [Hix]; · iexact Hix
  isplitl [Ho0]
  · iexists _; isplitl [Ho0]; · iexact Ho0
    ipureintro; intro q; refine (writes_whole_emb (F := F) d L _ _ _ _ _).trans ?_
    unfold body_core.sl.dma14 body_core.sl.Hb1_8
    rw [read_head]
    unfold body_core.sl.f_6 body_core.sl.Hb1_7; rw [cov_head]
    unfold body_core.sl.f_5 body_core.sl.Hb1_6; rw [cov_head]
    unfold body_core.sl.f_4 body_core.sl.Hb1_5; rw [cov_head]
    unfold body_core.sl.f_3 body_core.sl.Hb1_4; rw [cov_head]
    unfold body_core.sl.f_2 body_core.sl.Hb1_3; rw [cov_head]
    unfold body_core.sl.f_1 body_core.sl.Hb1_2; rw [cov_head]
    unfold body_core.sl.f body_core.sl.Hb1_1; rw [cov_head]
    rw [base_read1 d L]
    rfl
  isplitl [Ho1]
  · iexists _; isplitl [Ho1]; · iexact Ho1
    ipureintro; intro q; refine (writes_whole_emb (F := F) d L _ _ _ _ _).trans ?_
    unfold body_core.sl.dma4 body_core.sl.Hb2_8
    rw [read_head]
    unfold body_core.sl.f_13 body_core.sl.Hb2_7; rw [cov_head]
    unfold body_core.sl.f_12 body_core.sl.Hb2_6; rw [cov_head]
    unfold body_core.sl.f_11 body_core.sl.Hb2_5; rw [cov_head]
    unfold body_core.sl.f_10 body_core.sl.Hb2_4; rw [cov_head]
    unfold body_core.sl.f_9 body_core.sl.Hb2_3; rw [cov_head]
    unfold body_core.sl.f_8 body_core.sl.Hb2_2; rw [cov_head]
    unfold body_core.sl.f_7 body_core.sl.Hb2_1; rw [cov_head]
    rw [base_read2 d L]
    rfl
  isplitl [Ho2]
  · iexists _; isplitl [Ho2]; · iexact Ho2
    ipureintro; intro q; refine (writes_whole_emb (F := F) d L _ _ _ _ _).trans ?_
    unfold body_core.sl.dma9 body_core.sl.Hb3_8
    rw [read_head]
    unfold body_core.sl.f_20 body_core.sl.Hb3_7; rw [cov_head]
    unfold body_core.sl.f_19 body_core.sl.Hb3_6; rw [cov_head]
    unfold body_core.sl.f_18 body_core.sl.Hb3_5; rw [cov_head]
    unfold body_core.sl.f_17 body_core.sl.Hb3_4; rw [cov_head]
    unfold body_core.sl.f_16 body_core.sl.Hb3_3; rw [cov_head]
    unfold body_core.sl.f_15 body_core.sl.Hb3_2; rw [cov_head]
    unfold body_core.sl.f_14 body_core.sl.Hb3_1; rw [cov_head]
    rw [base_read3 d L]
    rfl
  isplitl [Ho3]
  · iexists _; isplitl [Ho3]; · iexact Ho3
    ipureintro; intro q; refine (writes_whole_emb (F := F) d L _ _ _ _ _).trans ?_
    unfold body_core.sl.dma19 body_core.sl.Hb1_8_1
    rw [read_head]
    unfold body_core.sl.f_27 body_core.sl.Hb1_7_1; rw [cov_head]
    unfold body_core.sl.f_26 body_core.sl.Hb1_6_1; rw [cov_head]
    unfold body_core.sl.f_25 body_core.sl.Hb1_5_1; rw [cov_head]
    unfold body_core.sl.f_24 body_core.sl.Hb1_4_1; rw [cov_head]
    unfold body_core.sl.f_23 body_core.sl.Hb1_3_1; rw [cov_head]
    unfold body_core.sl.f_22 body_core.sl.Hb1_2_1; rw [cov_head]
    unfold body_core.sl.f_21 body_core.sl.Hb1_1_1; rw [cov_head]
    rw [base_read1 d L]
    rfl
  isplitl [Hs0]; · iexists _; iexact Hs0
  isplitl [Hb1]; · iexists _; iexact Hb1
  isplitl [Hb2]; · iexists _; iexact Hb2
  isplitl [Hb3]; · iexists _; iexact Hb3
  isplitl [H4]; · iexact H4
  isplitl [H5]; · iexact H5
  isplitl [H6]; · iexact H6
  isplitl [H7]; · iexact H7
  isplitl [H8]; · iexact H8
  isplitl [H9]; · iexact H9
  isplitl [Hsc]; · iexact Hsc
  iexists _; isplitr
  rotate_left
  · iexact HO
  · ipureintro; intro p hp
    simp only [Finset.mem_insert] at hp
    rcases hp with rfl | rfl | rfl | rfl | rfl | rfl | rfl | rfl | rfl | hp
    all_goals first | exact .inr rfl | exact .inl hp

end Body

end Cert.Proof.KI

end
-- ==== Proof.KIOwn.lean ====
/-
  A vector subcore's own resources at the start of its task, split into the ones its body names and the rest.
  Its own semaphores, each at zero, are a separating conjunction over the finite set of its scoped cells; its own
  buffers, each whole at some contents, one over the set of its buffers. A conjunction over a finite set is the
  conjunct at a member beside the conjunction over the set without it; taking out, one after another, the seven DMA
  semaphore cells and then the four scratch buffers (each a member of what is left, being different from the ones
  already taken out) gives the two statements.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-- Two DMA semaphores of one subcore with different places in the pool are different cells. -/
theorem cell_ne {sm sm' : DmaSems sig S_} (h : (SemLoc.dma sm.sem : SemLoc sig) ≠ SemLoc.dma sm'.sem) :
    cell d L sm ≠ cell d L sm' :=
  fun e => h (congrArg Prod.snd e)

/-- A DMA semaphore scoped to the vector subcores is one of the subcore's own cells. -/
theorem cell_mem (sm : DmaSems sig S_) (h : (SemLoc.dma sm.sem : SemLoc sig).isScoped .scVector = true) :
    cell d L sm ∈ ownCells (thr d L) :=
  (mem_ownCells (g := cell d L sm)).mpr ⟨rfl, h⟩

/-- Different scratch operands of the subcore are different buffers of it. -/
theorem buf_ne {b b' : Ref sig .scVector} (h : b ≠ b') :
    (Proc.scVector (cV L) (jV L)).devRef b ≠ (Proc.scVector (cV L) (jV L)).devRef b' :=
  fun e => h (Proc.devRef_injective _ e)

/-- The subcore's own semaphores other than the seven DMA semaphores its body names, each at zero. -/
def restSems : sProp 𝕄 :=
  bigSep ((((((((ownCells (thr d L)).erase (cell d L cc0_scratch4)).erase (cell d L cc0_scratch5)).erase (cell d L cc0_scratch6)).erase (cell d L cc0_scratch7)).erase (cell d L cc0_scratch8)).erase (cell d L cc0_scratch9)).erase (cell d L cc0_scoped0))
    fun g => semVal g 0

/-- The subcore's own semaphores at zero: the seven its body names, and the rest. -/
theorem ownSems0_V : (ownSems0 (thr d L) : sProp 𝕄)
    = iprop(semVal (cell d L cc0_scratch4) 0 ∗ semVal (cell d L cc0_scratch5) 0 ∗ semVal (cell d L cc0_scratch6) 0 ∗ semVal (cell d L cc0_scratch7) 0
        ∗ semVal (cell d L cc0_scratch8) 0 ∗ semVal (cell d L cc0_scratch9) 0 ∗ semVal (cell d L cc0_scoped0) 0 ∗ restSems d L) := by
  unfold SparseCore.Cfg.ownSems0 restSems
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0 (by decide)⟩⟩⟩⟩⟩⟩)]

/-- The subcore's own buffers other than the four scratch buffers its body names, each whole at some contents. -/
def restBufs : sProp 𝕄 :=
  bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
    fun b => iprop(∃ f, ((d, b) : Loc nD τ sig) ↦{fullShare} f)

/-- The subcore's own buffers: the four scratch buffers, each whole at some contents, and the rest. -/
theorem ownBufs_V : (ownBufs (thr d L) : sProp 𝕄)
    = iprop((∃ f, (s0W).view.loc (thr d L) ↦{fullShare} f) ∗ (∃ f, (b1W).view.loc (thr d L) ↦{fullShare} f)
        ∗ (∃ f, (b2W).view.loc (thr d L) ↦{fullShare} f) ∗ (∃ f, (b3W).view.loc (thr d L) ↦{fullShare} f) ∗ restBufs d L) := by
  unfold SparseCore.Cfg.ownBufs restBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨buf_ne L (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨buf_ne L (show (cc0_scratch2 : Ref sig .scVector) ≠ cc0_scratch1 by decide),
      Finset.mem_erase.mpr ⟨buf_ne L (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨buf_ne L (show (cc0_scratch3 : Ref sig .scVector) ≠ cc0_scratch2 by decide),
      Finset.mem_erase.mpr ⟨buf_ne L (show (cc0_scratch3 : Ref sig .scVector) ≠ cc0_scratch1 by decide),
      Finset.mem_erase.mpr ⟨buf_ne L (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

end Cert.Proof.KI

end
-- ==== Proof.LibStoreIdxConst.lean ====
/-
  An indexed store of one constant. The store takes the lanes of a rank-one vector in ascending order and writes each
  lane's value at the element the index vectors name for that lane. When every lane is written (the mask is all ones),
  nothing is added, and every lane carries the same constant, the order of the writes does not matter: an element that
  some lane names ends at the constant, and every other element keeps its value.
-/
import Idealize.ShloMosaic.PureOps

noncomputable section

namespace Cert.Proof.LibStoreIdxConst

open Idealize.ShloMosaic
open Classical

/-- One lane's write in the store's fold, the mask all ones, nothing added, the constant `c` in every lane: the
    contents after lane `k` from the contents `g` before it. -/
abbrev step {F : FTy → Type} [FloatOps F] {s : Shape} {e : EltTy} {d : Fin 1 → Nat}
    (idxs : Fin s.rank → IVec ⟨1, d⟩ 32) (c : Elt F e) (h : ∀ a x, (idxs a x).toNat < s.size a) :
    Vec F s e → Fin (d 0) → Vec F s e :=
  fun g k =>
    let x := Shape.ofLane k
    if (fun _ => 1#1 : IVec ⟨1, d⟩ 1) x = 1 then
      let i := idxAt idxs h x
      let y := if false = true then Elt.idxAdd e (g i) ((fun _ => c : Vec F ⟨1, d⟩ e) x) else (fun _ => c : Vec F ⟨1, d⟩ e) x
      fun j => if (∀ a, (j a).val = (i a).val) then y else g j
    else g

/-- One lane's write read at `j`: the constant when the lane names `j`, the value before it otherwise. -/
theorem step_apply {F : FTy → Type} [FloatOps F] {s : Shape} {e : EltTy} {d : Fin 1 → Nat}
    (idxs : Fin s.rank → IVec ⟨1, d⟩ 32) (c : Elt F e) (h : ∀ a x, (idxs a x).toNat < s.size a)
    (g : Vec F s e) (k : Fin (d 0)) (j : s.Idx) :
    step idxs c h g k j = if (∀ a, (idxs a (Shape.ofLane k)).toNat = (j a).val) then c else g j := by
  dsimp only [step]
  have h1 : (1#1 : BitVec 1) = 1 := rfl
  rw [if_pos h1]
  by_cases hk : ∀ a, (idxs a (Shape.ofLane k)).toNat = (j a).val
  · have hk' : ∀ a, (j a).val = (idxAt idxs h (Shape.ofLane k) a).val := fun a => (hk a).symm
    show (if ∀ a, (j a).val = (idxAt idxs h (Shape.ofLane k) a).val then (if false = true then _ else c) else g j) = _
    rw [if_pos hk', if_pos hk, if_neg Bool.false_ne_true]
  · have hk' : ¬∀ a, (j a).val = (idxAt idxs h (Shape.ofLane k) a).val := fun hj => hk fun a => (hj a).symm
    show (if ∀ a, (j a).val = (idxAt idxs h (Shape.ofLane k) a).val then (if false = true then _ else c) else g j) = _
    rw [if_neg hk', if_neg hk]

/-- The fold behind the store, over any list of lanes and from any starting contents: element `j` ends at the constant
    when a lane of the list names it, and at the starting contents' value otherwise. -/
theorem foldl_step {F : FTy → Type} [FloatOps F] {s : Shape} {e : EltTy} {d : Fin 1 → Nat}
    (idxs : Fin s.rank → IVec ⟨1, d⟩ 32) (c : Elt F e) (h : ∀ a x, (idxs a x).toNat < s.size a) (j : s.Idx) :
    ∀ (l : List (Fin (d 0))) (g : Vec F s e),
      l.foldl (step idxs c h) g j = if ∃ k ∈ l, ∀ a, (idxs a (Shape.ofLane k)).toNat = (j a).val then c else g j
  | [], g => by simp
  | k :: l, g => by
    rw [List.foldl_cons, foldl_step idxs c h j l, step_apply]
    by_cases hl : ∃ k' ∈ l, ∀ a, (idxs a (Shape.ofLane k')).toNat = (j a).val
    · have hl' : ∃ k' ∈ k :: l, ∀ a, (idxs a (Shape.ofLane k')).toNat = (j a).val := by
        obtain ⟨k', hk', e'⟩ := hl
        exact ⟨k', List.mem_cons_of_mem _ hk', e'⟩
      rw [if_pos hl, if_pos hl']
    · rw [if_neg hl]
      by_cases hk : ∀ a, (idxs a (Shape.ofLane k)).toNat = (j a).val
      · have hl' : ∃ k' ∈ k :: l, ∀ a, (idxs a (Shape.ofLane k')).toNat = (j a).val :=
          ⟨k, List.mem_cons_self, hk⟩
        rw [if_pos hk, if_pos hl']
      · have hl' : ¬∃ k' ∈ k :: l, ∀ a, (idxs a (Shape.ofLane k')).toNat = (j a).val := by
          rintro ⟨k', hk', e'⟩
          rcases List.mem_cons.1 hk' with rfl | hk'
          · exact hk e'
          · exact hl ⟨k', hk', e'⟩
        rw [if_neg hk, if_neg hl']

/-- An unmasked, non-adding indexed store of one constant in every lane: an element that some lane names ends at the
    constant, every other element keeps its value. -/
theorem storeIdx_const {F : FTy → Type} [FloatOps F] {s : Shape} {e : EltTy} {d : Fin 1 → Nat} (f : Vec F s e) (idxs : Fin s.rank → IVec ⟨1, d⟩ 32) (c : Elt F e)
    (h : ∀ a x, (idxs a x).toNat < s.size a) (j : s.Idx) :
    storeIdx f idxs (fun _ => c) (fun _ => 1#1) false h j
      = if ∃ k : Fin (d 0), ∀ a, (idxs a (Shape.ofLane k)).toNat = (j a).val then c else f j := by
  unfold storeIdx
  show List.foldl (step idxs c h) f (List.finRange (d 0)) j = _
  rw [foldl_step idxs c h j]
  by_cases hk : ∃ k : Fin (d 0), ∀ a, (idxs a (Shape.ofLane k)).toNat = (j a).val
  · have hk' : ∃ k ∈ List.finRange (d 0), ∀ a, (idxs a (Shape.ofLane k)).toNat = (j a).val := by
      obtain ⟨k, e'⟩ := hk
      exact ⟨k, List.mem_finRange k, e'⟩
    rw [if_pos hk, if_pos hk']
  · have hk' : ¬∃ k ∈ List.finRange (d 0), ∀ a, (idxs a (Shape.ofLane k)).toNat = (j a).val := by
      rintro ⟨k, -, e'⟩
      exact hk ⟨k, e'⟩
    rw [if_neg hk, if_neg hk']

end Cert.Proof.LibStoreIdxConst

end
-- ==== Proof.StoresValue.lean ====
/-
  What the chunk holds after its eight stores, position by position, and that it is the specification's flat result on
  the chunk's place in the flat array.
  One store of a constant at the positions `v` leaves the constant wherever some lane's position is the one read, and
  the old value elsewhere. The positions of a half-list `w` in the graph at offset `c` (0 or 16384) are
  `w · 128 + c` (feature 0) and one further (feature 1); a node number is at most 127, so position `n` is one of the
  former exactly when `n mod 128 = 0`, `n / 16384` is the graph, and `n / 128 mod 128` is a listed node, and one of
  the latter exactly when `n mod 128 = 1` and the same. So each pair of stores is one three-way update by a condition
  "the row is listed in this half", two such updates in a row are the update by the disjunction, and the eight stores
  are the update by "the row is listed in one of the four halves".
-/
import proofs.«212448_g4037269258948_cont_8to1_b_1693_16_alg».proof.Proof.Stores
import proofs.«212448_g4037269258948_cont_8to1_b_1693_16_alg».proof.Proof.LibStoreIdxConst
import proofs.«212448_g4037269258948_cont_8to1_b_1693_16_alg».proof.Proof.Spec

noncomputable section

namespace Cert.Proof.StoresValue

open Idealize.ShloMosaic
open Cert.Proof
open Classical

/-! ## Pure logic of the nested conditionals -/

/-- The three-way update: `cm` where `M0` and the condition `H` hold, `cz` where `M1` and `H` hold, the old value
    elsewhere. -/
def upd {α : Type} (M0 M1 : Prop) (cm cz : α) (H : Prop) (y : α) : α :=
  if M0 ∧ H then cm else if M1 ∧ H then cz else y

/-- Two writes, the first where `A`, the second (over it) where `B`, are one three-way update when `A` is
    "`M0` and `H`", `B` is "`M1` and `H`", and `M0`, `M1` exclude each other. -/
theorem pair_prop {α : Type} (M0 M1 H A B : Prop) [Decidable A] [Decidable B] (hx : ¬(M0 ∧ M1)) (eA : A ↔ M0 ∧ H) (eB : B ↔ M1 ∧ H) (cm cz y : α) :
    (if B then cz else if A then cm else y) = upd M0 M1 cm cz H y := by
  unfold upd
  by_cases h0 : M0 <;> by_cases h1 : M1 <;> by_cases hH : H <;> simp_all

/-- Two three-way updates in a row are the update by the disjunction of their conditions. -/
theorem upd_upd {α : Type} (M0 M1 H1 H2 : Prop) (cm cz y : α) :
    upd M0 M1 cm cz H2 (upd M0 M1 cm cz H1 y) = upd M0 M1 cm cz (H1 ∨ H2) y := by
  unfold upd
  by_cases h0 : M0 <;> by_cases h1 : M1 <;> by_cases hH1 : H1 <;> by_cases hH2 : H2 <;> simp_all

/-- The three-way update as the nested conditional over an equivalent condition, whatever decides the conditions. -/
theorem upd_eq_of_iff {α : Type} (M0 M1 H H' : Prop) (hh : H ↔ H') [Decidable (M0 ∧ H')] [Decidable (M1 ∧ H')] (cm cz y : α) :
    upd M0 M1 cm cz H y = if M0 ∧ H' then cm else if M1 ∧ H' then cz else y := by
  unfold upd
  by_cases h0 : M0 <;> by_cases h1 : M1 <;> by_cases hH : H' <;> simp_all

/-- Two nested conditionals with equivalent conditions and equal last values are equal, whatever decides the conditions. -/
theorem ite3_congr {α : Type} (A A' B B' : Prop) [Decidable A] [Decidable A'] [Decidable B] [Decidable B']
    (hA : A ↔ A') (hB : B ↔ B') (x y z z' : α) (hz : z = z') :
    (if A then x else if B then y else z) = if A' then x else if B' then y else z' := by
  subst hz
  by_cases h0 : A' <;> by_cases h1 : B' <;> simp_all

/-! ## One store, and a pair of stores -/

/-- A rank-one index is the lane of its coordinate. -/
theorem ofLane_coord {d : Fin 1 → Nat} (x : (⟨1, d⟩ : Shape).Idx) : Shape.ofLane (x 0) = x := by
  funext a
  obtain rfl : a = 0 := Subsingleton.elim _ _
  rfl

variable {F : FTy → Type} [FloatOps F]

/-- One store read at `q`: the constant when some lane's position is `q`'s, the old value otherwise. -/
theorem st_apply (f : Vec F Stores.SC .f32) (v : IVec Stores.S16 32) (c : F .f32)
    (h : ∀ a x, ((![v] : Fin 1 → IVec Stores.S16 32) a x).toNat < Stores.SC.size a) (q : Stores.SC.Idx) :
    Stores.st f v c h q = if ∃ x : Stores.S16.Idx, (v x).toNat = (q 0).val then c else f q := by
  have e := LibStoreIdxConst.storeIdx_const (F := F) (s := Stores.SC) (e := .f32) f ![v] c h q
  have hc : (∃ k : Fin ((![16] : Fin 1 → Nat) 0), ∀ a : Fin Stores.SC.rank, ((![v] : Fin 1 → IVec Stores.S16 32) a (Shape.ofLane k)).toNat = (q a).val)
      ↔ ∃ x : Stores.S16.Idx, (v x).toNat = (q 0).val := by
    constructor
    · rintro ⟨k, hk⟩
      exact ⟨Shape.ofLane k, hk 0⟩
    · rintro ⟨x, hx⟩
      refine ⟨x 0, fun a => ?_⟩
      obtain rfl : a = 0 := Subsingleton.elim _ _
      rw [ofLane_coord x]
      exact hx
  unfold Stores.st
  refine e.trans ?_
  by_cases hx : ∃ x : Stores.S16.Idx, (v x).toNat = (q 0).val
  · rw [if_pos hx, if_pos (hc.2 hx)]
  · rw [if_neg hx, if_neg fun hk => hx (hc.1 hk)]

/-- The two stores of one half-list `w` in the graph at offset `c = 16384 g` of the chunk, read at position `n` of `q`:
    the three-way update by "`n` is in graph `g` of the chunk and its row is a node of `w`". -/
theorem pair (f : Vec F Stores.SC .f32) (cm cz : F .f32) (w : IVec Stores.S16 32) (c : BitVec 32) (g : Nat)
    (hw : Stores.Small w) (hc : c.toNat ≤ 16384) (hcg : c.toNat = 16384 * g)
    (hA : ∀ a x, ((![Stores.flatA w c] : Fin 1 → IVec Stores.S16 32) a x).toNat < Stores.SC.size a)
    (hB : ∀ a x, ((![Stores.flatB w c] : Fin 1 → IVec Stores.S16 32) a x).toNat < Stores.SC.size a)
    (q : Stores.SC.Idx) :
    Stores.st (Stores.st f (Stores.flatA w c) cm hA) (Stores.flatB w c) cz hB q
      = upd ((q 0).val % 128 = 0) ((q 0).val % 128 = 1) cm cz
          ((q 0).val / 16384 = g ∧ ∃ x : Stores.S16.Idx, (w x).toNat = (q 0).val / 128 % 128) (f q) := by
  rw [st_apply, st_apply]
  have hn : (q 0).val < 32768 := (q 0).isLt
  refine pair_prop ((q 0).val % 128 = 0) ((q 0).val % 128 = 1) _ _ _ (by omega) ?_ ?_ cm cz (f q)
  · constructor
    · rintro ⟨x, hx⟩
      rw [Stores.flatA_toNat w c hw hc] at hx
      have := hw x
      exact ⟨by omega, by omega, x, by omega⟩
    · rintro ⟨h1, h2, x, hx⟩
      refine ⟨x, ?_⟩
      rw [Stores.flatA_toNat w c hw hc]
      omega
  · constructor
    · rintro ⟨x, hx⟩
      rw [Stores.flatB_toNat w c hw hc] at hx
      have := hw x
      exact ⟨by omega, by omega, x, by omega⟩
    · rintro ⟨h1, h2, x, hx⟩
      refine ⟨x, ?_⟩
      rw [Stores.flatB_toNat w c hw hc]
      omega

/-- A row is listed in one of the four half-lists: the disjunction over the halves. -/
theorem hit_iff (w00 w01 w10 w11 : IVec Stores.S16 32) (n : Nat) :
    ((n / 16384 = 0 ∧ ∃ x : Stores.S16.Idx, (w00 x).toNat = n / 128 % 128)
        ∨ (n / 16384 = 0 ∧ ∃ x : Stores.S16.Idx, (w01 x).toNat = n / 128 % 128)
        ∨ (n / 16384 = 1 ∧ ∃ x : Stores.S16.Idx, (w10 x).toNat = n / 128 % 128)
        ∨ (n / 16384 = 1 ∧ ∃ x : Stores.S16.Idx, (w11 x).toNat = n / 128 % 128))
      ↔ Stores.Hit w00 w01 w10 w11 n := by
  unfold Stores.Hit
  constructor
  · rintro (⟨hg, x, h⟩ | ⟨hg, x, h⟩ | ⟨hg, x, h⟩ | ⟨hg, x, h⟩)
    · exact ⟨x, Or.inl ⟨hg, Or.inl h⟩⟩
    · exact ⟨x, Or.inl ⟨hg, Or.inr h⟩⟩
    · exact ⟨x, Or.inr ⟨hg, Or.inl h⟩⟩
    · exact ⟨x, Or.inr ⟨hg, Or.inr h⟩⟩
  · rintro ⟨x, ⟨hg, h | h⟩ | ⟨hg, h | h⟩⟩
    · exact Or.inl ⟨hg, x, h⟩
    · exact Or.inr (Or.inl ⟨hg, x, h⟩)
    · exact Or.inr (Or.inr (Or.inl ⟨hg, x, h⟩))
    · exact Or.inr (Or.inr (Or.inr ⟨hg, x, h⟩))

/-! ## The chunk after its eight stores -/

/-- The chunk after its eight stores, read at a position: feature 0 of a listed row is `cm`, feature 1 of a listed row is
    `cz`, every other element is the staged one. -/
theorem W8_apply {F : FTy → Type} [FloatOps F] (P : Vec F Stores.SC .f32) (cm cz : F .f32) (w00 w01 w10 w11 : IVec Stores.S16 32)
    (h00 : Stores.Small w00) (h01 : Stores.Small w01) (h10 : Stores.Small w10) (h11 : Stores.Small w11) (q : Stores.SC.Idx) :
    Stores.W8 P cm cz w00 w01 w10 w11 h00 h01 h10 h11 q
      = if (q 0).val % 128 = 0 ∧ Stores.Hit w00 w01 w10 w11 (q 0).val then cm
        else if (q 0).val % 128 = 1 ∧ Stores.Hit w00 w01 w10 w11 (q 0).val then cz
        else P q := by
  unfold Stores.W8
  rw [pair _ cm cz w11 16384#32 1 h11 (by decide) (by decide) _ _ q,
    pair _ cm cz w10 16384#32 1 h10 (by decide) (by decide) _ _ q,
    pair _ cm cz w01 0#32 0 h01 (by decide) (by decide) _ _ q,
    pair _ cm cz w00 0#32 0 h00 (by decide) (by decide) _ _ q,
    upd_upd, upd_upd, upd_upd]
  exact upd_eq_of_iff ((q 0).val % 128 = 0) ((q 0).val % 128 = 1) _ _ (hit_iff w00 w01 w10 w11 (q 0).val) cm cz (P q)

/-- The chunk agrees with the specification's flat result on its place in the flat array: the chunk starts at element
    `16384 g0`, its staged contents are the flat input's elements there, and its four half-lists are rows `g0` and
    `g0 + 1` of the index array, columns 0 to 15 and 16 to 31. -/
theorem W8_Gflat {F : FTy → Type} [FloatOps F] (Y : Spec.SF.Idx → F .f32) (x2 : IVec Spec.SI 32) (cm cz : F .f32) (g0 : Nat) (hg0 : g0 + 1 < 256)
    (P : Vec F Stores.SC .f32) (w00 w01 w10 w11 : IVec Stores.S16 32)
    (h00 : Stores.Small w00) (h01 : Stores.Small w01) (h10 : Stores.Small w10) (h11 : Stores.Small w11)
    (hP : ∀ (q : Stores.SC.Idx) (p : Spec.SF.Idx), (p 0).val = 16384 * g0 + (q 0).val → P q = Y p)
    (e00 : ∀ (x : Stores.S16.Idx) (k : Spec.SI.Idx), (k 0).val = g0 → (k 1).val = (x 0).val → w00 x = x2 k)
    (e01 : ∀ (x : Stores.S16.Idx) (k : Spec.SI.Idx), (k 0).val = g0 → (k 1).val = 16 + (x 0).val → w01 x = x2 k)
    (e10 : ∀ (x : Stores.S16.Idx) (k : Spec.SI.Idx), (k 0).val = g0 + 1 → (k 1).val = (x 0).val → w10 x = x2 k)
    (e11 : ∀ (x : Stores.S16.Idx) (k : Spec.SI.Idx), (k 0).val = g0 + 1 → (k 1).val = 16 + (x 0).val → w11 x = x2 k)
    (q : Stores.SC.Idx) (p : Spec.SF.Idx) (hp : (p 0).val = 16384 * g0 + (q 0).val) :
    Stores.W8 P cm cz w00 w01 w10 w11 h00 h01 h10 h11 q = Spec.Gflat cm cz Y x2 p := by
  rw [W8_apply]
  unfold Spec.Gflat
  have hn : (q 0).val < 32768 := (q 0).isLt
  have m0 : (p 0).val % 128 = (q 0).val % 128 := by omega
  have m1 : (p 0).val / 16384 = g0 + (q 0).val / 16384 := by omega
  have m2 : (p 0).val / 128 % 128 = (q 0).val / 128 % 128 := by omega
  rw [m0, m1, m2]
  -- a row of the chunk is listed in a half-list exactly when it is listed in the index array
  have hHL : Stores.Hit w00 w01 w10 w11 (q 0).val ↔ Spec.Listed x2 (g0 + (q 0).val / 16384) ((q 0).val / 128 % 128) := by
    unfold Stores.Hit Spec.Listed
    constructor
    · rintro ⟨x, ⟨hg, h | h⟩ | ⟨hg, h | h⟩⟩
      · have hx : (x 0).val < 16 := (x 0).isLt
        refine ⟨ValueIdx.ix2 ⟨g0, by omega⟩ ⟨(x 0).val, by omega⟩, ?_, ?_⟩
        · show g0 = g0 + (q 0).val / 16384
          omega
        · rw [← e00 x _ rfl rfl]; exact h
      · have hx : (x 0).val < 16 := (x 0).isLt
        refine ⟨ValueIdx.ix2 ⟨g0, by omega⟩ ⟨16 + (x 0).val, by omega⟩, ?_, ?_⟩
        · show g0 = g0 + (q 0).val / 16384
          omega
        · rw [← e01 x _ rfl rfl]; exact h
      · have hx : (x 0).val < 16 := (x 0).isLt
        refine ⟨ValueIdx.ix2 ⟨g0 + 1, by omega⟩ ⟨(x 0).val, by omega⟩, ?_, ?_⟩
        · show g0 + 1 = g0 + (q 0).val / 16384
          omega
        · rw [← e10 x _ rfl rfl]; exact h
      · have hx : (x 0).val < 16 := (x 0).isLt
        refine ⟨ValueIdx.ix2 ⟨g0 + 1, by omega⟩ ⟨16 + (x 0).val, by omega⟩, ?_, ?_⟩
        · show g0 + 1 = g0 + (q 0).val / 16384
          omega
        · rw [← e11 x _ rfl rfl]; exact h
    · rintro ⟨k, hk0, hk⟩
      have hk1 : (k 1).val < 32 := (k 1).isLt
      by_cases hg : (q 0).val / 16384 = 0
      · by_cases hlo : (k 1).val < 16
        · refine ⟨ValueIdx.ix1 ⟨(k 1).val, hlo⟩, Or.inl ⟨hg, Or.inl ?_⟩⟩
          rw [e00 _ k (by omega) rfl]; exact hk
        · refine ⟨ValueIdx.ix1 ⟨(k 1).val - 16, by omega⟩, Or.inl ⟨hg, Or.inr ?_⟩⟩
          rw [e01 _ k (by omega) (by show (k 1).val = 16 + ((k 1).val - 16); omega)]; exact hk
      · have hg1 : (q 0).val / 16384 = 1 := by omega
        by_cases hlo : (k 1).val < 16
        · refine ⟨ValueIdx.ix1 ⟨(k 1).val, hlo⟩, Or.inr ⟨hg1, Or.inl ?_⟩⟩
          rw [e10 _ k (by omega) rfl]; exact hk
        · refine ⟨ValueIdx.ix1 ⟨(k 1).val - 16, by omega⟩, Or.inr ⟨hg1, Or.inr ?_⟩⟩
          rw [e11 _ k (by omega) (by show (k 1).val = 16 + ((k 1).val - 16); omega)]; exact hk
  have hA : ((q 0).val % 128 = 0 ∧ Stores.Hit w00 w01 w10 w11 (q 0).val)
      ↔ ((q 0).val % 128 = 0 ∧ Spec.Listed x2 (g0 + (q 0).val / 16384) ((q 0).val / 128 % 128)) := and_congr Iff.rfl hHL
  have hB : ((q 0).val % 128 = 1 ∧ Stores.Hit w00 w01 w10 w11 (q 0).val)
      ↔ ((q 0).val % 128 = 1 ∧ Spec.Listed x2 (g0 + (q 0).val / 16384) ((q 0).val / 128 % 128)) := and_congr Iff.rfl hHL
  exact ite3_congr _ _ _ _ hA hB cm cz _ _ (hP q p hp)

end Cert.Proof.StoresValue

end
-- ==== Proof.KIValue.lean ====
/-
  The pure facts about one tile that its task's proof and the launch use.
  The slices of the flat arrays and of the index array that the body takes, spelled with the printed offset functions,
  are the canonical chunks and block of the cut (the offsets are the same numbers). And each chunk of the result, which
  the task leaves at the staged chunk after its eight stores, agrees with the specification over the flat array: the
  chunk starts at element 16384 g0 for g0 the number of its first graph, what was staged is the flat input's elements
  there, and the four half-lists are rows g0 and g0 + 1 of the index array, columns 0 to 15 and 16 to 31.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.KIBody
import proofs.«212448_g4037269258948_cont_8to1_b_1693_16_alg».proof.Proof.KIRes
import proofs.«212448_g4037269258948_cont_8to1_b_1693_16_alg».proof.Proof.StoresValue
import proofs.«212448_g4037269258948_cont_8to1_b_1693_16_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

theorem bound_zero : grid0.bound 0 = 2 := rfl
theorem bound_one : grid0.bound 1 = 16 := rfl
/-- The tile's SparseCore and subcore numbers. -/
abbrev cF (L : grid0.Coords) : Fin 2 := Fin.cast bound_zero (L 0)
abbrev sF (L : grid0.Coords) : Fin 16 := Fin.cast bound_one (L 1)

/-! ## The printed offsets are the cut's -/

/-- The fifth offset function at its two constants, in closed form (the 32 grid points enumerated). -/
theorem off5_98304 : ∀ i : grid0.Coords, k0_off5 i 98304#32 = ![262144 * (i 1).val + 131072 * (i 0).val + 98304] := by decide +kernel
theorem off5_65536 : ∀ i : grid0.Coords, k0_off5 i 65536#32 = ![262144 * (i 1).val + 131072 * (i 0).val + 65536] := by decide +kernel

/-- Two rank-one offset vectors with the same coordinate are equal. -/
theorem off1_ext {o : Fin 1 → Nat} {n : Nat} (h : o 0 = n) : o = ![n] := by
  funext a
  obtain rfl : a = 0 := Subsingleton.elim _ _
  exact h

/-- The start of chunk `r` of the tile at `L`. -/
abbrev cBase (L : grid0.Coords) (r : Fin 4) : Nat := 262144 * (sF L).val + 131072 * (cF L).val + 32768 * r.val

theorem off_nf0 (L : grid0.Coords) : k0_off1 L 0#32 = ![cBase L 0] :=
  (k0_off1_eq L 0).trans (off1_ext (by show 262144 * (L 1).val + 131072 * (L 0).val + 32768 * 0 = 262144 * (L 1).val + 131072 * (L 0).val + 32768 * 0; rfl))
theorem off_nf1 (L : grid0.Coords) : k0_off1 L 32768#32 = ![cBase L 1] :=
  (k0_off1_eq L 1).trans (off1_ext (by show 262144 * (L 1).val + 131072 * (L 0).val + 32768 * 1 = 262144 * (L 1).val + 131072 * (L 0).val + 32768 * 1; rfl))
theorem off_nf2 (L : grid0.Coords) : k0_off1 L 65536#32 = ![cBase L 2] :=
  (k0_off1_eq L 2).trans (off1_ext (by show 262144 * (L 1).val + 131072 * (L 0).val + 32768 * 2 = 262144 * (L 1).val + 131072 * (L 0).val + 32768 * 2; rfl))
theorem off_nf3 (L : grid0.Coords) : k0_off5 L 98304#32 = ![cBase L 3] :=
  (off5_98304 L).trans (off1_ext (by show 262144 * (L 1).val + 131072 * (L 0).val + 98304 = 262144 * (L 1).val + 131072 * (L 0).val + 32768 * 3; omega))
theorem off_out0 (L : grid0.Coords) : k0_off3 L 0#32 = ![cBase L 0] :=
  (k0_off3_eq L 0).trans (off1_ext (by show 262144 * (L 1).val + 131072 * (L 0).val + 32768 * 0 = 262144 * (L 1).val + 131072 * (L 0).val + 32768 * 0; rfl))
theorem off_out1 (L : grid0.Coords) : k0_off4 L 32768#32 = ![cBase L 1] :=
  (k0_off4_eq L 0).trans (off1_ext (by show 262144 * (L 1).val + 131072 * (L 0).val + 32768 * 0 + 32768 = 262144 * (L 1).val + 131072 * (L 0).val + 32768 * 1; omega))
theorem off_out2 (L : grid0.Coords) : k0_off5 L 65536#32 = ![cBase L 2] :=
  (off5_65536 L).trans (off1_ext (by show 262144 * (L 1).val + 131072 * (L 0).val + 65536 = 262144 * (L 1).val + 131072 * (L 0).val + 32768 * 2; omega))
theorem off_out3 (L : grid0.Coords) : k0_off6 L 98304#32 = ![cBase L 3] :=
  (k0_off6_eq L 2).trans (off1_ext (by show 262144 * (L 1).val + 131072 * (L 0).val + 32768 * 2 + 32768 = 262144 * (L 1).val + 131072 * (L 0).val + 32768 * 3; omega))
theorem off_ixB (L : grid0.Coords) : k0_off2 L = ![16 * (sF L).val + 8 * (cF L).val, 0] := k0_off2_eq L

/-! ## The slices as the body spells them are the canonical chunks and block -/

/-- A slice of the flat input by a unit rectangle of 32768 elements from the start of chunk `r` is chunk `r`. -/
theorem set_nf (L : grid0.Coords) (r : Fin 4) (off : Fin 1 → Nat) (hin : ∀ a, off a + S32768.size a ≤ S4194304.size a)
    (e : off = ![cBase L r]) :
    (nfW.slice (Rect.unit (s := S4194304) off S32768.size hin) (fun _ => rfl)).view.set = cS (cF L) (sF L) r := by
  subst e
  show ((View.whole (main_v0_scv : Ref sig .scVector)).slice (Rect.unit (s := S4194304) ![cBase L r] S32768.size hin)).set = _
  rw [View.set_slice_whole]
  rfl

/-- The same for the flat result. -/
theorem set_out (L : grid0.Coords) (r : Fin 4) (off : Fin 1 → Nat) (hin : ∀ a, off a + S32768.size a ≤ S4194304.size a)
    (e : off = ![cBase L r]) :
    (outW.slice (Rect.unit (s := S4194304) off S32768.size hin) (fun _ => rfl)).view.set = cS (cF L) (sF L) r := by
  subst e
  show ((View.whole (main_v1_scv : Ref sig .scVector)).slice (Rect.unit (s := S4194304) ![cBase L r] S32768.size hin)).set = _
  rw [View.set_slice_whole]
  rfl

theorem set_nf0 (L : grid0.Coords) : (nf0 L).view.set = cS (cF L) (sF L) 0 := set_nf L 0 _ _ (off_nf0 L)
theorem set_nf1 (L : grid0.Coords) : (nf1 L).view.set = cS (cF L) (sF L) 1 := set_nf L 1 _ _ (off_nf1 L)
theorem set_nf2 (L : grid0.Coords) : (nf2 L).view.set = cS (cF L) (sF L) 2 := set_nf L 2 _ _ (off_nf2 L)
theorem set_nf3 (L : grid0.Coords) : (nf3 L).view.set = cS (cF L) (sF L) 3 := set_nf L 3 _ _ (off_nf3 L)
theorem set_out0 (L : grid0.Coords) : (out0 L).view.set = cS (cF L) (sF L) 0 := set_out L 0 _ _ (off_out0 L)
theorem set_out1 (L : grid0.Coords) : (out1 L).view.set = cS (cF L) (sF L) 1 := set_out L 1 _ _ (off_out1 L)
theorem set_out2 (L : grid0.Coords) : (out2 L).view.set = cS (cF L) (sF L) 2 := set_out L 2 _ _ (off_out2 L)
theorem set_out3 (L : grid0.Coords) : (out3 L).view.set = cS (cF L) (sF L) 3 := set_out L 3 _ _ (off_out3 L)

theorem set_ixB (L : grid0.Coords) : (ixB L).view.set = bS (cF L) (sF L) := by
  show ((View.whole (main_arg2_scv : Ref sig .scVector)).slice (Rect.unit (s := S256x32) (k0_off2 L) S8x32.size (k0_off2_inb L))).set = _
  rw [View.set_slice_whole]
  have e : ∀ (off : Fin 2 → Nat) (hin : ∀ a, off a + S8x32.size a ≤ S256x32.size a), off = ![16 * (sF L).val + 8 * (cF L).val, 0] →
      (Rect.unit (s := S256x32) off S8x32.size hin).set = bS (cF L) (sF L) := by
    intro off hin e
    subst e
    rfl
  exact e _ _ (off_ixB L)

/-! ## Each chunk of the result agrees with the specification -/

section ChunkOK
variable [FloatOps F] (d : Dev nD) (L : grid0.Coords)

/-- What a copy out of a chunk of the flat input carries, read at a position: the input's element under it. -/
theorem chunkPay_apply (off : Fin 1 → Nat) (hin : ∀ a, off a + S32768.size a ≤ S4194304.size a) (y : Buf (Elt F) ((nfW).view.loc (thr d L)))
    (q : S32768.Idx) :
    chunkPay d L off hin y q = y ((nfW.slice (Rect.unit (s := S4194304) off S32768.size hin) (fun _ => rfl)).view.emb q) := by
  show (View.read (Elt F) (nfW.slice (Rect.unit (s := S4194304) off S32768.size hin) (fun _ => rfl)).view y) q = _
  rw [View.read_apply]
  simp only [cast_eq]

/-- A half of one of the tile's index rows, read at a lane: the index array's word at the row of the tile's block and
    the column the half starts at plus the lane. -/
theorem half_apply (x2 : Buf (Elt F) ((ixW).view.loc (thr d L))) (f0 : Buf (Elt F) ((s0W).view.loc (thr d L)))
    (off : Fin 2 → Nat) (hin : ∀ a, off a + S1x16.size a ≤ S8x32.size a) (x : S16.Idx) (k : S256x32.Idx)
    (hk0 : (k 0).val = 16 * (sF L).val + 8 * (cF L).val + off 0) (hk1 : (k 1).val = off 1 + (x 0).val) :
    half d L x2 f0 off hin x = x2 k := by
  have hx : (x 0).val < 16 := (x 0).isLt
  show shapeCast S16 (View.readAt (Elt F) s0W.view (Rect.unit (s := S8x32) off S1x16.size hin).toLoadRect
    (View.write (Elt F) s0W.view f0 (ixPay d L x2) Finset.univ)) shapeCasts_S1x16_S16 x = x2 k
  have hj : Shape.reshapeEquiv shapeCasts_S1x16_S16 x = ValueIdx.ix2 (⟨0, by omega⟩ : Fin 1) (⟨(x 0).val, hx⟩ : Fin 16) :=
    Shape.reshapeEquiv_eq_of_rowMajor _ (by rw [Shape.rowMajor_val_two, Shape.rowMajor_val_one]; show 0 * 16 + (x 0).val = (x 0).val; omega)
  show (View.readAt (Elt F) s0W.view (Rect.unit (s := S8x32) off S1x16.size hin).toLoadRect
    (View.write (Elt F) s0W.view f0 (ixPay d L x2) Finset.univ)) (Shape.reshapeEquiv shapeCasts_S1x16_S16 x) = x2 k
  rw [hj, View.readAt_apply]
  have e : View.write (Elt F) s0W.view f0 (ixPay d L x2) Finset.univ = ixPay d L x2 := View.write_whole_univ _ _ _
  rw [e]
  show (View.read (Elt F) (ixB L).view x2) ((Rect.unit (s := S8x32) off S1x16.size hin).toLoadRect.idx
    (ValueIdx.ix2 (⟨0, by omega⟩ : Fin 1) (⟨(x 0).val, hx⟩ : Fin 16))) = x2 k
  rw [View.read_apply]
  simp only [cast_eq]
  refine congrArg x2 ?_
  have o0 : k0_off2 L 0 = 16 * (sF L).val + 8 * (cF L).val := congrFun (off_ixB L) 0
  have o1 : k0_off2 L 1 = 0 := congrFun (off_ixB L) 1
  funext a
  match a with
  | ⟨0, _⟩ =>
    apply Fin.ext
    show k0_off2 L 0 + 1 * (off 0 + 1 * 0) = (k 0).val
    rw [o0, hk0]; omega
  | ⟨1, _⟩ =>
    apply Fin.ext
    show k0_off2 L 1 + 1 * (off 1 + 1 * (x 0).val) = (k 1).val
    rw [o1, hk1]; omega

/-- Chunk `r` of the result, left at the staged chunk after the stores for rows `2 r` and `2 r + 1` of the tile's
    eight, agrees with the specification. -/
theorem chunk_ok (m : (ℓ : Loc nD τ sig) → Buf (Elt F) ℓ) (f0 : Buf (Elt F) ((s0W).view.loc (thr d L)))
    (hx2 : Small (s := S256x32) (m (a2Loc d))) (f : Buf (Elt F) (v1Loc d)) (r : Fin 4)
    (offI offO : Fin 1 → Nat) (hinI : ∀ a, offI a + S32768.size a ≤ S4194304.size a) (hinO : ∀ a, offO a + S32768.size a ≤ S4194304.size a)
    (eI : offI = ![cBase L r]) (eO : offO = ![cBase L r])
    (o00 o01 o10 o11 : Fin 2 → Nat) (i00 : ∀ a, o00 a + S1x16.size a ≤ S8x32.size a) (i01 : ∀ a, o01 a + S1x16.size a ≤ S8x32.size a)
    (i10 : ∀ a, o10 a + S1x16.size a ≤ S8x32.size a) (i11 : ∀ a, o11 a + S1x16.size a ≤ S8x32.size a)
    (h00 : o00 = ![2 * r.val, 0]) (h01 : o01 = ![2 * r.val, 16]) (h10 : o10 = ![2 * r.val + 1, 0]) (h11 : o11 = ![2 * r.val + 1, 16])
    (h : ∀ q, f ((outW.slice (Rect.unit (s := S4194304) offO S32768.size hinO) (fun _ => rfl)).view.emb q)
      = chunkOut d L (m (a2Loc d)) f0 hx2 (chunkPay d L offI hinI (Yf m d)) o00 o01 o10 o11 i00 i01 i10 i11 q) :
    OKc m d f (cF L) (sF L) r := by
  subst eI eO h00 h01 h10 h11
  intro p hp
  rw [Chunks.mem_cRect] at hp
  obtain ⟨hlo, hhi⟩ := hp
  have hc : (cF L).val < 2 := (cF L).isLt
  have hs : (sF L).val < 16 := (sF L).isLt
  have hr : r.val < 4 := r.isLt
  obtain ⟨q, hq0⟩ : ∃ q : S32768.Idx, (q 0).val = (p 0).val - (262144 * (sF L).val + 131072 * (cF L).val + 32768 * r.val) :=
    ⟨ValueIdx.ix1 ⟨(p 0).val - (262144 * (sF L).val + 131072 * (cF L).val + 32768 * r.val), by omega⟩, rfl⟩
  have hemb : (outW.slice (Rect.unit (s := S4194304) ![cBase L r] S32768.size hinO) (fun _ => rfl)).view.emb q = p := by
    funext a
    match a with
    | ⟨0, _⟩ =>
      apply Fin.ext
      show 262144 * (sF L).val + 131072 * (cF L).val + 32768 * r.val + 1 * (q 0).val = (p 0).val
      omega
  refine (congrArg f hemb).symm.trans ((h q).trans ?_)
  refine StoresValue.W8_Gflat (Yf m d) (m (a2Loc d)) cmK czK (16 * (sF L).val + 8 * (cF L).val + 2 * r.val) (by omega)
    _ _ _ _ _ _ _ _ _ ?_ ?_ ?_ ?_ ?_ q p (by omega)
  · intro q' p' hp'
    rw [chunkPay_apply]
    refine congrArg (Yf m d) ?_
    funext a
    match a with
    | ⟨0, _⟩ =>
      apply Fin.ext
      show 262144 * (sF L).val + 131072 * (cF L).val + 32768 * r.val + 1 * (q' 0).val = (p' 0).val
      omega
  · intro x k hk0 hk1
    exact half_apply d L _ f0 _ i00 x k (by show (k 0).val = 16 * (sF L).val + 8 * (cF L).val + 2 * r.val; omega)
      (by show (k 1).val = 0 + (x 0).val; omega)
  · intro x k hk0 hk1
    exact half_apply d L _ f0 _ i01 x k (by show (k 0).val = 16 * (sF L).val + 8 * (cF L).val + 2 * r.val; omega)
      (by show (k 1).val = 16 + (x 0).val; omega)
  · intro x k hk0 hk1
    exact half_apply d L _ f0 _ i10 x k (by show (k 0).val = 16 * (sF L).val + 8 * (cF L).val + (2 * r.val + 1); omega)
      (by show (k 1).val = 0 + (x 0).val; omega)
  · intro x k hk0 hk1
    exact half_apply d L _ f0 _ i11 x k (by show (k 0).val = 16 * (sF L).val + 8 * (cF L).val + (2 * r.val + 1); omega)
      (by show (k 1).val = 16 + (x 0).val; omega)

end ChunkOK

theorem chunk_ok0 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out0 L).view.emb q) = out0V d L (Yf m d) (m (a2Loc d)) f0 hx2 q) : OKc m d f (cF L) (sF L) 0 :=
  chunk_ok d L m f0 hx2 f 0 _ _ _ _ (off_nf0 L) (off_out0 L) _ _ _ _ _ _ _ _ rfl rfl rfl rfl h
theorem chunk_ok1 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out1 L).view.emb q) = out1V d L (Yf m d) (m (a2Loc d)) f0 hx2 q) : OKc m d f (cF L) (sF L) 1 :=
  chunk_ok d L m f0 hx2 f 1 _ _ _ _ (off_nf1 L) (off_out1 L) _ _ _ _ _ _ _ _ rfl rfl rfl rfl h
theorem chunk_ok2 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out2 L).view.emb q) = out2V d L (Yf m d) (m (a2Loc d)) f0 hx2 q) : OKc m d f (cF L) (sF L) 2 :=
  chunk_ok d L m f0 hx2 f 2 _ _ _ _ (off_nf2 L) (off_out2 L) _ _ _ _ _ _ _ _ rfl rfl rfl rfl h
theorem chunk_ok3 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out3 L).view.emb q) = out3V d L (Yf m d) (m (a2Loc d)) f0 hx2 q) : OKc m d f (cF L) (sF L) 3 :=
  chunk_ok d L m f0 hx2 f 3 _ _ _ _ (off_nf3 L) (off_out3 L) _ _ _ _ _ _ _ _ rfl rfl rfl rfl h

end Cert.Proof.KI

end
-- ==== Proof.KITile.lean ====
/-
  The launch theorem's obligation for one tile of `KernelIdeal`: from the tile's pieces (`GO`), its scoped scratch buffers and its
  scoped semaphores at zero, its task runs to the end and hands back `TD`: its inputs unchanged and each chunk of the
  result in agreement with the specification. The pieces are restated as the task's own slices of the arrays (the same
  sets of elements), the task is the run of the body (KIBody), and each chunk's contents — the staged chunk after its
  eight stores — agree with the specification on the chunk because the stores hit exactly feature 0 and feature 1 of the
  listed nodes' rows.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.KIBody
import proofs.«212448_g4037269258948_cont_8to1_b_1693_16_alg».proof.Proof.KIRes
import proofs.«212448_g4037269258948_cont_8to1_b_1693_16_alg».proof.Proof.KIOwn
import proofs.«212448_g4037269258948_cont_8to1_b_1693_16_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

variable (m : (ℓ : Loc nD τ sig) → Buf (Elt F) ℓ)

/-- What the proof asks of the launch memory: every listed node number is at most 127 (the precondition says so). -/
def PreOK : Prop := ∀ d : Dev nD, Small (s := S256x32) (m (a2Loc d))

section Tile
variable (d : Dev nD) (L : grid0.Coords)

/-! The tile's pieces, as the task's own slices address them. -/
theorem pts_nf0 (f : Buf (Elt F) (v0Loc d)) : ((nf0 L).view.loc (thr d L) ↦[(nf0 L).view.set]{fullShare} f : sProp 𝕄) = v0Loc d ↦[cS (cF L) (sF L) 0]{fullShare} f := by rw [set_nf0]
theorem pts_nf1 (f : Buf (Elt F) (v0Loc d)) : ((nf1 L).view.loc (thr d L) ↦[(nf1 L).view.set]{fullShare} f : sProp 𝕄) = v0Loc d ↦[cS (cF L) (sF L) 1]{fullShare} f := by rw [set_nf1]
theorem pts_nf2 (f : Buf (Elt F) (v0Loc d)) : ((nf2 L).view.loc (thr d L) ↦[(nf2 L).view.set]{fullShare} f : sProp 𝕄) = v0Loc d ↦[cS (cF L) (sF L) 2]{fullShare} f := by rw [set_nf2]
theorem pts_nf3 (f : Buf (Elt F) (v0Loc d)) : ((nf3 L).view.loc (thr d L) ↦[(nf3 L).view.set]{fullShare} f : sProp 𝕄) = v0Loc d ↦[cS (cF L) (sF L) 3]{fullShare} f := by rw [set_nf3]
theorem pts_out0 (f : Buf (Elt F) (v1Loc d)) : ((out0 L).view.loc (thr d L) ↦[(out0 L).view.set]{fullShare} f : sProp 𝕄) = v1Loc d ↦[cS (cF L) (sF L) 0]{fullShare} f := by rw [set_out0]
theorem pts_out1 (f : Buf (Elt F) (v1Loc d)) : ((out1 L).view.loc (thr d L) ↦[(out1 L).view.set]{fullShare} f : sProp 𝕄) = v1Loc d ↦[cS (cF L) (sF L) 1]{fullShare} f := by rw [set_out1]
theorem pts_out2 (f : Buf (Elt F) (v1Loc d)) : ((out2 L).view.loc (thr d L) ↦[(out2 L).view.set]{fullShare} f : sProp 𝕄) = v1Loc d ↦[cS (cF L) (sF L) 2]{fullShare} f := by rw [set_out2]
theorem pts_out3 (f : Buf (Elt F) (v1Loc d)) : ((out3 L).view.loc (thr d L) ↦[(out3 L).view.set]{fullShare} f : sProp 𝕄) = v1Loc d ↦[cS (cF L) (sF L) 3]{fullShare} f := by rw [set_out3]
theorem pts_ixB (f : Buf (Elt F) (a2Loc d)) : ((ixB L).view.loc (thr d L) ↦[(ixB L).view.set]{fullShare} f : sProp 𝕄) = a2Loc d ↦[bS (cF L) (sF L)]{fullShare} f := by rw [set_ixB]

variable [FloatOps F]

set_option maxHeartbeats 4000000 in
/-- The task on the vector subcore at grid coordinates `L` of device `d`. -/
theorem tile_body (hF : (K (F := F)).Facts) (hpre : PreOK m) (O : CellTallies nD τ sig (HIx 1)) (W : Waits sig (HIx 1)) (hO : ∀ g, O g none = 0) :
    (iprop(levAts (K (F := F)).L (K (F := F)).lev ∗ emp ∗ GO m d (cF L) (sF L)
        ∗ scopedBufs (thr d L) ∗ scopedSems0 (thr d L) ∗ owes (thr d L) O W) : sProp 𝕄)
      ⊢ wp frame (wpE (defs₀ (F := F)) 𝒱₀ (thr d L) none) Set.univ
          (cc0__mask_kernel L nfW (Memref.isWhole_whole _) ixW (Memref.isWhole_whole _) outW (Memref.isWhole_whole _)
            s0W (Memref.isWhole_whole _) b1W (Memref.isWhole_whole _) b2W (Memref.isWhole_whole _) b3W (Memref.isWhole_whole _)
            cc0_scratch4 cc0_scratch5 cc0_scratch6 cc0_scratch7 cc0_scratch8 cc0_scratch9 cc0_scoped0)
          fun _ => iprop(TD m d (cF L) (sF L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hn0, Hn1, Hn2, Hn3, Hix, Ho0, Ho1, Ho2, Ho3⟩, ⟨⟨%f0, Hs0⟩, ⟨%f1, Hb1⟩, ⟨%f2, Hb2⟩, ⟨%f3, Hb3⟩, Hbufs⟩,
    ⟨H4, H5, H6, H7, H8, H9, Hsc, Hsems⟩, HO⟩
  ihave Hmw := ((K (F := F)).mayWaits_none (thr := thr d L) hO) $$ Hlv
  ihave Hn0 := (Entails.of_eq (pts_nf0 (F := F) d L _).symm) $$ Hn0
  ihave Hn1 := (Entails.of_eq (pts_nf1 (F := F) d L _).symm) $$ Hn1
  ihave Hn2 := (Entails.of_eq (pts_nf2 (F := F) d L _).symm) $$ Hn2
  ihave Hn3 := (Entails.of_eq (pts_nf3 (F := F) d L _).symm) $$ Hn3
  ihave Hix := (Entails.of_eq (pts_ixB (F := F) d L _).symm) $$ Hix
  ihave Ho0 := (Entails.of_eq (pts_out0 (F := F) d L _).symm) $$ Ho0
  ihave Ho1 := (Entails.of_eq (pts_out1 (F := F) d L _).symm) $$ Ho1
  ihave Ho2 := (Entails.of_eq (pts_out2 (F := F) d L _).symm) $$ Ho2
  ihave Ho3 := (Entails.of_eq (pts_out3 (F := F) d L _).symm) $$ Ho3
  iapply (wp_wand_r frame _ _)
  isplitl [Hmw Hn0 Hn1 Hn2 Hn3 Hix Ho0 Ho1 Ho2 Ho3 Hs0 Hb1 Hb2 Hb3 H4 H5 H6 H7 H8 H9 Hsc HO]
  · iapply (body_core (F := F) d L O W (Yf m d) (m (a2Loc d)) (m (v1Loc d)) f0 f1 f2 f3 (hpre d))
    isplitl [Hmw]; · iexact Hmw
    isplitl [Hn0]; · iexact Hn0
    isplitl [Hn1]; · iexact Hn1
    isplitl [Hn2]; · iexact Hn2
    isplitl [Hn3]; · iexact Hn3
    isplitl [Hix]; · iexact Hix
    isplitl [Ho0]; · iexact Ho0
    isplitl [Ho1]; · iexact Ho1
    isplitl [Ho2]; · iexact Ho2
    isplitl [Ho3]; · iexact Ho3
    isplitl [Hs0]; · iexact Hs0
    isplitl [Hb1]; · iexact Hb1
    isplitl [Hb2]; · iexact Hb2
    isplitl [Hb3]; · iexact Hb3
    isplitl [H4]; · iexact H4
    isplitl [H5]; · iexact H5
    isplitl [H6]; · iexact H6
    isplitl [H7]; · iexact H7
    isplitl [H8]; · iexact H8
    isplitl [H9]; · iexact H9
    isplitl [Hsc]; · iexact Hsc
    iexact HO
  iintro %_ ⟨Hn0, Hn1, Hn2, Hn3, Hix, ⟨%g0, Ho0, %h0⟩, ⟨%g1, Ho1, %h1⟩, ⟨%g2, Ho2, %h2⟩, ⟨%g3, Ho3, %h3⟩, Hs0, Hb1, Hb2, Hb3,
    H4, H5, H6, H7, H8, H9, Hsc, HW⟩
  ihave Hn0 := (Entails.of_eq (pts_nf0 (F := F) d L _)) $$ Hn0
  ihave Hn1 := (Entails.of_eq (pts_nf1 (F := F) d L _)) $$ Hn1
  ihave Hn2 := (Entails.of_eq (pts_nf2 (F := F) d L _)) $$ Hn2
  ihave Hn3 := (Entails.of_eq (pts_nf3 (F := F) d L _)) $$ Hn3
  ihave Hix := (Entails.of_eq (pts_ixB (F := F) d L _)) $$ Hix
  ihave Ho0 := (Entails.of_eq (pts_out0 (F := F) d L _)) $$ Ho0
  ihave Ho1 := (Entails.of_eq (pts_out1 (F := F) d L _)) $$ Ho1
  ihave Ho2 := (Entails.of_eq (pts_out2 (F := F) d L _)) $$ Ho2
  ihave Ho3 := (Entails.of_eq (pts_out3 (F := F) d L _)) $$ Ho3
  isplitl [Hn0 Hn1 Hn2 Hn3 Hix Ho0 Ho1 Ho2 Ho3]
  · isplitl [Hn0]; · iexact Hn0
    isplitl [Hn1]; · iexact Hn1
    isplitl [Hn2]; · iexact Hn2
    isplitl [Hn3]; · iexact Hn3
    isplitl [Hix]; · iexact Hix
    isplitl [Ho0]
    · iexists g0; isplitl [Ho0]; · iexact Ho0
      ipureintro; exact chunk_ok0 m d L f0 (hpre d) g0 h0
    isplitl [Ho1]
    · iexists g1; isplitl [Ho1]; · iexact Ho1
      ipureintro; exact chunk_ok1 m d L f0 (hpre d) g1 h1
    isplitl [Ho2]
    · iexists g2; isplitl [Ho2]; · iexact Ho2
      ipureintro; exact chunk_ok2 m d L f0 (hpre d) g2 h2
    · iexists g3; isplitl [Ho3]; · iexact Ho3
      ipureintro; exact chunk_ok3 m d L f0 (hpre d) g3 h3
  isplitl [Hs0 Hb1 Hb2 Hb3 Hbufs]
  · isplitl [Hs0]; · iexact Hs0
    isplitl [Hb1]; · iexact Hb1
    isplitl [Hb2]; · iexact Hb2
    isplitl [Hb3]; · iexact Hb3
    iexact Hbufs
  isplitl [H4 H5 H6 H7 H8 H9 Hsc Hsems]
  · isplitl [H4]; · iexact H4
    isplitl [H5]; · iexact H5
    isplitl [H6]; · iexact H6
    isplitl [H7]; · iexact H7
    isplitl [H8]; · iexact H8
    isplitl [H9]; · iexact H9
    isplitl [Hsc]; · iexact Hsc
    iexact Hsems
  iexact HW

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__mask_kernel (coordsV c s)
          nfW (Memref.isWhole_whole _) ixW (Memref.isWhole_whole _) outW (Memref.isWhole_whole _)
          s0W (Memref.isWhole_whole _) b1W (Memref.isWhole_whole _) b2W (Memref.isWhole_whole _) b3W (Memref.isWhole_whole _)
          cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.KISplit.lean ====
/-
  Whole arrays to the tiles' pieces and back.
  The 128 chunks of a flat array are pairwise disjoint and cover it, and so do the 32 blocks of rows of the index array;
  so a flat array held whole is, chunk by chunk, the separating conjunction over the SparseCores c, their tiles s and the
  four chunks r of a tile of the chunk held, and the index array the one over c and s of the block held. A conjunction
  over (c, s) of a conjunction of three things is the conjunction of the three conjunctions, which gives: the three
  arrays held whole are exactly what the tiles are handed. Coming back, every chunk of the result is held at contents of
  its own that agree with the specification on the chunk; disjoint pieces held at different contents are their union
  held at contents that agree with each piece's on that piece, and every element lies in some chunk, so those contents
  are the specification's everywhere.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.KIRes
import proofs.«212448_g4037269258948_cont_8to1_b_1693_16_alg».proof.Proof.Chunks
import proofs.«212448_g4037269258948_cont_8to1_b_1693_16_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## Iterated conjunctions over the SparseCores, their tiles and a tile's four chunks -/

omit [FloatOps F] in
/-- The conjunction over the kernel's SparseCores is the one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A conjunction over `Fin 4` is its four conjuncts. -/
theorem bigSep_univ_four (Ψ : Fin 4 → sProp 𝕄) : bigSep Finset.univ Ψ = iprop(Ψ 0 ∗ Ψ 1 ∗ Ψ 2 ∗ Ψ 3) := by
  rw [show (Finset.univ : Finset (Fin 4)) = {0, 1, 2, 3} from by decide, bigSep_insert (by decide), bigSep_insert (by decide),
    bigSep_insert (by decide), bigSep_singleton]
  rfl

omit [FloatOps F] in
/-- A conjunction over the triples (c, s, r) is the iterated one. -/
theorem bigSep_univ3 (Φ : Fin 2 × Fin 16 × Fin 4 → sProp 𝕄) :
    bigSep Finset.univ Φ
      = bigSep Finset.univ fun c : Fin 2 => bigSep Finset.univ fun s : Fin 16 => bigSep Finset.univ fun r : Fin 4 => Φ (c, s, r) := by
  rw [BI.bigSep_univ_prod]
  exact bigSep_congr fun c _ => BI.bigSep_univ_prod _

omit [FloatOps F] in
/-- A conjunction over (c, s) of three things side by side is the three conjunctions side by side. -/
theorem bigSep2_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)) := by
  rw [← bigSep_sep', ← bigSep_sep']
  refine bigSep_congr fun c _ => ?_
  rw [bigSep_sep', bigSep_sep']

omit [FloatOps F] in
/-- Separating conjunction is associative. -/
theorem sep_assoc_eq (P Q R : sProp 𝕄) : iprop((P ∗ Q) ∗ R) = iprop(P ∗ Q ∗ R) :=
  Idealize.SL.BI.sep_assoc.antisymm Idealize.SL.BI.sep_assoc'

/-! ## The pieces of tile (c, s) -/

/-- The four chunks of tile (c, s) of the flat input, held at `f`. -/
def X0 (d : Dev nD) (f : Buf (Elt F) (v0Loc d)) (c : Fin 2) (s : Fin 16) : sProp 𝕄 :=
  iprop((v0Loc d ↦[cS c s 0]{fullShare} f) ∗ (v0Loc d ↦[cS c s 1]{fullShare} f)
    ∗ (v0Loc d ↦[cS c s 2]{fullShare} f) ∗ (v0Loc d ↦[cS c s 3]{fullShare} f))
/-- The block of rows of tile (c, s) of the index array, held at `f`. -/
def XB (d : Dev nD) (f : Buf (Elt F) (a2Loc d)) (c : Fin 2) (s : Fin 16) : sProp 𝕄 :=
  a2Loc d ↦[bS c s]{fullShare} f
/-- The four chunks of tile (c, s) of the flat result, held at `f`. -/
def X1 (d : Dev nD) (f : Buf (Elt F) (v1Loc d)) (c : Fin 2) (s : Fin 16) : sProp 𝕄 :=
  iprop((v1Loc d ↦[cS c s 0]{fullShare} f) ∗ (v1Loc d ↦[cS c s 1]{fullShare} f)
    ∗ (v1Loc d ↦[cS c s 2]{fullShare} f) ∗ (v1Loc d ↦[cS c s 3]{fullShare} f))
/-- A chunk of the flat result held at some contents that agree with the specification on it. -/
def Y1 (d : Dev nD) (t : Fin 2 × Fin 16 × Fin 4) : sProp 𝕄 :=
  iprop(∃ f, (v1Loc d ↦[cS t.1 t.2.1 t.2.2]{fullShare} f) ∗ ⌜OKc m d f t.1 t.2.1 t.2.2⌝)

omit [FloatOps F] in
/-- The flat input held whole is its chunks held, tile by tile. -/
theorem v0_tiles (d : Dev nD) (f : Buf (Elt F) (v0Loc d)) :
    (v0Loc d ↦{fullShare} f : sProp 𝕄) = bigSep Finset.univ fun c : Fin 2 => bigSep Finset.univ fun s : Fin 16 => X0 d f c s := by
  have e : (v0Loc d ↦{fullShare} f : sProp 𝕄)
      = bigSep Finset.univ fun t : Fin 2 × Fin 16 × Fin 4 => v0Loc d ↦[cS t.1 t.2.1 t.2.2]{fullShare} f := by
    rw [← pointsTo_biUnion Finset.univ (ℓ := v0Loc d) (fun t : Fin 2 × Fin 16 × Fin 4 => cS t.1 t.2.1 t.2.2) Chunks.cRect_disjoint,
      Chunks.cRect_cover]; try rfl
  rw [e, bigSep_univ3]
  exact bigSep_congr fun c _ => bigSep_congr fun s _ => bigSep_univ_four (fun r => v0Loc d ↦[cS c s r]{fullShare} f)

omit [FloatOps F] in
/-- The flat result held whole is its chunks held, tile by tile. -/
theorem v1_tiles (d : Dev nD) (f : Buf (Elt F) (v1Loc d)) :
    (v1Loc d ↦{fullShare} f : sProp 𝕄) = bigSep Finset.univ fun c : Fin 2 => bigSep Finset.univ fun s : Fin 16 => X1 d f c s := by
  have e : (v1Loc d ↦{fullShare} f : sProp 𝕄)
      = bigSep Finset.univ fun t : Fin 2 × Fin 16 × Fin 4 => v1Loc d ↦[cS t.1 t.2.1 t.2.2]{fullShare} f := by
    rw [← pointsTo_biUnion Finset.univ (ℓ := v1Loc d) (fun t : Fin 2 × Fin 16 × Fin 4 => cS t.1 t.2.1 t.2.2) Chunks.cRect_disjoint,
      Chunks.cRect_cover]; try rfl
  rw [e, bigSep_univ3]
  exact bigSep_congr fun c _ => bigSep_congr fun s _ => bigSep_univ_four (fun r => v1Loc d ↦[cS c s r]{fullShare} f)

omit [FloatOps F] in
/-- The index array held whole is its blocks of rows held, tile by tile. -/
theorem a2_tiles (d : Dev nD) (f : Buf (Elt F) (a2Loc d)) :
    (a2Loc d ↦{fullShare} f : sProp 𝕄) = bigSep Finset.univ fun c : Fin 2 => bigSep Finset.univ fun s : Fin 16 => XB d f c s := by
  have e : (a2Loc d ↦{fullShare} f : sProp 𝕄)
      = bigSep Finset.univ fun t : Fin 2 × Fin 16 => a2Loc d ↦[bS t.1 t.2]{fullShare} f := by
    rw [← pointsTo_biUnion Finset.univ (ℓ := a2Loc d) (fun t : Fin 2 × Fin 16 => bS t.1 t.2) Chunks.bRect_disjoint,
      Chunks.bRect_cover]; try rfl
  rw [e, BI.bigSep_univ_prod]
  rfl

/-- What tile (c, s) is handed, grouped by array. -/
theorem GO_eq (d : Dev nD) (c : Fin 2) (s : Fin 16) :
    GO m d c s = iprop(X0 d (Yf m d) c s ∗ XB d (m (a2Loc d)) c s ∗ X1 d (m (v1Loc d)) c s) := by
  unfold GO X0 XB X1
  simp only [sep_assoc_eq]

/-- What tile (c, s) hands back, grouped by array. -/
theorem TD_eq (d : Dev nD) (c : Fin 2) (s : Fin 16) :
    TD m d c s = iprop(X0 d (Yf m d) c s ∗ XB d (m (a2Loc d)) c s ∗ bigSep Finset.univ fun r : Fin 4 => Y1 m d (c, s, r)) := by
  rw [bigSep_univ_four]
  unfold TD X0 XB Y1
  simp only [sep_assoc_eq]

/-- What the SparseCores take is the three arrays held whole. -/
theorem st_eq (d : Dev nD) :
    (bigSep Finset.univ fun c : Fin ((K (F := F)).nCore 0) => (P m).st 0 d c : sProp 𝕄)
      = iprop((v0Loc d ↦{fullShare} Yf m d) ∗ (a2Loc d ↦{fullShare} m (a2Loc d)) ∗ (v1Loc d ↦{fullShare} m (v1Loc d))) := by
  rw [v0_tiles, a2_tiles, v1_tiles, ← bigSep2_sep3]
  show (bigSep Finset.univ fun c : Fin ((K (F := F)).nCore 0) => bigSep Finset.univ fun s : Fin 16 => GO m d (Fin.cast nCore_zero c) s) = _
  rw [bigSep_cores (F := F) (fun c => bigSep Finset.univ fun s : Fin 16 => GO m d c s)]
  exact bigSep_congr fun c _ => bigSep_congr fun s _ => GO_eq m d c s

/-- What the SparseCores bring back is the flat input and the index array held whole, and every chunk of the flat
    result held at contents that agree with the specification on it. -/
theorem dn_eq (d : Dev nD) :
    (bigSep Finset.univ fun c : Fin ((K (F := F)).nCore 0) => (P m).dn 0 d c : sProp 𝕄)
      = iprop((v0Loc d ↦{fullShare} Yf m d) ∗ (a2Loc d ↦{fullShare} m (a2Loc d))
          ∗ bigSep Finset.univ fun t : Fin 2 × Fin 16 × Fin 4 => Y1 m d t) := by
  rw [v0_tiles, a2_tiles, bigSep_univ3, ← bigSep2_sep3]
  show (bigSep Finset.univ fun c : Fin ((K (F := F)).nCore 0) => bigSep Finset.univ fun s : Fin 16 => TD m d (Fin.cast nCore_zero c) s) = _
  rw [bigSep_cores (F := F) (fun c => bigSep Finset.univ fun s : Fin 16 => TD m d c s)]
  exact bigSep_congr fun c _ => bigSep_congr fun s _ => TD_eq m d c s

/-- A chunk's conjunct with the agreement first. -/
theorem Y1_comm (d : Dev nD) (t : Fin 2 × Fin 16 × Fin 4) :
    (Y1 m d t : sProp 𝕄) ⊢ iprop(∃ f, ⌜OKc m d f t.1 t.2.1 t.2.2⌝ ∗ (v1Loc d ↦[cS t.1 t.2.1 t.2.2]{fullShare} f)) := by
  unfold Y1
  iintro ⟨%f, Hp, %hok⟩
  iexists f
  isplitr
  · ipureintro; exact hok
  · iexact Hp

/-- The chunks of the flat result, each held at contents that agree with the specification on it, are the flat result
    held whole at the specification. -/
theorem v1_join (d : Dev nD) :
    (bigSep Finset.univ fun t : Fin 2 × Fin 16 × Fin 4 => Y1 m d t : sProp 𝕄)
      ⊢ iprop(∃ f, (v1Loc d ↦{fullShare} f) ∗ ⌜f = Spec.Gflat (cmK (F := F)) (czK (F := F)) (Yf m d) (m (a2Loc d))⌝) := by
  have hcov : ∀ g : Buf (Elt F) (v1Loc d),
      (v1Loc d ↦[(Finset.univ : Finset (Fin 2 × Fin 16 × Fin 4)).biUnion fun t => cS t.1 t.2.1 t.2.2]{fullShare} g : sProp 𝕄)
        = (v1Loc d ↦{fullShare} g) := by
    intro g; rw [Chunks.cRect_cover]; try rfl
  refine (bigSep_mono (Ψ := fun t : Fin 2 × Fin 16 × Fin 4 =>
    iprop(∃ f, ⌜OKc m d f t.1 t.2.1 t.2.2⌝ ∗ (v1Loc d ↦[cS t.1 t.2.1 t.2.2]{fullShare} f))) fun t _ => Y1_comm m d t).trans ?_
  refine (bigSep_exists_pi Finset.univ (fun (t : Fin 2 × Fin 16 × Fin 4) (f : Buf (Elt F) (v1Loc d)) =>
    iprop(⌜OKc m d f t.1 t.2.1 t.2.2⌝ ∗ (v1Loc d ↦[cS t.1 t.2.1 t.2.2]{fullShare} f)))).trans ?_
  iintro ⟨%fs, H⟩
  ihave H2 := (bigSep_pure_sep Finset.univ (fun t : Fin 2 × Fin 16 × Fin 4 => OKc m d (fs t) t.1 t.2.1 t.2.2)
    (fun t : Fin 2 × Fin 16 × Fin 4 => (v1Loc d ↦[cS t.1 t.2.1 t.2.2]{fullShare} fs t : sProp 𝕄))) $$ H
  icases H2 with ⟨%hok, Hp⟩
  ihave H3 := (pointsTo_biUnion_join Finset.univ (fun t : Fin 2 × Fin 16 × Fin 4 => cS t.1 t.2.1 t.2.2) fs (fs (0, 0, 0))
    Chunks.cRect_disjoint) $$ Hp
  icases H3 with ⟨%g, %hg, Hg⟩
  iexists g
  isplitl [Hg]
  · iapply (Entails.of_eq (hcov g)); iexact Hg
  · ipureintro
    funext p
    obtain ⟨c, s, r, hp⟩ := Chunks.exists_chunk p
    rw [hg (c, s, r) (Finset.mem_univ _) p hp]
    exact hok (c, s, r) (Finset.mem_univ _) p hp

/-- Before the call: the flat input, the index array and the flat result, each held whole, are the two SparseCores' sixteen tiles' pieces. -/
theorem st_of_whole (d : Dev nD) :
    (iprop((v0Loc d ↦{fullShare} Yf m d) ∗ (a2Loc d ↦{fullShare} m (a2Loc d)) ∗ (v1Loc d ↦{fullShare} m (v1Loc d))) : sProp 𝕄)
      ⊢ bigSep Finset.univ fun c : Fin ((K (F := F)).nCore 0) => (P m).st 0 d c := by
  exact Entails.of_eq (st_eq m d).symm

/-- After the call: the pieces the tiles hand back are the flat input and the index array whole and unchanged, and the flat result whole at the specification. -/
theorem dn_to_whole (d : Dev nD) :
    (bigSep Finset.univ fun c : Fin ((K (F := F)).nCore 0) => (P m).dn 0 d c : sProp 𝕄)
      ⊢ iprop((v0Loc d ↦{fullShare} Yf m d) ∗ (a2Loc d ↦{fullShare} m (a2Loc d))
          ∗ ∃ f, (v1Loc d ↦{fullShare} f) ∗ ⌜f = Spec.Gflat (cmK (F := F)) (czK (F := F)) (Yf m d) (m (a2Loc d))⌝) := by
  rw [dn_eq]
  iintro ⟨H0, H2, H1⟩
  isplitl [H0]; · iexact H0
  isplitl [H2]; · iexact H2
  iapply (v1_join m d); iexact H1

end Cert.Proof.KI

end
-- ==== Proof.KIMain.lean ====
/-
  The TensorCore's side of `KernelIdeal`, the split of a SparseCore's pieces among its tiles, and the launch's ghost state.
  @main reshapes the feature array to the flat input, makes the one call — which takes the flat input, the index array and the
  flat result whole and brings them back, the result at the specification over the flat array — and reshapes the flat
  result to the result. The three arguments are never written. A SparseCore's pieces ARE its sixteen tiles' pieces, so
  the split is the identity. The kernel's semaphores are each tile's own, used by local copies only: the launch's ghost
  state is the handshakes' rounds, with nothing of the kernel's.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.KIRes
import proofs.«212448_g4037269258948_cont_8to1_b_1693_16_alg».proof.Proof.Spec
import proofs.«212448_g4037269258948_cont_8to1_b_1693_16_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Spec.Gflat)

variable [FloatOps F] (m : (ℓ : Loc nD τ sig) → Buf (Elt F) ℓ) (ρ : Dev nD → PrngReg)

/-! ## A SparseCore's pieces are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => GO m d (Fin.cast nCore_zero c) s) ⊢ |={Set.univ}=> iprop(
      (bigSep Finset.univ fun i : Fin ((K (F := F)).nSub 0) => GO m d (Fin.cast nCore_zero c) (Fin.cast nSub_zero i))
      ∗ ((bigSep Finset.univ fun i : Fin ((K (F := F)).nSub 0) => TD m d (Fin.cast nCore_zero c) (Fin.cast nSub_zero i))
          -∗ bigSep Finset.univ fun s : Fin 16 => TD m d (Fin.cast nCore_zero c) s))
  rw [bigSep_tasks (F := F) (fun s => GO m d (Fin.cast nCore_zero c) s), bigSep_tasks (F := F) (fun s => TD m d (Fin.cast nCore_zero c) s)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The TensorCore's arrays, all unscoped. -/
abbrev S6 : Finset (DevRef τ sig) := {a0', a1', a2', v0', v1', v2'}

abbrev op1 : HloOp τ sig (Elt F) := StableHlo.reshape main_arg0 main_v0 rfl shapeCasts_S256x128x128_S4194304
abbrev op2 : HloOp τ sig (Elt F) := StableHlo.reshape main_v1 main_v2 rfl shapeCasts_S4194304_S256x128x128

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (v0Loc d ↦{fullShare} W v0') ∗ (v1Loc d ↦{fullShare} W v1') ∗ v2Loc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (v1Loc d ↦{fullShare} W main_v1) ∗ v2Loc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The flat result at the specification, and the result: its reshape. -/
abbrev Gf (d : Dev nD) : Buf (Elt F) (v1Loc d) := Spec.Gflat (cmK (F := F)) (czK (F := F)) (Yf m d) (m (a2Loc d))
abbrev RES (d : Dev nD) : Buf (Elt F) (v2Loc d) := shapeCast S256x128x128 (Gf m d) shapeCasts_S4194304_S256x128x128

/-- The launch valuation; and the one after the call: the flat input written, the flat result at the specification. -/
def V0 (d : Dev nD) : Valuation τ sig (Elt F) := fun b => m (d, b)
def V2 (d : Dev nD) : Valuation τ sig (Elt F) := Function.update (Function.update (V0 m d) v0' (Yf m d)) v1' (Gf m d)

theorem unscoped_held (d : Dev nD) : (unscopedBufs d (fun b => m ((SparseCore.T d).loc b)) : sProp 𝕄) = held (T d) S6 (V0 m d) := by
  rw [unscopedBufs_eq, held_S6]; rfl

theorem hop1 : (op1 (F := F)).bufs ⊆ S6 := show ({a0', v0'} : Finset (DevRef τ sig)) ⊆ S6 by decide
theorem hop2 : (op2 (F := F)).bufs ⊆ S6 := show ({v1', v2'} : Finset (DevRef τ sig)) ⊆ S6 by decide

/-! ### The two reshapes' results -/

theorem res1_v0 (d : Dev nD) : (op1 (F := F)).result (V0 m d) v0' = Yf m d :=
  (StableHlo.reshape_result main_arg0 main_v0 rfl shapeCasts_S256x128x128_S4194304 ⟨by decide, rfl⟩ ⟨by decide, rfl⟩ (V0 m d)).trans rfl
theorem res1_a0 (d : Dev nD) : (op1 (F := F)).result (V0 m d) a0' = m (a0Loc d) := (op1 (F := F)).result_of_not_mem (V0 m d) (b := a0') (show a0' ∉ ({v0'} : Finset (DevRef τ sig)) by decide)
theorem res1_a1 (d : Dev nD) : (op1 (F := F)).result (V0 m d) a1' = m (a1Loc d) := (op1 (F := F)).result_of_not_mem (V0 m d) (b := a1') (show a1' ∉ ({v0'} : Finset (DevRef τ sig)) by decide)
theorem res1_a2 (d : Dev nD) : (op1 (F := F)).result (V0 m d) a2' = m (a2Loc d) := (op1 (F := F)).result_of_not_mem (V0 m d) (b := a2') (show a2' ∉ ({v0'} : Finset (DevRef τ sig)) by decide)
theorem res1_v1 (d : Dev nD) : (op1 (F := F)).result (V0 m d) v1' = m (v1Loc d) := (op1 (F := F)).result_of_not_mem (V0 m d) (b := v1') (show v1' ∉ ({v0'} : Finset (DevRef τ sig)) by decide)
theorem res1_v2 (d : Dev nD) : (op1 (F := F)).result (V0 m d) v2' = m (v2Loc d) := (op1 (F := F)).result_of_not_mem (V0 m d) (b := v2') (show v2' ∉ ({v0'} : Finset (DevRef τ sig)) by decide)

theorem held_after1 (d : Dev nD) :
    (held (T d) S6 ((op1 (F := F)).result (V0 m d)) : sProp 𝕄) = iprop((a0Loc d ↦{fullShare} m (a0Loc d)) ∗ (a1Loc d ↦{fullShare} m (a1Loc d))
      ∗ (a2Loc d ↦{fullShare} m (a2Loc d)) ∗ (v0Loc d ↦{fullShare} Yf m d) ∗ (v1Loc d ↦{fullShare} m (v1Loc d)) ∗ v2Loc d ↦{fullShare} m (v2Loc d)) := by
  rw [held_S6, res1_a0, res1_a1, res1_a2, res1_v0, res1_v1, res1_v2]

theorem V2_a0 (d : Dev nD) : V2 m d a0' = m (a0Loc d) := by
  unfold V2; rw [Function.update_of_ne (show a0' ≠ v1' by decide), Function.update_of_ne (show a0' ≠ v0' by decide)]; rfl
theorem V2_a1 (d : Dev nD) : V2 m d a1' = m (a1Loc d) := by
  unfold V2; rw [Function.update_of_ne (show a1' ≠ v1' by decide), Function.update_of_ne (show a1' ≠ v0' by decide)]; rfl
theorem V2_a2 (d : Dev nD) : V2 m d a2' = m (a2Loc d) := by
  unfold V2; rw [Function.update_of_ne (show a2' ≠ v1' by decide), Function.update_of_ne (show a2' ≠ v0' by decide)]; rfl
theorem V2_v0 (d : Dev nD) : V2 m d v0' = Yf m d := by
  unfold V2; rw [Function.update_of_ne (show v0' ≠ v1' by decide), Function.update_self]
theorem V2_v1 (d : Dev nD) : V2 m d v1' = Gf m d := by unfold V2; rw [Function.update_self]
theorem V2_v2 (d : Dev nD) : V2 m d v2' = m (v2Loc d) := by
  unfold V2; rw [Function.update_of_ne (show v2' ≠ v1' by decide), Function.update_of_ne (show v2' ≠ v0' by decide)]; rfl

theorem res2_v2 (d : Dev nD) : (op2 (F := F)).result (V2 m d) v2' = RES m d := by
  refine (StableHlo.reshape_result main_v1 main_v2 rfl shapeCasts_S4194304_S256x128x128 ⟨by decide, rfl⟩ ⟨by decide, rfl⟩ (V2 m d)).trans ?_
  show (fun i => shapeCast S256x128x128 (V2 m d v1') shapeCasts_S4194304_S256x128x128 i) = _
  rw [V2_v1]; rfl
theorem res2_a0 (d : Dev nD) : (op2 (F := F)).result (V2 m d) a0' = m (a0Loc d) := ((op2 (F := F)).result_of_not_mem (V2 m d) (b := a0') (show a0' ∉ ({v2'} : Finset (DevRef τ sig)) by decide)).trans (V2_a0 m d)
theorem res2_a1 (d : Dev nD) : (op2 (F := F)).result (V2 m d) a1' = m (a1Loc d) := ((op2 (F := F)).result_of_not_mem (V2 m d) (b := a1') (show a1' ∉ ({v2'} : Finset (DevRef τ sig)) by decide)).trans (V2_a1 m d)
theorem res2_a2 (d : Dev nD) : (op2 (F := F)).result (V2 m d) a2' = m (a2Loc d) := ((op2 (F := F)).result_of_not_mem (V2 m d) (b := a2') (show a2' ∉ ({v2'} : Finset (DevRef τ sig)) by decide)).trans (V2_a2 m d)

theorem held_before2 (d : Dev nD) :
    (held (T d) S6 (V2 m d) : sProp 𝕄) = iprop((a0Loc d ↦{fullShare} m (a0Loc d)) ∗ (a1Loc d ↦{fullShare} m (a1Loc d))
      ∗ (a2Loc d ↦{fullShare} m (a2Loc d)) ∗ (v0Loc d ↦{fullShare} Yf m d) ∗ (v1Loc d ↦{fullShare} Gf m d) ∗ v2Loc d ↦{fullShare} m (v2Loc d)) := by
  rw [held_S6, V2_a0, V2_a1, V2_a2, V2_v0, V2_v1, V2_v2]

theorem held_after2 (d : Dev nD) :
    (held (T d) S6 ((op2 (F := F)).result (V2 m d)) : sProp 𝕄) = iprop((a0Loc d ↦{fullShare} m (a0Loc d)) ∗ (a1Loc d ↦{fullShare} m (a1Loc d))
      ∗ (a2Loc d ↦{fullShare} m (a2Loc d)) ∗ (v0Loc d ↦{fullShare} (op2 (F := F)).result (V2 m d) v0') ∗ (v1Loc d ↦{fullShare} (op2 (F := F)).result (V2 m d) v1')
      ∗ v2Loc d ↦{fullShare} RES m d) := by
  rw [held_S6, res2_a0, res2_a1, res2_a2, res2_v2]

/-- What @main leaves the claim: the three arguments at their launch contents, the result at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ v2Loc d ↦{fullShare} RES m d)

/-- @main on device `d`'s TensorCore: the first reshape, the call over the three whole arrays, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the flat input written
  iapply (wp_hlo_within 𝒱 (SparseCore.T d) none Set.univ (op := op1) (S := S6) hop1 (V := V0 m d)) $$ [Hb Hheld]
  · isplitl [Hb]; · iexact Hb
    iexact Hheld
  iintro ⟨Hb, Hheld⟩
  ihave Hh := (Entails.of_eq (held_after1 (F := F) m d)) $$ Hheld
  icases Hh with ⟨Ha0, Ha1, Ha2, Hv0, Hv1, Hv2⟩
  rw [wp_ret]; imodintro
  -- the call: the flat input, the index array and the flat result to the tiles and back
  iapply ((K (F := F)).wp_run (D (F := F)) 𝒱 (EH := EH) (P := P m) κ d 0) $$ [Hst Hv0 Ha2 Hv1 Hb Ha0 Ha1 Hv2]
  isplitr; · iexact Hctx
  isplitl [Hst]; · iexact Hst
  isplitl [Hv0 Ha2 Hv1]
  · iapply (st_of_whole m d)
    isplitl [Hv0]; · iexact Hv0
    isplitl [Ha2]; · iexact Ha2
    iexact Hv1
  iintro ⟨Hst, Hdn⟩
  ihave Hdn' := (dn_to_whole m d) $$ Hdn
  icases Hdn' with ⟨Hv0, Ha2, %f, Hv1, %hf⟩
  subst hf
  -- the second reshape: the flat result's elements as the result
  iapply (wp_hlo_within 𝒱 (SparseCore.T d) none Set.univ (op := op2) (S := S6) hop2 (V := V2 m d)) $$ [Hb Ha0 Ha1 Ha2 Hv0 Hv1 Hv2]
  · isplitl [Hb]; · iexact Hb
    rw [held_before2]
    isplitl [Ha0]; · iexact Ha0
    isplitl [Ha1]; · iexact Ha1
    isplitl [Ha2]; · iexact Ha2
    isplitl [Hv0]; · iexact Hv0
    isplitl [Hv1]; · iexact Hv1
    iexact Hv2
  iintro ⟨Hb, Hheld⟩
  ihave Hh := (Entails.of_eq (held_after2 (F := F) m d)) $$ Hheld
  icases Hh with ⟨Ha0, Ha1, Ha2, -, -, Hv2⟩
  rw [wp_ret]; imodintro; imodintro
  isplitl [Hst]; · iexact Hst
  isplitl [Ha0]; · iexact Ha0
  isplitl [Ha1]; · iexact Ha1
  isplitl [Ha2]; · iexact Ha2
  iexact Hv2

/-- What the final memory says: the arguments unchanged, the result at the specification. -/
def fq (d : Dev nD) (s' : Phys nD τ sig (Elt F)) : Prop :=
  s'.mem.mem (v2Loc d) = RES m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v2Loc d) (I := Finset.univ) (q := fullShare) (f := RES m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

end Cert.Proof.KI

end
-- ==== Proof.KIRun.lean ====
/-
  The run of `KernelIdeal`: every weakly fair execution of the device's 35 threads — the TensorCore's @main, the two
  sequencers, the 32 tiles — from a memory whose listed node numbers are at most 127 terminates, nothing faulting, with the
  three arguments unchanged and the result at the specification: the feature array with feature 0 and feature 1 of every
  listed node's row replaced by the two constants. The launch theorem, applied to the tile's obligation (KITile), the
  split of a SparseCore's pieces among its tiles, the launch element and @main (KIMain).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.KISetup
import proofs.«212448_g4037269258948_cont_8to1_b_1693_16_alg».proof.Proof.KIRes
import proofs.«212448_g4037269258948_cont_8to1_b_1693_16_alg».proof.Proof.KITile
import proofs.«212448_g4037269258948_cont_8to1_b_1693_16_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

variable [FloatOps F] (m : (ℓ : Loc nD τ sig) → Buf (Elt F) ℓ) (ρ : Dev nD → PrngReg)

/-- The claim's post: on every device the result at the specification, the arguments unchanged. -/
def QC : PUnit × MemSt nD τ sig (Elt F) → Prop := fun r => ∀ c : Dev nD,
  r.2.mem (v2Loc c) = RES m c ∧ r.2.mem (a0Loc c) = m (a0Loc c) ∧ r.2.mem (a1Loc c) = m (a1Loc c) ∧ r.2.mem (a2Loc c) = m (a2Loc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The set-up shared by the proof of one tile's task and of the launch, for the program `Kernel`.
  The kernel runs on the 32 vector subcores (2 SparseCores of 16). Subcore s of SparseCore c has number 2 s + c and owns
  graphs 8 (2 s + c) … 8 (2 s + c) + 7: the 131072 consecutive elements of the flat feature array from
  262144 s + 131072 c on, cut into four chunks of 32768 (two graphs each), and rows 16 s + 8 c … + 7 of the index array.
  It stages a chunk in one of three buffers, overwrites in it feature 0 and feature 1 of every listed node's row, and
  copies the chunk to the same place of the flat result. Every copy is local to the subcore and waited for by it, so no
  schedule between threads is needed: the ghost state is the launch handshakes' rounds beside the transfers' counters.
  Here: the program as the launch theorem sees it, the resource algebra, the memrefs as the body slices them, and why
  every indexed store stays inside its staging buffer (a listed node number is at most 127).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The kernel's memrefs, as the body table passes them and as the body slices them -/

abbrev nfW : Memref sig .scVector .hbm S4194304 .f32 := Memref.whole main_v0_scv
abbrev ixW : Memref sig .scVector .hbm S256x32 .i32 := Memref.whole main_arg2_scv
abbrev outW : Memref sig .scVector .hbm S4194304 .f32 := Memref.whole main_v1_scv
abbrev s0W : Memref sig .scVector .vmem S8x32 .i32 := Memref.whole cc0_scratch0
abbrev b1W : Memref sig .scVector .vmem S32768 .f32 := Memref.whole cc0_scratch1
abbrev b2W : Memref sig .scVector .vmem S32768 .f32 := Memref.whole cc0_scratch2
abbrev b3W : Memref sig .scVector .vmem S32768 .f32 := Memref.whole cc0_scratch3

abbrev cV (L : grid0.Coords) : Fin τ.nSC := (L 0).castLE hcore0
abbrev jV (L : grid0.Coords) : Fin τ.nSub := (L 1).castLE hsub0

abbrev nf0 (L : grid0.Coords) : Memref sig .scVector .hbm S32768 .f32 := nfW.slice (Rect.unit (s := S4194304) (k0_off1 L 0#32) S32768.size (k0_off1_inb L 0)) (fun _ => rfl)
abbrev nf1 (L : grid0.Coords) : Memref sig .scVector .hbm S32768 .f32 := nfW.slice (Rect.unit (s := S4194304) (k0_off1 L 32768#32) S32768.size (k0_off1_inb L 1)) (fun _ => rfl)
abbrev nf2 (L : grid0.Coords) : Memref sig .scVector .hbm S32768 .f32 := nfW.slice (Rect.unit (s := S4194304) (k0_off1 L 65536#32) S32768.size (k0_off1_inb L 2)) (fun _ => rfl)
abbrev nf3 (L : grid0.Coords) : Memref sig .scVector .hbm S32768 .f32 := nfW.slice (Rect.unit (s := S4194304) (k0_off5 L 98304#32) S32768.size (k0_off5_inb L 2)) (fun _ => rfl)
abbrev ixB (L : grid0.Coords) : Memref sig .scVector .hbm S8x32 .i32 := ixW.slice (Rect.unit (s := S256x32) (k0_off2 L) S8x32.size (k0_off2_inb L)) (fun _ => rfl)
abbrev out0 (L : grid0.Coords) : Memref sig .scVector .hbm S32768 .f32 := outW.slice (Rect.unit (s := S4194304) (k0_off3 L 0#32) S32768.size (k0_off3_inb L 0)) (fun _ => rfl)
abbrev out1 (L : grid0.Coords) : Memref sig .scVector .hbm S32768 .f32 := outW.slice (Rect.unit (s := S4194304) (k0_off4 L 32768#32) S32768.size (k0_off4_inb L 0)) (fun _ => rfl)
abbrev out2 (L : grid0.Coords) : Memref sig .scVector .hbm S32768 .f32 := outW.slice (Rect.unit (s := S4194304) (k0_off5 L 65536#32) S32768.size (k0_off5_inb L 0)) (fun _ => rfl)
abbrev out3 (L : grid0.Coords) : Memref sig .scVector .hbm S32768 .f32 := outW.slice (Rect.unit (s := S4194304) (k0_off6 L 98304#32) S32768.size (k0_off6_inb L 2)) (fun _ => rfl)

/-! ## The indexed stores stay inside the staging buffer

A listed node number is at most 127 (the precondition), so the flat position of its row's feature 0 in a staged pair of
graphs, `w · 128 + c` with `c` the offset `0` or `16384` of the graph inside the pair, and of its feature 1, one more,
are computed without overflow and lie below `32768`. -/

theorem flat_toNat (w c : BitVec 32) (hw : w.toNat ≤ 127) (hc : c.toNat ≤ 16384) :
    (IntOp.addi (IntOp.muli w 128#32) c).toNat = w.toNat * 128 + c.toNat := by
  unfold IntOp.addi IntOp.muli
  rw [BitVec.toNat_add, BitVec.toNat_mul]
  have h1 : (128#32 : BitVec 32).toNat = 128 := rfl
  rw [h1, Nat.mod_eq_of_lt (a := w.toNat * 128) (by omega), Nat.mod_eq_of_lt (by omega)]

theorem flat1_toNat (w c : BitVec 32) (hw : w.toNat ≤ 127) (hc : c.toNat ≤ 16384) :
    (IntOp.addi (IntOp.addi (IntOp.muli w 128#32) c) 1#32).toNat = w.toNat * 128 + c.toNat + 1 := by
  have h := flat_toNat w c hw hc
  unfold IntOp.addi at h ⊢
  rw [BitVec.toNat_add, h]
  have h1 : (1#32 : BitVec 32).toNat = 1 := rfl
  rw [h1, Nat.mod_eq_of_lt (by omega)]

/-- Every word of an index vector is a node number. -/
def Small {s : Shape} (g : s.Idx → BitVec 32) : Prop := ∀ k, (g k).toNat ≤ 127

theorem chk_flat (c : BitVec 32) (hc : c.toNat ≤ 16384) (w : IVec S16 32) (hw : Small w) :
    ∀ a x, ((![addi (muli w (broadcast S16 128#32)) (broadcast S16 c)] : Fin 1 → IVec S16 32) a x).toNat < S32768.size a := by
  intro a x
  obtain rfl : a = 0 := Subsingleton.elim _ _
  show (IntOp.addi (IntOp.muli (w x) 128#32) c).toNat < 32768
  rw [flat_toNat _ _ (hw x) hc]; have := hw x; omega

theorem chk_flat1 (c : BitVec 32) (hc : c.toNat ≤ 16384) (w : IVec S16 32) (hw : Small w) :
    ∀ a x, ((![addi (addi (muli w (broadcast S16 128#32)) (broadcast S16 c)) (broadcast S16 1#32)] : Fin 1 → IVec S16 32) a x).toNat < S32768.size a := by
  intro a x
  obtain rfl : a = 0 := Subsingleton.elim _ _
  show (IntOp.addi (IntOp.addi (IntOp.muli (w x) 128#32) c) 1#32).toNat < 32768
  rw [flat1_toNat _ _ (hw x) hc]; have := hw x; omega

theorem small_shapeCast {s t : Shape} (g : s.Idx → BitVec 32) (h : s.ShapeCasts t) (hg : Small g) : Small (shapeCast t g h) :=
  fun k => hg _

theorem chk_a0 (w : IVec S16 32) (hw : Small w) :
    ∀ a x, ((![addi (muli w (broadcast S16 128#32)) (broadcast S16 0#32)] : Fin 1 → IVec S16 32) a x).toNat < S32768.size a := chk_flat 0#32 (by decide) w hw
theorem chk_a1 (w : IVec S16 32) (hw : Small w) :
    ∀ a x, ((![addi (muli w (broadcast S16 128#32)) (broadcast S16 16384#32)] : Fin 1 → IVec S16 32) a x).toNat < S32768.size a := chk_flat 16384#32 (by decide) w hw
theorem chk_b0 (w : IVec S16 32) (hw : Small w) :
    ∀ a x, ((![addi (addi (muli w (broadcast S16 128#32)) (broadcast S16 0#32)) (broadcast S16 1#32)] : Fin 1 → IVec S16 32) a x).toNat < S32768.size a := chk_flat1 0#32 (by decide) w hw
theorem chk_b1 (w : IVec S16 32) (hw : Small w) :
    ∀ a x, ((![addi (addi (muli w (broadcast S16 128#32)) (broadcast S16 16384#32)) (broadcast S16 1#32)] : Fin 1 → IVec S16 32) a x).toNat < S32768.size a := chk_flat1 16384#32 (by decide) w hw

section SmallThrough
variable (d : Dev nD) (L : grid0.Coords) [FloatOps F]

/-- What the tile's copy of its eight index rows carries is words of the index array. -/
theorem small_dma (x2 : Buf (Elt F) ((ixW).view.loc (V d (cV L) (jV L)))) (h : Small (s := S256x32) x2) :
    Small (s := S8x32) (ReadAs.same.apply (View.read (Elt F) (ixB L).view x2)) := fun k => by
  show ((View.read (Elt F) (ixB L).view x2) k).toNat ≤ 127
  rw [View.read_apply]; simp only [cast_eq]; exact h _

/-- The index scratch written whole holds what was written. -/
theorem small_write (f0 : Buf (Elt F) ((s0W).view.loc (V d (cV L) (jV L)))) (p : S8x32.Idx → BitVec 32) (hp : Small p) :
    Small (s := S8x32) (View.write (Elt F) s0W.view f0 p Finset.univ) := by
  have e : View.write (Elt F) s0W.view f0 p Finset.univ = p := View.write_whole_univ _ _ _
  rw [e]; exact hp

/-- A load from the index scratch reads words of it. -/
theorem small_readAt (r : LoadRect S8x32) (g : S8x32.Idx → BitVec 32) (hg : Small g) :
    Small (View.readAt (Elt F) (s0W).view r g) := fun k => hg _

end SmallThrough

open Lean Elab Tactic Meta in
/-- The range fact of the N-th indexed store: an odd N stores feature 0 and an even N feature 1; stores 1-4 of each group of
    eight belong to the first graph of the staged pair (offset 0) and stores 5-8 to the second (offset 16384). Picks the
    lemma of that shape by N and closes the goal with it. -/
elab "chk_pick " a0:term ", " b0:term ", " a1:term ", " b1:term : tactic => withMainContext do
  let g ← getMainGoal
  let tgt ← instantiateMVars (← g.getType)
  let some nm := tgt.getAppFn.constName? | throwError "chk_pick: the goal is not a printed check"
  let s := nm.getString!
  unless s.startsWith "k0_chk" do throwError "chk_pick: the goal is not a printed check"
  let n := (s.drop 6).toNat!
  let gi := ((n - 1) / 4) % 2
  let t := if n % 2 == 1 then (if gi == 0 then a0 else a1) else (if gi == 0 then b0 else b1)
  evalTactic (← `(tactic| exact $t))

/-- The two constants the kernel stores: at feature 0 of a listed node, and at feature 1. -/
abbrev cmK [FloatOps F] : F .f32 := Scalar.ofBits .f32 0x42EE0000#32
abbrev czK [FloatOps F] : F .f32 := Scalar.ofBits .f32 0x00000000#32

/-- The vector subcore at grid coordinates `L` of device `d`, and one of its DMA semaphores as a cell. -/
abbrev thr (d : Dev nD) (L : grid0.Coords) : Thread nD τ := V d (cV L) (jV L)
abbrev cell (d : Dev nD) (L : grid0.Coords) (sm : DmaSems sig S_) : GSem nD τ sig := (thr d L, .dma sm.sem)

end Cert.Proof.KB

end
-- ==== Proof.KBRes.lean ====
/-
  What the one SparseCore call of `Kernel` takes and brings back.
  The TensorCore reshapes the feature array to the flat input, starts the kernel on the 32 tiles and reshapes the flat
  result back. The call takes the flat input, the index array and the flat result whole; tile (c, s) is handed its four
  chunks of the flat input, its eight rows of the index array and its four chunks of the flat result (`GO`), and hands
  back the first two unchanged and each chunk of the result at some contents that agree, element by element, with the
  specification over the flat array (`TD`). The pieces are disjoint and cover the arrays (Chunks.lean), so the call is
  whole arrays in, whole arrays out.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.Spec
import proofs.«212448_g4037269258948_cont_8to1_b_1693_16_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Spec.Gflat Chunks.cRect Chunks.bRect)

variable (m : (ℓ : Loc nD τ sig) → Buf (Elt F) ℓ)

/-- The TensorCore's names for the arrays of @main: the three arguments, the flat input, the flat result, the result. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

theorem nCore_zero : (K (F := F)).nCore 0 = 2 := rfl
theorem nSub_zero : (K (F := F)).nSub 0 = 16 := rfl

/-- The flat input: the feature array's elements in row-major order (what the first reshape leaves). -/
abbrev Yf (d : Dev nD) : Buf (Elt F) (v0Loc d) := shapeCast S4194304 (m (a0Loc d)) shapeCasts_S256x128x128_S4194304

/-- A chunk of the flat arrays and a block of rows of the index array, as sets of indices. -/
abbrev cS (c : Fin 2) (s : Fin 16) (r : Fin 4) : Finset S4194304.Idx := (Chunks.cRect c s r).set
abbrev bS (c : Fin 2) (s : Fin 16) : Finset S256x32.Idx := (Chunks.bRect c s).set

variable [FloatOps F]

/-- The flat result agrees with the specification on chunk (c, s, r). -/
def OKc (d : Dev nD) (f : Buf (Elt F) (v1Loc d)) (c : Fin 2) (s : Fin 16) (r : Fin 4) : Prop :=
  ∀ p ∈ cS c s r, f p = Spec.Gflat (cmK (F := F)) (czK (F := F)) (Yf m d) (m (a2Loc d)) p

/-- What tile (c, s) is handed. -/
def GO (d : Dev nD) (c : Fin 2) (s : Fin 16) : sProp 𝕄 :=
  iprop((v0Loc d ↦[cS c s 0]{fullShare} Yf m d) ∗ (v0Loc d ↦[cS c s 1]{fullShare} Yf m d)
    ∗ (v0Loc d ↦[cS c s 2]{fullShare} Yf m d) ∗ (v0Loc d ↦[cS c s 3]{fullShare} Yf m d)
    ∗ (a2Loc d ↦[bS c s]{fullShare} m (a2Loc d))
    ∗ (v1Loc d ↦[cS c s 0]{fullShare} m (v1Loc d)) ∗ (v1Loc d ↦[cS c s 1]{fullShare} m (v1Loc d))
    ∗ (v1Loc d ↦[cS c s 2]{fullShare} m (v1Loc d)) ∗ (v1Loc d ↦[cS c s 3]{fullShare} m (v1Loc d)))

/-- What tile (c, s) hands back. -/
def TD (d : Dev nD) (c : Fin 2) (s : Fin 16) : sProp 𝕄 :=
  iprop((v0Loc d ↦[cS c s 0]{fullShare} Yf m d) ∗ (v0Loc d ↦[cS c s 1]{fullShare} Yf m d)
    ∗ (v0Loc d ↦[cS c s 2]{fullShare} Yf m d) ∗ (v0Loc d ↦[cS c s 3]{fullShare} Yf m d)
    ∗ (a2Loc d ↦[bS c s]{fullShare} m (a2Loc d))
    ∗ (∃ f, (v1Loc d ↦[cS c s 0]{fullShare} f) ∗ ⌜OKc m d f c s 0⌝) ∗ (∃ f, (v1Loc d ↦[cS c s 1]{fullShare} f) ∗ ⌜OKc m d f c s 1⌝)
    ∗ (∃ f, (v1Loc d ↦[cS c s 2]{fullShare} f) ∗ ⌜OKc m d f c s 2⌝) ∗ (∃ f, (v1Loc d ↦[cS c s 3]{fullShare} f) ∗ ⌜OKc m d f c s 3⌝))

instance GO_storable (d : Dev nD) (c : Fin 2) (s : Fin 16) : BI.Storable (upEmb : UEmb _ 𝕄) (GO m d c s) := by
  unfold GO; infer_instance
instance TD_storable (d : Dev nD) (c : Fin 2) (s : Fin 16) : BI.Storable (upEmb : UEmb _ 𝕄) (TD m d c s) := by
  unfold TD; infer_instance

/-- The call's payloads: a SparseCore takes and brings back its sixteen tiles' pieces; the kernel has no protocol of its
    own between threads. -/
def P : (K (F := F)).Pay (nD := nD) (Val := Elt F) (Name := ℕ) (U := UU) where
  st := fun q d c => match q with | 0 => bigSep Finset.univ fun s : Fin 16 => GO m d (Fin.cast nCore_zero c) s
  dn := fun q d c => match q with | 0 => bigSep Finset.univ fun s : Fin 16 => TD m d (Fin.cast nCore_zero c) s
  go := fun q d c i => match q with | 0 => GO m d (Fin.cast nCore_zero c) (Fin.cast nSub_zero i)
  td := fun q d c i => match q with | 0 => TD m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => GO m d (Fin.cast nCore_zero c) s))
  dn q d c := match q with | 0 => (inferInstance : BI.Storable (upEmb : UEmb _ 𝕄) (bigSep Finset.univ fun s : Fin 16 => TD m d (Fin.cast nCore_zero c) s))
  go q d c i := match q with | 0 => (inferInstance : BI.Storable (upEmb : UEmb _ 𝕄) (GO m d (Fin.cast nCore_zero c) (Fin.cast nSub_zero i)))
  td q d c i := match q with | 0 => (inferInstance : BI.Storable (upEmb : UEmb _ 𝕄) (TD m d (Fin.cast nCore_zero c) (Fin.cast nSub_zero i)))

end Cert.Proof.KB

end
-- ==== Proof.KBBody.lean ====
/-
  One tile's task of `Kernel`, run from its resources to its results.
  The task's own data are four chunks of the flat input, its eight rows of the index array and the same four chunks of the
  flat result. In order: three chunks start towards the three staging buffers; the index rows are fetched and waited for;
  then for each chunk: its fill is waited for, the eight indexed stores are made in the staging buffer (their positions
  inside it because every listed node number is at most 127), and the buffer starts towards the chunk's place in the
  result; the first buffer is refilled with the fourth chunk only after its own copy-out has been waited for; the last
  three copy-outs are waited for at the end. So no store touches a buffer while a copy from or into it is pending, every
  counter ends at zero, and each chunk of the result ends at the staged chunk after its eight stores (`Stores.W8`).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.Stores
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Stores.W8)

section Body
variable (d : Dev nD) (L : grid0.Coords) [FloatOps F]

/-- What a copy out of a chunk of the flat input carries: the input's elements under the chunk. -/
abbrev chunkPay (off : Fin 1 → Nat) (hin : ∀ a, off a + S32768.size a ≤ S4194304.size a) (y : Buf (Elt F) ((nfW).view.loc (thr d L))) : Vec F S32768 .f32 :=
  ReadAs.same.apply (View.read (Elt F) (nfW.slice (Rect.unit (s := S4194304) off S32768.size hin) (fun _ => rfl)).view y)

/-- The tile's index rows as staged, and a half (16 lanes) of one of them as the task loads it. -/
abbrev ixPay (x2 : Buf (Elt F) ((ixW).view.loc (thr d L))) : S8x32.Idx → BitVec 32 :=
  ReadAs.same.apply (View.read (Elt F) (ixB L).view x2)
abbrev half (x2 : Buf (Elt F) ((ixW).view.loc (thr d L))) (f0 : Buf (Elt F) ((s0W).view.loc (thr d L))) (off : Fin 2 → Nat) (hin : ∀ a, off a + S1x16.size a ≤ S8x32.size a) : IVec S16 32 :=
  shapeCast S16 (View.readAt (Elt F) s0W.view (Rect.unit (s := S8x32) off S1x16.size hin).toLoadRect
    (View.write (Elt F) s0W.view f0 (ixPay d L x2) Finset.univ)) shapeCasts_S1x16_S16

theorem small_ixPay (x2 : Buf (Elt F) ((ixW).view.loc (thr d L))) (h : Small (s := S256x32) x2) : Small (s := S8x32) (ixPay d L x2) :=
  small_dma d L x2 h
theorem small_half (x2 : Buf (Elt F) ((ixW).view.loc (thr d L))) (f0 : Buf (Elt F) ((s0W).view.loc (thr d L))) (h : Small (s := S256x32) x2) (off : Fin 2 → Nat) (hin : ∀ a, off a + S1x16.size a ≤ S8x32.size a) :
    Stores.Small (half d L x2 f0 off hin) :=
  small_shapeCast _ _ (small_readAt (F := F) _ _ (small_write (F := F) d L f0 _ (small_ixPay d L x2 h)))

/-- Chunk `r` of the tile's result: the staged chunk `P` after the stores for rows `2 r` and `2 r + 1` of the tile's eight. -/
abbrev chunkOut (x2 : Buf (Elt F) ((ixW).view.loc (thr d L))) (f0 : Buf (Elt F) ((s0W).view.loc (thr d L))) (h : Small (s := S256x32) x2) (P : Vec F S32768 .f32)
    (o00 o01 o10 o11 : Fin 2 → Nat) (i00 : ∀ a, o00 a + S1x16.size a ≤ S8x32.size a) (i01 : ∀ a, o01 a + S1x16.size a ≤ S8x32.size a)
    (i10 : ∀ a, o10 a + S1x16.size a ≤ S8x32.size a) (i11 : ∀ a, o11 a + S1x16.size a ≤ S8x32.size a) : Vec F S32768 .f32 :=
  Stores.W8 P cmK czK (half d L x2 f0 o00 i00) (half d L x2 f0 o01 i01) (half d L x2 f0 o10 i10) (half d L x2 f0 o11 i11)
    (small_half d L x2 f0 h _ _) (small_half d L x2 f0 h _ _) (small_half d L x2 f0 h _ _) (small_half d L x2 f0 h _ _)

abbrev out0V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 0#32) (k0_off1_inb L 0) y) ![0, 0] ![0, 16] ![1, 0] ![1, 16] inb_S8x32_S1x16_0_0 inb_S8x32_S1x16_0_16 inb_S8x32_S1x16_1_0 inb_S8x32_S1x16_1_16
abbrev out1V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 32768#32) (k0_off1_inb L 1) y) ![2, 0] ![2, 16] ![3, 0] ![3, 16] inb_S8x32_S1x16_2_0 inb_S8x32_S1x16_2_16 inb_S8x32_S1x16_3_0 inb_S8x32_S1x16_3_16
abbrev out2V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off1 L 65536#32) (k0_off1_inb L 2) y) ![4, 0] ![4, 16] ![5, 0] ![5, 16] inb_S8x32_S1x16_4_0 inb_S8x32_S1x16_4_16 inb_S8x32_S1x16_5_0 inb_S8x32_S1x16_5_16
abbrev out3V (y : Buf (Elt F) ((nfW).view.loc (thr d L))) (x2) (f0 : Buf (Elt F) ((s0W).view.loc (thr d L))) (h : Small (s := S256x32) x2) : Vec F S32768 .f32 :=
  chunkOut d L x2 f0 h (chunkPay d L (k0_off5 L 98304#32) (k0_off5_inb L 2) y) ![6, 0] ![6, 16] ![7, 0] ![7, 16] inb_S8x32_S1x16_6_0 inb_S8x32_S1x16_6_16 inb_S8x32_S1x16_7_0 inb_S8x32_S1x16_7_16

/-- A chunk of the result written whole holds, under the chunk, what was written. -/
theorem writes_whole_emb (off : Fin 1 → Nat) (hin : ∀ a, off a + S32768.size a ≤ S4194304.size a) (o : Buf (Elt F) ((outW).view.loc (thr d L)))
    (w : S32768.Idx → Elt F .f32) (q : S32768.Idx) :
    (outW.slice (Rect.unit (s := S4194304) off S32768.size hin) (fun _ => rfl)).view.writes (Elt F) o [⟨Rect.whole S32768, w⟩]
      ((outW.slice (Rect.unit (s := S4194304) off S32768.size hin) (fun _ => rfl)).view.emb q) = w q := by
  have h := View.read_writes_cons_emb (v := (outW.slice (Rect.unit (s := S4194304) off S32768.size hin) (fun _ => rfl)).view) (f := o) (Rect.whole S32768) w [] q
  rw [show (Rect.whole S32768).emb q = q from Rect.emb_whole_apply S32768 q, View.read_apply] at h
  simpa only [cast_eq] using h

/-- A staging buffer read after a list of writes whose last one is the whole buffer holds that write's value. -/
theorem read_head (v : View sig .scVector .vmem S32768 .f32) (B : v.ty.Contents (Elt F)) (w : S32768.Idx → Elt F .f32)
    (Lst : List (View.Piece (Elt F) S32768 .f32)) (q : S32768.Idx) :
    (ReadAs.same.apply (View.read (Elt F) v (v.writes (Elt F) B (⟨Rect.whole S32768, w⟩ :: Lst))) : S32768.Idx → Elt F .f32) q = w q := by
  have h := View.read_writes_cons_emb (v := v) (f := B) (Rect.whole S32768) w Lst q
  rwa [show (Rect.whole S32768).emb q = q from Rect.emb_whole_apply S32768 q] at h

/-- A whole load after a list of writes whose last one is the whole buffer reads that write's value. -/
theorem cov_head (v : View sig .scVector .vmem S32768 .f32) (w : S32768.Idx → Elt F .f32) (Lst : List (View.Piece (Elt F) S32768 .f32)) :
    v.readCov (⟨Rect.whole S32768, w⟩ :: Lst) (LoadRect.whole S32768) = w :=
  View.readCov_cons_toLoadRect v (Rect.whole S32768) w Lst

/-- A whole load of a staging buffer just filled whole reads the fill. -/
theorem base_read1 (f : Buf (Elt F) ((b1W).view.loc (thr d L))) (p : S32768.Idx → Elt F .f32) :
    View.readAt (Elt F) b1W.view (LoadRect.whole S32768) (View.write (Elt F) b1W.view f p Finset.univ) = p := by
  have e : View.write (Elt F) b1W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))
theorem base_read2 (f : Buf (Elt F) ((b2W).view.loc (thr d L))) (p : S32768.Idx → Elt F .f32) :
    View.readAt (Elt F) b2W.view (LoadRect.whole S32768) (View.write (Elt F) b2W.view f p Finset.univ) = p := by
  have e : View.write (Elt F) b2W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))
theorem base_read3 (f : Buf (Elt F) ((b3W).view.loc (thr d L))) (p : S32768.Idx → Elt F .f32) :
    View.readAt (Elt F) b3W.view (LoadRect.whole S32768) (View.write (Elt F) b3W.view f p Finset.univ) = p := by
  have e : View.write (Elt F) b3W.view f p Finset.univ = p := View.write_whole_univ _ _ _
  rw [e]; funext x; rw [View.readAt_apply]
  show p ((LoadRect.whole S32768).idx x) = p x
  exact congrArg p (funext fun a => Fin.ext (by rw [LoadRect.idx_apply]; show 0 + 1 * (x a).val = (x a).val; omega))

set_option maxHeartbeats 16000000 in
theorem body_core (O : CellTallies nD τ sig (HIx 1)) (W : Waits sig (HIx 1))
    (y : Buf (Elt F) ((nfW).view.loc (thr d L))) (x2 : Buf (Elt F) ((ixW).view.loc (thr d L))) (o : Buf (Elt F) ((outW).view.loc (thr d L)))
    (f0 : Buf (Elt F) ((s0W).view.loc (thr d L))) (f1 : Buf (Elt F) ((b1W).view.loc (thr d L))) (f2 : Buf (Elt F) ((b2W).view.loc (thr d L))) (f3 : Buf (Elt F) ((b3W).view.loc (thr d L)))
    (hx2 : Small (s := S256x32) x2) :
    (iprop(Transfers.MayWaits (thr d L) (none : HIx 1) O
        ∗ ((nf0 L).view.loc (thr d L) ↦[(nf0 L).view.set]{fullShare} y) ∗ ((nf1 L).view.loc (thr d L) ↦[(nf1 L).view.set]{fullShare} y)
        ∗ ((nf2 L).view.loc (thr d L) ↦[(nf2 L).view.set]{fullShare} y) ∗ ((nf3 L).view.loc (thr d L) ↦[(nf3 L).view.set]{fullShare} y)
        ∗ ((ixB L).view.loc (thr d L) ↦[(ixB L).view.set]{fullShare} x2)
        ∗ ((out0 L).view.loc (thr d L) ↦[(out0 L).view.set]{fullShare} o) ∗ ((out1 L).view.loc (thr d L) ↦[(out1 L).view.set]{fullShare} o)
        ∗ ((out2 L).view.loc (thr d L) ↦[(out2 L).view.set]{fullShare} o) ∗ ((out3 L).view.loc (thr d L) ↦[(out3 L).view.set]{fullShare} o)
        ∗ ((s0W).view.loc (thr d L) ↦{fullShare} f0) ∗ ((b1W).view.loc (thr d L) ↦{fullShare} f1)
        ∗ ((b2W).view.loc (thr d L) ↦{fullShare} f2) ∗ ((b3W).view.loc (thr d L) ↦{fullShare} f3)
        ∗ semVal (cell d L cc0_scratch4) 0 ∗ semVal (cell d L cc0_scratch5) 0 ∗ semVal (cell d L cc0_scratch6) 0
        ∗ semVal (cell d L cc0_scratch7) 0 ∗ semVal (cell d L cc0_scratch8) 0 ∗ semVal (cell d L cc0_scratch9) 0
        ∗ semVal (cell d L cc0_scoped0) 0
        ∗ owes (thr d L) O W) : sProp 𝕄)
      ⊢ wp frame (wpE (defs₀ (F := F)) 𝒱₀ (thr d L) none) Set.univ
          (cc0__mask_kernel L nfW (Memref.isWhole_whole _) ixW (Memref.isWhole_whole _) outW (Memref.isWhole_whole _)
            s0W (Memref.isWhole_whole _) b1W (Memref.isWhole_whole _) b2W (Memref.isWhole_whole _) b3W (Memref.isWhole_whole _)
            cc0_scratch4 cc0_scratch5 cc0_scratch6 cc0_scratch7 cc0_scratch8 cc0_scratch9 cc0_scoped0)
          fun _ => iprop(
            ((nf0 L).view.loc (thr d L) ↦[(nf0 L).view.set]{fullShare} y) ∗ ((nf1 L).view.loc (thr d L) ↦[(nf1 L).view.set]{fullShare} y)
            ∗ ((nf2 L).view.loc (thr d L) ↦[(nf2 L).view.set]{fullShare} y) ∗ ((nf3 L).view.loc (thr d L) ↦[(nf3 L).view.set]{fullShare} y)
            ∗ ((ixB L).view.loc (thr d L) ↦[(ixB L).view.set]{fullShare} x2)
            ∗ (∃ f, ((out0 L).view.loc (thr d L) ↦[(out0 L).view.set]{fullShare} f) ∗ ⌜∀ q, f ((out0 L).view.emb q) = out0V d L y x2 f0 hx2 q⌝)
            ∗ (∃ f, ((out1 L).view.loc (thr d L) ↦[(out1 L).view.set]{fullShare} f) ∗ ⌜∀ q, f ((out1 L).view.emb q) = out1V d L y x2 f0 hx2 q⌝)
            ∗ (∃ f, ((out2 L).view.loc (thr d L) ↦[(out2 L).view.set]{fullShare} f) ∗ ⌜∀ q, f ((out2 L).view.emb q) = out2V d L y x2 f0 hx2 q⌝)
            ∗ (∃ f, ((out3 L).view.loc (thr d L) ↦[(out3 L).view.set]{fullShare} f) ∗ ⌜∀ q, f ((out3 L).view.emb q) = out3V d L y x2 f0 hx2 q⌝)
            ∗ (∃ f, (s0W).view.loc (thr d L) ↦{fullShare} f) ∗ (∃ f, (b1W).view.loc (thr d L) ↦{fullShare} f)
            ∗ (∃ f, (b2W).view.loc (thr d L) ↦{fullShare} f) ∗ (∃ f, (b3W).view.loc (thr d L) ↦{fullShare} f)
            ∗ semVal (cell d L cc0_scratch4) 0 ∗ semVal (cell d L cc0_scratch5) 0 ∗ semVal (cell d L cc0_scratch6) 0
            ∗ semVal (cell d L cc0_scratch7) 0 ∗ semVal (cell d L cc0_scratch8) 0 ∗ semVal (cell d L cc0_scratch9) 0
            ∗ semVal (cell d L cc0_scoped0) 0
            ∗ ∃ W', ⌜∀ p ∈ W', p ∈ W ∨ p.2 = none⌝ ∗ owes (thr d L) O W') := by
  iintro ⟨#Hmw, Hn0, Hn1, Hn2, Hn3, Hix, Ho0, Ho1, Ho2, Ho3, Hs0, Hb1, Hb2, Hb3, H4, H5, H6, H7, H8, H9, Hsc, HO⟩
  sl_exec_parts (disch := chk_pick (chk_a0 _ (small_shapeCast _ _ (small_readAt (F := F) _ _ (small_write (F := F) d L _ _ (small_dma (F := F) d L _ hx2))))), (chk_b0 _ (small_shapeCast _ _ (small_readAt (F := F) _ _ (small_write (F := F) d L _ _ (small_dma (F := F) d L _ hx2))))), (chk_a1 _ (small_shapeCast _ _ (small_readAt (F := F) _ _ (small_write (F := F) d L _ _ (small_dma (F := F) d L _ hx2))))), (chk_b1 _ (small_shapeCast _ _ (small_readAt (F := F) _ _ (small_write (F := F) d L _ _ (small_dma (F := F) d L _ hx2))))))
  repeat (unfold SparseCore.vectorStoreIdx; sl_exec_parts (disch := chk_pick (chk_a0 _ (small_shapeCast _ _ (small_readAt (F := F) _ _ (small_write (F := F) d L _ _ (small_dma (F := F) d L _ hx2))))), (chk_b0 _ (small_shapeCast _ _ (small_readAt (F := F) _ _ (small_write (F := F) d L _ _ (small_dma (F := F) d L _ hx2))))), (chk_a1 _ (small_shapeCast _ _ (small_readAt (F := F) _ _ (small_write (F := F) d L _ _ (small_dma (F := F) d L _ hx2))))), (chk_b1 _ (small_shapeCast _ _ (small_readAt (F := F) _ _ (small_write (F := F) d L _ _ (small_dma (F := F) d L _ hx2)))))))
  sl_step
  isplitl [Hn0]; · iexact Hn0
  isplitl [Hn1]; · iexact Hn1
  isplitl [Hn2]; · iexact Hn2
  isplitl [Hn3]; · iexact Hn3
  isplitl [Hix]; · iexact Hix
  isplitl [Ho0]
  · iexists _; isplitl [Ho0]; · iexact Ho0
    ipureintro; intro q; refine (writes_whole_emb (F := F) d L _ _ _ _ _).trans ?_
    unfold body_core.sl.dma14 body_core.sl.Hb1_8
    rw [read_head]
    unfold body_core.sl.f_6 body_core.sl.Hb1_7; rw [cov_head]
    unfold body_core.sl.f_5 body_core.sl.Hb1_6; rw [cov_head]
    unfold body_core.sl.f_4 body_core.sl.Hb1_5; rw [cov_head]
    unfold body_core.sl.f_3 body_core.sl.Hb1_4; rw [cov_head]
    unfold body_core.sl.f_2 body_core.sl.Hb1_3; rw [cov_head]
    unfold body_core.sl.f_1 body_core.sl.Hb1_2; rw [cov_head]
    unfold body_core.sl.f body_core.sl.Hb1_1; rw [cov_head]
    rw [base_read1 d L]
    rfl
  isplitl [Ho1]
  · iexists _; isplitl [Ho1]; · iexact Ho1
    ipureintro; intro q; refine (writes_whole_emb (F := F) d L _ _ _ _ _).trans ?_
    unfold body_core.sl.dma4 body_core.sl.Hb2_8
    rw [read_head]
    unfold body_core.sl.f_13 body_core.sl.Hb2_7; rw [cov_head]
    unfold body_core.sl.f_12 body_core.sl.Hb2_6; rw [cov_head]
    unfold body_core.sl.f_11 body_core.sl.Hb2_5; rw [cov_head]
    unfold body_core.sl.f_10 body_core.sl.Hb2_4; rw [cov_head]
    unfold body_core.sl.f_9 body_core.sl.Hb2_3; rw [cov_head]
    unfold body_core.sl.f_8 body_core.sl.Hb2_2; rw [cov_head]
    unfold body_core.sl.f_7 body_core.sl.Hb2_1; rw [cov_head]
    rw [base_read2 d L]
    rfl
  isplitl [Ho2]
  · iexists _; isplitl [Ho2]; · iexact Ho2
    ipureintro; intro q; refine (writes_whole_emb (F := F) d L _ _ _ _ _).trans ?_
    unfold body_core.sl.dma9 body_core.sl.Hb3_8
    rw [read_head]
    unfold body_core.sl.f_20 body_core.sl.Hb3_7; rw [cov_head]
    unfold body_core.sl.f_19 body_core.sl.Hb3_6; rw [cov_head]
    unfold body_core.sl.f_18 body_core.sl.Hb3_5; rw [cov_head]
    unfold body_core.sl.f_17 body_core.sl.Hb3_4; rw [cov_head]
    unfold body_core.sl.f_16 body_core.sl.Hb3_3; rw [cov_head]
    unfold body_core.sl.f_15 body_core.sl.Hb3_2; rw [cov_head]
    unfold body_core.sl.f_14 body_core.sl.Hb3_1; rw [cov_head]
    rw [base_read3 d L]
    rfl
  isplitl [Ho3]
  · iexists _; isplitl [Ho3]; · iexact Ho3
    ipureintro; intro q; refine (writes_whole_emb (F := F) d L _ _ _ _ _).trans ?_
    unfold body_core.sl.dma19 body_core.sl.Hb1_8_1
    rw [read_head]
    unfold body_core.sl.f_27 body_core.sl.Hb1_7_1; rw [cov_head]
    unfold body_core.sl.f_26 body_core.sl.Hb1_6_1; rw [cov_head]
    unfold body_core.sl.f_25 body_core.sl.Hb1_5_1; rw [cov_head]
    unfold body_core.sl.f_24 body_core.sl.Hb1_4_1; rw [cov_head]
    unfold body_core.sl.f_23 body_core.sl.Hb1_3_1; rw [cov_head]
    unfold body_core.sl.f_22 body_core.sl.Hb1_2_1; rw [cov_head]
    unfold body_core.sl.f_21 body_core.sl.Hb1_1_1; rw [cov_head]
    rw [base_read1 d L]
    rfl
  isplitl [Hs0]; · iexists _; iexact Hs0
  isplitl [Hb1]; · iexists _; iexact Hb1
  isplitl [Hb2]; · iexists _; iexact Hb2
  isplitl [Hb3]; · iexists _; iexact Hb3
  isplitl [H4]; · iexact H4
  isplitl [H5]; · iexact H5
  isplitl [H6]; · iexact H6
  isplitl [H7]; · iexact H7
  isplitl [H8]; · iexact H8
  isplitl [H9]; · iexact H9
  isplitl [Hsc]; · iexact Hsc
  iexists _; isplitr
  rotate_left
  · iexact HO
  · ipureintro; intro p hp
    simp only [Finset.mem_insert] at hp
    rcases hp with rfl | rfl | rfl | rfl | rfl | rfl | rfl | rfl | rfl | hp
    all_goals first | exact .inr rfl | exact .inl hp

end Body

end Cert.Proof.KB

end
-- ==== Proof.KBOwn.lean ====
/-
  A vector subcore's own resources at the start of its task, split into the ones its body names and the rest.
  Its own semaphores, each at zero, are a separating conjunction over the finite set of its scoped cells; its own
  buffers, each whole at some contents, one over the set of its buffers. A conjunction over a finite set is the
  conjunct at a member beside the conjunction over the set without it; taking out, one after another, the seven DMA
  semaphore cells and then the four scratch buffers (each a member of what is left, being different from the ones
  already taken out) gives the two statements.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-- Two DMA semaphores of one subcore with different places in the pool are different cells. -/
theorem cell_ne {sm sm' : DmaSems sig S_} (h : (SemLoc.dma sm.sem : SemLoc sig) ≠ SemLoc.dma sm'.sem) :
    cell d L sm ≠ cell d L sm' :=
  fun e => h (congrArg Prod.snd e)

/-- A DMA semaphore scoped to the vector subcores is one of the subcore's own cells. -/
theorem cell_mem (sm : DmaSems sig S_) (h : (SemLoc.dma sm.sem : SemLoc sig).isScoped .scVector = true) :
    cell d L sm ∈ ownCells (thr d L) :=
  (mem_ownCells (g := cell d L sm)).mpr ⟨rfl, h⟩

/-- Different scratch operands of the subcore are different buffers of it. -/
theorem buf_ne {b b' : Ref sig .scVector} (h : b ≠ b') :
    (Proc.scVector (cV L) (jV L)).devRef b ≠ (Proc.scVector (cV L) (jV L)).devRef b' :=
  fun e => h (Proc.devRef_injective _ e)

/-- The subcore's own semaphores other than the seven DMA semaphores its body names, each at zero. -/
def restSems : sProp 𝕄 :=
  bigSep ((((((((ownCells (thr d L)).erase (cell d L cc0_scratch4)).erase (cell d L cc0_scratch5)).erase (cell d L cc0_scratch6)).erase (cell d L cc0_scratch7)).erase (cell d L cc0_scratch8)).erase (cell d L cc0_scratch9)).erase (cell d L cc0_scoped0))
    fun g => semVal g 0

/-- The subcore's own semaphores at zero: the seven its body names, and the rest. -/
theorem ownSems0_V : (ownSems0 (thr d L) : sProp 𝕄)
    = iprop(semVal (cell d L cc0_scratch4) 0 ∗ semVal (cell d L cc0_scratch5) 0 ∗ semVal (cell d L cc0_scratch6) 0 ∗ semVal (cell d L cc0_scratch7) 0
        ∗ semVal (cell d L cc0_scratch8) 0 ∗ semVal (cell d L cc0_scratch9) 0 ∗ semVal (cell d L cc0_scoped0) 0 ∗ restSems d L) := by
  unfold SparseCore.Cfg.ownSems0 restSems
  rw [SparseCore.bigSep_erase' (cell_mem d L cc0_scratch4 (by decide)),
    SparseCore.bigSep_erase' (Finset.mem_erase.mpr ⟨cell_ne d L (by decide), cell_mem d L cc0_scratch5 (by decide)⟩),
    SparseCore.bigSep_erase' (Finset.mem_erase.mpr ⟨cell_ne d L (by decide), Finset.mem_erase.mpr ⟨cell_ne d L (by decide), cell_mem d L cc0_scratch6 (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scratch7 (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch8 (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scratch9 (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped0 (by decide)⟩⟩⟩⟩⟩⟩)]

/-- The subcore's own buffers other than the four scratch buffers its body names, each whole at some contents. -/
def restBufs : sProp 𝕄 :=
  bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
    fun b => iprop(∃ f, ((d, b) : Loc nD τ sig) ↦{fullShare} f)

/-- The subcore's own buffers: the four scratch buffers, each whole at some contents, and the rest. -/
theorem ownBufs_V : (ownBufs (thr d L) : sProp 𝕄)
    = iprop((∃ f, (s0W).view.loc (thr d L) ↦{fullShare} f) ∗ (∃ f, (b1W).view.loc (thr d L) ↦{fullShare} f)
        ∗ (∃ f, (b2W).view.loc (thr d L) ↦{fullShare} f) ∗ (∃ f, (b3W).view.loc (thr d L) ↦{fullShare} f) ∗ restBufs d L) := by
  unfold SparseCore.Cfg.ownBufs restBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨buf_ne L (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨buf_ne L (show (cc0_scratch2 : Ref sig .scVector) ≠ cc0_scratch1 by decide),
      Finset.mem_erase.mpr ⟨buf_ne L (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨buf_ne L (show (cc0_scratch3 : Ref sig .scVector) ≠ cc0_scratch2 by decide),
      Finset.mem_erase.mpr ⟨buf_ne L (show (cc0_scratch3 : Ref sig .scVector) ≠ cc0_scratch1 by decide),
      Finset.mem_erase.mpr ⟨buf_ne L (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

end Cert.Proof.KB

end
-- ==== Proof.KBValue.lean ====
/-
  The pure facts about one tile that its task's proof and the launch use.
  The slices of the flat arrays and of the index array that the body takes, spelled with the printed offset functions,
  are the canonical chunks and block of the cut (the offsets are the same numbers). And each chunk of the result, which
  the task leaves at the staged chunk after its eight stores, agrees with the specification over the flat array: the
  chunk starts at element 16384 g0 for g0 the number of its first graph, what was staged is the flat input's elements
  there, and the four half-lists are rows g0 and g0 + 1 of the index array, columns 0 to 15 and 16 to 31.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.KBBody
import proofs.«212448_g4037269258948_cont_8to1_b_1693_16_alg».proof.Proof.KBRes
import proofs.«212448_g4037269258948_cont_8to1_b_1693_16_alg».proof.Proof.StoresValue
import proofs.«212448_g4037269258948_cont_8to1_b_1693_16_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

theorem bound_zero : grid0.bound 0 = 2 := rfl
theorem bound_one : grid0.bound 1 = 16 := rfl
/-- The tile's SparseCore and subcore numbers. -/
abbrev cF (L : grid0.Coords) : Fin 2 := Fin.cast bound_zero (L 0)
abbrev sF (L : grid0.Coords) : Fin 16 := Fin.cast bound_one (L 1)

/-! ## The printed offsets are the cut's -/

/-- The fifth offset function at its two constants, in closed form (the 32 grid points enumerated). -/
theorem off5_98304 : ∀ i : grid0.Coords, k0_off5 i 98304#32 = ![262144 * (i 1).val + 131072 * (i 0).val + 98304] := by decide +kernel
theorem off5_65536 : ∀ i : grid0.Coords, k0_off5 i 65536#32 = ![262144 * (i 1).val + 131072 * (i 0).val + 65536] := by decide +kernel

/-- Two rank-one offset vectors with the same coordinate are equal. -/
theorem off1_ext {o : Fin 1 → Nat} {n : Nat} (h : o 0 = n) : o = ![n] := by
  funext a
  obtain rfl : a = 0 := Subsingleton.elim _ _
  exact h

/-- The start of chunk `r` of the tile at `L`. -/
abbrev cBase (L : grid0.Coords) (r : Fin 4) : Nat := 262144 * (sF L).val + 131072 * (cF L).val + 32768 * r.val

theorem off_nf0 (L : grid0.Coords) : k0_off1 L 0#32 = ![cBase L 0] :=
  (k0_off1_eq L 0).trans (off1_ext (by show 262144 * (L 1).val + 131072 * (L 0).val + 32768 * 0 = 262144 * (L 1).val + 131072 * (L 0).val + 32768 * 0; rfl))
theorem off_nf1 (L : grid0.Coords) : k0_off1 L 32768#32 = ![cBase L 1] :=
  (k0_off1_eq L 1).trans (off1_ext (by show 262144 * (L 1).val + 131072 * (L 0).val + 32768 * 1 = 262144 * (L 1).val + 131072 * (L 0).val + 32768 * 1; rfl))
theorem off_nf2 (L : grid0.Coords) : k0_off1 L 65536#32 = ![cBase L 2] :=
  (k0_off1_eq L 2).trans (off1_ext (by show 262144 * (L 1).val + 131072 * (L 0).val + 32768 * 2 = 262144 * (L 1).val + 131072 * (L 0).val + 32768 * 2; rfl))
theorem off_nf3 (L : grid0.Coords) : k0_off5 L 98304#32 = ![cBase L 3] :=
  (off5_98304 L).trans (off1_ext (by show 262144 * (L 1).val + 131072 * (L 0).val + 98304 = 262144 * (L 1).val + 131072 * (L 0).val + 32768 * 3; omega))
theorem off_out0 (L : grid0.Coords) : k0_off3 L 0#32 = ![cBase L 0] :=
  (k0_off3_eq L 0).trans (off1_ext (by show 262144 * (L 1).val + 131072 * (L 0).val + 32768 * 0 = 262144 * (L 1).val + 131072 * (L 0).val + 32768 * 0; rfl))
theorem off_out1 (L : grid0.Coords) : k0_off4 L 32768#32 = ![cBase L 1] :=
  (k0_off4_eq L 0).trans (off1_ext (by show 262144 * (L 1).val + 131072 * (L 0).val + 32768 * 0 + 32768 = 262144 * (L 1).val + 131072 * (L 0).val + 32768 * 1; omega))
theorem off_out2 (L : grid0.Coords) : k0_off5 L 65536#32 = ![cBase L 2] :=
  (off5_65536 L).trans (off1_ext (by show 262144 * (L 1).val + 131072 * (L 0).val + 65536 = 262144 * (L 1).val + 131072 * (L 0).val + 32768 * 2; omega))
theorem off_out3 (L : grid0.Coords) : k0_off6 L 98304#32 = ![cBase L 3] :=
  (k0_off6_eq L 2).trans (off1_ext (by show 262144 * (L 1).val + 131072 * (L 0).val + 32768 * 2 + 32768 = 262144 * (L 1).val + 131072 * (L 0).val + 32768 * 3; omega))
theorem off_ixB (L : grid0.Coords) : k0_off2 L = ![16 * (sF L).val + 8 * (cF L).val, 0] := k0_off2_eq L

/-! ## The slices as the body spells them are the canonical chunks and block -/

/-- A slice of the flat input by a unit rectangle of 32768 elements from the start of chunk `r` is chunk `r`. -/
theorem set_nf (L : grid0.Coords) (r : Fin 4) (off : Fin 1 → Nat) (hin : ∀ a, off a + S32768.size a ≤ S4194304.size a)
    (e : off = ![cBase L r]) :
    (nfW.slice (Rect.unit (s := S4194304) off S32768.size hin) (fun _ => rfl)).view.set = cS (cF L) (sF L) r := by
  subst e
  show ((View.whole (main_v0_scv : Ref sig .scVector)).slice (Rect.unit (s := S4194304) ![cBase L r] S32768.size hin)).set = _
  rw [View.set_slice_whole]
  rfl

/-- The same for the flat result. -/
theorem set_out (L : grid0.Coords) (r : Fin 4) (off : Fin 1 → Nat) (hin : ∀ a, off a + S32768.size a ≤ S4194304.size a)
    (e : off = ![cBase L r]) :
    (outW.slice (Rect.unit (s := S4194304) off S32768.size hin) (fun _ => rfl)).view.set = cS (cF L) (sF L) r := by
  subst e
  show ((View.whole (main_v1_scv : Ref sig .scVector)).slice (Rect.unit (s := S4194304) ![cBase L r] S32768.size hin)).set = _
  rw [View.set_slice_whole]
  rfl

theorem set_nf0 (L : grid0.Coords) : (nf0 L).view.set = cS (cF L) (sF L) 0 := set_nf L 0 _ _ (off_nf0 L)
theorem set_nf1 (L : grid0.Coords) : (nf1 L).view.set = cS (cF L) (sF L) 1 := set_nf L 1 _ _ (off_nf1 L)
theorem set_nf2 (L : grid0.Coords) : (nf2 L).view.set = cS (cF L) (sF L) 2 := set_nf L 2 _ _ (off_nf2 L)
theorem set_nf3 (L : grid0.Coords) : (nf3 L).view.set = cS (cF L) (sF L) 3 := set_nf L 3 _ _ (off_nf3 L)
theorem set_out0 (L : grid0.Coords) : (out0 L).view.set = cS (cF L) (sF L) 0 := set_out L 0 _ _ (off_out0 L)
theorem set_out1 (L : grid0.Coords) : (out1 L).view.set = cS (cF L) (sF L) 1 := set_out L 1 _ _ (off_out1 L)
theorem set_out2 (L : grid0.Coords) : (out2 L).view.set = cS (cF L) (sF L) 2 := set_out L 2 _ _ (off_out2 L)
theorem set_out3 (L : grid0.Coords) : (out3 L).view.set = cS (cF L) (sF L) 3 := set_out L 3 _ _ (off_out3 L)

theorem set_ixB (L : grid0.Coords) : (ixB L).view.set = bS (cF L) (sF L) := by
  show ((View.whole (main_arg2_scv : Ref sig .scVector)).slice (Rect.unit (s := S256x32) (k0_off2 L) S8x32.size (k0_off2_inb L))).set = _
  rw [View.set_slice_whole]
  have e : ∀ (off : Fin 2 → Nat) (hin : ∀ a, off a + S8x32.size a ≤ S256x32.size a), off = ![16 * (sF L).val + 8 * (cF L).val, 0] →
      (Rect.unit (s := S256x32) off S8x32.size hin).set = bS (cF L) (sF L) := by
    intro off hin e
    subst e
    rfl
  exact e _ _ (off_ixB L)

/-! ## Each chunk of the result agrees with the specification -/

section ChunkOK
variable [FloatOps F] (d : Dev nD) (L : grid0.Coords)

/-- What a copy out of a chunk of the flat input carries, read at a position: the input's element under it. -/
theorem chunkPay_apply (off : Fin 1 → Nat) (hin : ∀ a, off a + S32768.size a ≤ S4194304.size a) (y : Buf (Elt F) ((nfW).view.loc (thr d L)))
    (q : S32768.Idx) :
    chunkPay d L off hin y q = y ((nfW.slice (Rect.unit (s := S4194304) off S32768.size hin) (fun _ => rfl)).view.emb q) := by
  show (View.read (Elt F) (nfW.slice (Rect.unit (s := S4194304) off S32768.size hin) (fun _ => rfl)).view y) q = _
  rw [View.read_apply]
  simp only [cast_eq]

/-- A half of one of the tile's index rows, read at a lane: the index array's word at the row of the tile's block and
    the column the half starts at plus the lane. -/
theorem half_apply (x2 : Buf (Elt F) ((ixW).view.loc (thr d L))) (f0 : Buf (Elt F) ((s0W).view.loc (thr d L)))
    (off : Fin 2 → Nat) (hin : ∀ a, off a + S1x16.size a ≤ S8x32.size a) (x : S16.Idx) (k : S256x32.Idx)
    (hk0 : (k 0).val = 16 * (sF L).val + 8 * (cF L).val + off 0) (hk1 : (k 1).val = off 1 + (x 0).val) :
    half d L x2 f0 off hin x = x2 k := by
  have hx : (x 0).val < 16 := (x 0).isLt
  show shapeCast S16 (View.readAt (Elt F) s0W.view (Rect.unit (s := S8x32) off S1x16.size hin).toLoadRect
    (View.write (Elt F) s0W.view f0 (ixPay d L x2) Finset.univ)) shapeCasts_S1x16_S16 x = x2 k
  have hj : Shape.reshapeEquiv shapeCasts_S1x16_S16 x = ValueIdx.ix2 (⟨0, by omega⟩ : Fin 1) (⟨(x 0).val, hx⟩ : Fin 16) :=
    Shape.reshapeEquiv_eq_of_rowMajor _ (by rw [Shape.rowMajor_val_two, Shape.rowMajor_val_one]; show 0 * 16 + (x 0).val = (x 0).val; omega)
  show (View.readAt (Elt F) s0W.view (Rect.unit (s := S8x32) off S1x16.size hin).toLoadRect
    (View.write (Elt F) s0W.view f0 (ixPay d L x2) Finset.univ)) (Shape.reshapeEquiv shapeCasts_S1x16_S16 x) = x2 k
  rw [hj, View.readAt_apply]
  have e : View.write (Elt F) s0W.view f0 (ixPay d L x2) Finset.univ = ixPay d L x2 := View.write_whole_univ _ _ _
  rw [e]
  show (View.read (Elt F) (ixB L).view x2) ((Rect.unit (s := S8x32) off S1x16.size hin).toLoadRect.idx
    (ValueIdx.ix2 (⟨0, by omega⟩ : Fin 1) (⟨(x 0).val, hx⟩ : Fin 16))) = x2 k
  rw [View.read_apply]
  simp only [cast_eq]
  refine congrArg x2 ?_
  have o0 : k0_off2 L 0 = 16 * (sF L).val + 8 * (cF L).val := congrFun (off_ixB L) 0
  have o1 : k0_off2 L 1 = 0 := congrFun (off_ixB L) 1
  funext a
  match a with
  | ⟨0, _⟩ =>
    apply Fin.ext
    show k0_off2 L 0 + 1 * (off 0 + 1 * 0) = (k 0).val
    rw [o0, hk0]; omega
  | ⟨1, _⟩ =>
    apply Fin.ext
    show k0_off2 L 1 + 1 * (off 1 + 1 * (x 0).val) = (k 1).val
    rw [o1, hk1]; omega

/-- Chunk `r` of the result, left at the staged chunk after the stores for rows `2 r` and `2 r + 1` of the tile's
    eight, agrees with the specification. -/
theorem chunk_ok (m : (ℓ : Loc nD τ sig) → Buf (Elt F) ℓ) (f0 : Buf (Elt F) ((s0W).view.loc (thr d L)))
    (hx2 : Small (s := S256x32) (m (a2Loc d))) (f : Buf (Elt F) (v1Loc d)) (r : Fin 4)
    (offI offO : Fin 1 → Nat) (hinI : ∀ a, offI a + S32768.size a ≤ S4194304.size a) (hinO : ∀ a, offO a + S32768.size a ≤ S4194304.size a)
    (eI : offI = ![cBase L r]) (eO : offO = ![cBase L r])
    (o00 o01 o10 o11 : Fin 2 → Nat) (i00 : ∀ a, o00 a + S1x16.size a ≤ S8x32.size a) (i01 : ∀ a, o01 a + S1x16.size a ≤ S8x32.size a)
    (i10 : ∀ a, o10 a + S1x16.size a ≤ S8x32.size a) (i11 : ∀ a, o11 a + S1x16.size a ≤ S8x32.size a)
    (h00 : o00 = ![2 * r.val, 0]) (h01 : o01 = ![2 * r.val, 16]) (h10 : o10 = ![2 * r.val + 1, 0]) (h11 : o11 = ![2 * r.val + 1, 16])
    (h : ∀ q, f ((outW.slice (Rect.unit (s := S4194304) offO S32768.size hinO) (fun _ => rfl)).view.emb q)
      = chunkOut d L (m (a2Loc d)) f0 hx2 (chunkPay d L offI hinI (Yf m d)) o00 o01 o10 o11 i00 i01 i10 i11 q) :
    OKc m d f (cF L) (sF L) r := by
  subst eI eO h00 h01 h10 h11
  intro p hp
  rw [Chunks.mem_cRect] at hp
  obtain ⟨hlo, hhi⟩ := hp
  have hc : (cF L).val < 2 := (cF L).isLt
  have hs : (sF L).val < 16 := (sF L).isLt
  have hr : r.val < 4 := r.isLt
  obtain ⟨q, hq0⟩ : ∃ q : S32768.Idx, (q 0).val = (p 0).val - (262144 * (sF L).val + 131072 * (cF L).val + 32768 * r.val) :=
    ⟨ValueIdx.ix1 ⟨(p 0).val - (262144 * (sF L).val + 131072 * (cF L).val + 32768 * r.val), by omega⟩, rfl⟩
  have hemb : (outW.slice (Rect.unit (s := S4194304) ![cBase L r] S32768.size hinO) (fun _ => rfl)).view.emb q = p := by
    funext a
    match a with
    | ⟨0, _⟩ =>
      apply Fin.ext
      show 262144 * (sF L).val + 131072 * (cF L).val + 32768 * r.val + 1 * (q 0).val = (p 0).val
      omega
  refine (congrArg f hemb).symm.trans ((h q).trans ?_)
  refine StoresValue.W8_Gflat (Yf m d) (m (a2Loc d)) cmK czK (16 * (sF L).val + 8 * (cF L).val + 2 * r.val) (by omega)
    _ _ _ _ _ _ _ _ _ ?_ ?_ ?_ ?_ ?_ q p (by omega)
  · intro q' p' hp'
    rw [chunkPay_apply]
    refine congrArg (Yf m d) ?_
    funext a
    match a with
    | ⟨0, _⟩ =>
      apply Fin.ext
      show 262144 * (sF L).val + 131072 * (cF L).val + 32768 * r.val + 1 * (q' 0).val = (p' 0).val
      omega
  · intro x k hk0 hk1
    exact half_apply d L _ f0 _ i00 x k (by show (k 0).val = 16 * (sF L).val + 8 * (cF L).val + 2 * r.val; omega)
      (by show (k 1).val = 0 + (x 0).val; omega)
  · intro x k hk0 hk1
    exact half_apply d L _ f0 _ i01 x k (by show (k 0).val = 16 * (sF L).val + 8 * (cF L).val + 2 * r.val; omega)
      (by show (k 1).val = 16 + (x 0).val; omega)
  · intro x k hk0 hk1
    exact half_apply d L _ f0 _ i10 x k (by show (k 0).val = 16 * (sF L).val + 8 * (cF L).val + (2 * r.val + 1); omega)
      (by show (k 1).val = 0 + (x 0).val; omega)
  · intro x k hk0 hk1
    exact half_apply d L _ f0 _ i11 x k (by show (k 0).val = 16 * (sF L).val + 8 * (cF L).val + (2 * r.val + 1); omega)
      (by show (k 1).val = 16 + (x 0).val; omega)

end ChunkOK

theorem chunk_ok0 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out0 L).view.emb q) = out0V d L (Yf m d) (m (a2Loc d)) f0 hx2 q) : OKc m d f (cF L) (sF L) 0 :=
  chunk_ok d L m f0 hx2 f 0 _ _ _ _ (off_nf0 L) (off_out0 L) _ _ _ _ _ _ _ _ rfl rfl rfl rfl h
theorem chunk_ok1 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out1 L).view.emb q) = out1V d L (Yf m d) (m (a2Loc d)) f0 hx2 q) : OKc m d f (cF L) (sF L) 1 :=
  chunk_ok d L m f0 hx2 f 1 _ _ _ _ (off_nf1 L) (off_out1 L) _ _ _ _ _ _ _ _ rfl rfl rfl rfl h
theorem chunk_ok2 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out2 L).view.emb q) = out2V d L (Yf m d) (m (a2Loc d)) f0 hx2 q) : OKc m d f (cF L) (sF L) 2 :=
  chunk_ok d L m f0 hx2 f 2 _ _ _ _ (off_nf2 L) (off_out2 L) _ _ _ _ _ _ _ _ rfl rfl rfl rfl h
theorem chunk_ok3 [FloatOps F] (m : (ℓ : Loc nD τ sig) → Buf (Elt F) ℓ) (d : Dev nD) (L : grid0.Coords) (f0 : Buf (Elt F) ((s0W).view.loc (thr d L)))
    (hx2 : Small (s := S256x32) (m (a2Loc d))) (f : Buf (Elt F) (v1Loc d))
    (h : ∀ q, f ((out3 L).view.emb q) = out3V d L (Yf m d) (m (a2Loc d)) f0 hx2 q) : OKc m d f (cF L) (sF L) 3 :=
  chunk_ok d L m f0 hx2 f 3 _ _ _ _ (off_nf3 L) (off_out3 L) _ _ _ _ _ _ _ _ rfl rfl rfl rfl h

end Cert.Proof.KB

end
-- ==== Proof.KBTile.lean ====
/-
  The launch theorem's obligation for one tile of `Kernel`: from the tile's pieces (`GO`), its scoped scratch buffers and its
  scoped semaphores at zero, its task runs to the end and hands back `TD`: its inputs unchanged and each chunk of the
  result in agreement with the specification. The pieces are restated as the task's own slices of the arrays (the same
  sets of elements), the task is the run of the body (KIBody), and each chunk's contents — the staged chunk after its
  eight stores — agree with the specification on the chunk because the stores hit exactly feature 0 and feature 1 of the
  listed nodes' rows.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.KBBody
import proofs.«212448_g4037269258948_cont_8to1_b_1693_16_alg».proof.Proof.KBRes
import proofs.«212448_g4037269258948_cont_8to1_b_1693_16_alg».proof.Proof.KBOwn
import proofs.«212448_g4037269258948_cont_8to1_b_1693_16_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

variable (m : (ℓ : Loc nD τ sig) → Buf (Elt F) ℓ)

/-- What the proof asks of the launch memory: every listed node number is at most 127 (the precondition says so). -/
def PreOK : Prop := ∀ d : Dev nD, Small (s := S256x32) (m (a2Loc d))

section Tile
variable (d : Dev nD) (L : grid0.Coords)

/-! The tile's pieces, as the task's own slices address them. -/
theorem pts_nf0 (f : Buf (Elt F) (v0Loc d)) : ((nf0 L).view.loc (thr d L) ↦[(nf0 L).view.set]{fullShare} f : sProp 𝕄) = v0Loc d ↦[cS (cF L) (sF L) 0]{fullShare} f := by rw [set_nf0]
theorem pts_nf1 (f : Buf (Elt F) (v0Loc d)) : ((nf1 L).view.loc (thr d L) ↦[(nf1 L).view.set]{fullShare} f : sProp 𝕄) = v0Loc d ↦[cS (cF L) (sF L) 1]{fullShare} f := by rw [set_nf1]
theorem pts_nf2 (f : Buf (Elt F) (v0Loc d)) : ((nf2 L).view.loc (thr d L) ↦[(nf2 L).view.set]{fullShare} f : sProp 𝕄) = v0Loc d ↦[cS (cF L) (sF L) 2]{fullShare} f := by rw [set_nf2]
theorem pts_nf3 (f : Buf (Elt F) (v0Loc d)) : ((nf3 L).view.loc (thr d L) ↦[(nf3 L).view.set]{fullShare} f : sProp 𝕄) = v0Loc d ↦[cS (cF L) (sF L) 3]{fullShare} f := by rw [set_nf3]
theorem pts_out0 (f : Buf (Elt F) (v1Loc d)) : ((out0 L).view.loc (thr d L) ↦[(out0 L).view.set]{fullShare} f : sProp 𝕄) = v1Loc d ↦[cS (cF L) (sF L) 0]{fullShare} f := by rw [set_out0]
theorem pts_out1 (f : Buf (Elt F) (v1Loc d)) : ((out1 L).view.loc (thr d L) ↦[(out1 L).view.set]{fullShare} f : sProp 𝕄) = v1Loc d ↦[cS (cF L) (sF L) 1]{fullShare} f := by rw [set_out1]
theorem pts_out2 (f : Buf (Elt F) (v1Loc d)) : ((out2 L).view.loc (thr d L) ↦[(out2 L).view.set]{fullShare} f : sProp 𝕄) = v1Loc d ↦[cS (cF L) (sF L) 2]{fullShare} f := by rw [set_out2]
theorem pts_out3 (f : Buf (Elt F) (v1Loc d)) : ((out3 L).view.loc (thr d L) ↦[(out3 L).view.set]{fullShare} f : sProp 𝕄) = v1Loc d ↦[cS (cF L) (sF L) 3]{fullShare} f := by rw [set_out3]
theorem pts_ixB (f : Buf (Elt F) (a2Loc d)) : ((ixB L).view.loc (thr d L) ↦[(ixB L).view.set]{fullShare} f : sProp 𝕄) = a2Loc d ↦[bS (cF L) (sF L)]{fullShare} f := by rw [set_ixB]

variable [FloatOps F]

set_option maxHeartbeats 4000000 in
/-- The task on the vector subcore at grid coordinates `L` of device `d`. -/
theorem tile_body (hF : (K (F := F)).Facts) (hpre : PreOK m) (O : CellTallies nD τ sig (HIx 1)) (W : Waits sig (HIx 1)) (hO : ∀ g, O g none = 0) :
    (iprop(levAts (K (F := F)).L (K (F := F)).lev ∗ emp ∗ GO m d (cF L) (sF L)
        ∗ scopedBufs (thr d L) ∗ scopedSems0 (thr d L) ∗ owes (thr d L) O W) : sProp 𝕄)
      ⊢ wp frame (wpE (defs₀ (F := F)) 𝒱₀ (thr d L) none) Set.univ
          (cc0__mask_kernel L nfW (Memref.isWhole_whole _) ixW (Memref.isWhole_whole _) outW (Memref.isWhole_whole _)
            s0W (Memref.isWhole_whole _) b1W (Memref.isWhole_whole _) b2W (Memref.isWhole_whole _) b3W (Memref.isWhole_whole _)
            cc0_scratch4 cc0_scratch5 cc0_scratch6 cc0_scratch7 cc0_scratch8 cc0_scratch9 cc0_scoped0)
          fun _ => iprop(TD m d (cF L) (sF L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hn0, Hn1, Hn2, Hn3, Hix, Ho0, Ho1, Ho2, Ho3⟩, ⟨⟨%f0, Hs0⟩, ⟨%f1, Hb1⟩, ⟨%f2, Hb2⟩, ⟨%f3, Hb3⟩, Hbufs⟩,
    ⟨H4, H5, H6, H7, H8, H9, Hsc, Hsems⟩, HO⟩
  ihave Hmw := ((K (F := F)).mayWaits_none (thr := thr d L) hO) $$ Hlv
  ihave Hn0 := (Entails.of_eq (pts_nf0 (F := F) d L _).symm) $$ Hn0
  ihave Hn1 := (Entails.of_eq (pts_nf1 (F := F) d L _).symm) $$ Hn1
  ihave Hn2 := (Entails.of_eq (pts_nf2 (F := F) d L _).symm) $$ Hn2
  ihave Hn3 := (Entails.of_eq (pts_nf3 (F := F) d L _).symm) $$ Hn3
  ihave Hix := (Entails.of_eq (pts_ixB (F := F) d L _).symm) $$ Hix
  ihave Ho0 := (Entails.of_eq (pts_out0 (F := F) d L _).symm) $$ Ho0
  ihave Ho1 := (Entails.of_eq (pts_out1 (F := F) d L _).symm) $$ Ho1
  ihave Ho2 := (Entails.of_eq (pts_out2 (F := F) d L _).symm) $$ Ho2
  ihave Ho3 := (Entails.of_eq (pts_out3 (F := F) d L _).symm) $$ Ho3
  iapply (wp_wand_r frame _ _)
  isplitl [Hmw Hn0 Hn1 Hn2 Hn3 Hix Ho0 Ho1 Ho2 Ho3 Hs0 Hb1 Hb2 Hb3 H4 H5 H6 H7 H8 H9 Hsc HO]
  · iapply (body_core (F := F) d L O W (Yf m d) (m (a2Loc d)) (m (v1Loc d)) f0 f1 f2 f3 (hpre d))
    isplitl [Hmw]; · iexact Hmw
    isplitl [Hn0]; · iexact Hn0
    isplitl [Hn1]; · iexact Hn1
    isplitl [Hn2]; · iexact Hn2
    isplitl [Hn3]; · iexact Hn3
    isplitl [Hix]; · iexact Hix
    isplitl [Ho0]; · iexact Ho0
    isplitl [Ho1]; · iexact Ho1
    isplitl [Ho2]; · iexact Ho2
    isplitl [Ho3]; · iexact Ho3
    isplitl [Hs0]; · iexact Hs0
    isplitl [Hb1]; · iexact Hb1
    isplitl [Hb2]; · iexact Hb2
    isplitl [Hb3]; · iexact Hb3
    isplitl [H4]; · iexact H4
    isplitl [H5]; · iexact H5
    isplitl [H6]; · iexact H6
    isplitl [H7]; · iexact H7
    isplitl [H8]; · iexact H8
    isplitl [H9]; · iexact H9
    isplitl [Hsc]; · iexact Hsc
    iexact HO
  iintro %_ ⟨Hn0, Hn1, Hn2, Hn3, Hix, ⟨%g0, Ho0, %h0⟩, ⟨%g1, Ho1, %h1⟩, ⟨%g2, Ho2, %h2⟩, ⟨%g3, Ho3, %h3⟩, Hs0, Hb1, Hb2, Hb3,
    H4, H5, H6, H7, H8, H9, Hsc, HW⟩
  ihave Hn0 := (Entails.of_eq (pts_nf0 (F := F) d L _)) $$ Hn0
  ihave Hn1 := (Entails.of_eq (pts_nf1 (F := F) d L _)) $$ Hn1
  ihave Hn2 := (Entails.of_eq (pts_nf2 (F := F) d L _)) $$ Hn2
  ihave Hn3 := (Entails.of_eq (pts_nf3 (F := F) d L _)) $$ Hn3
  ihave Hix := (Entails.of_eq (pts_ixB (F := F) d L _)) $$ Hix
  ihave Ho0 := (Entails.of_eq (pts_out0 (F := F) d L _)) $$ Ho0
  ihave Ho1 := (Entails.of_eq (pts_out1 (F := F) d L _)) $$ Ho1
  ihave Ho2 := (Entails.of_eq (pts_out2 (F := F) d L _)) $$ Ho2
  ihave Ho3 := (Entails.of_eq (pts_out3 (F := F) d L _)) $$ Ho3
  isplitl [Hn0 Hn1 Hn2 Hn3 Hix Ho0 Ho1 Ho2 Ho3]
  · isplitl [Hn0]; · iexact Hn0
    isplitl [Hn1]; · iexact Hn1
    isplitl [Hn2]; · iexact Hn2
    isplitl [Hn3]; · iexact Hn3
    isplitl [Hix]; · iexact Hix
    isplitl [Ho0]
    · iexists g0; isplitl [Ho0]; · iexact Ho0
      ipureintro; exact chunk_ok0 m d L f0 (hpre d) g0 h0
    isplitl [Ho1]
    · iexists g1; isplitl [Ho1]; · iexact Ho1
      ipureintro; exact chunk_ok1 m d L f0 (hpre d) g1 h1
    isplitl [Ho2]
    · iexists g2; isplitl [Ho2]; · iexact Ho2
      ipureintro; exact chunk_ok2 m d L f0 (hpre d) g2 h2
    · iexists g3; isplitl [Ho3]; · iexact Ho3
      ipureintro; exact chunk_ok3 m d L f0 (hpre d) g3 h3
  isplitl [Hs0 Hb1 Hb2 Hb3 Hbufs]
  · isplitl [Hs0]; · iexact Hs0
    isplitl [Hb1]; · iexact Hb1
    isplitl [Hb2]; · iexact Hb2
    isplitl [Hb3]; · iexact Hb3
    iexact Hbufs
  isplitl [H4 H5 H6 H7 H8 H9 Hsc Hsems]
  · isplitl [H4]; · iexact H4
    isplitl [H5]; · iexact H5
    isplitl [H6]; · iexact H6
    isplitl [H7]; · iexact H7
    isplitl [H8]; · iexact H8
    isplitl [H9]; · iexact H9
    isplitl [Hsc]; · iexact Hsc
    iexact Hsems
  iexact HW

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__mask_kernel (coordsV c s)
          nfW (Memref.isWhole_whole _) ixW (Memref.isWhole_whole _) outW (Memref.isWhole_whole _)
          s0W (Memref.isWhole_whole _) b1W (Memref.isWhole_whole _) b2W (Memref.isWhole_whole _) b3W (Memref.isWhole_whole _)
          cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KB

end
-- ==== Proof.KBSplit.lean ====
/-
  Whole arrays to the tiles' pieces and back.
  The 128 chunks of a flat array are pairwise disjoint and cover it, and so do the 32 blocks of rows of the index array;
  so a flat array held whole is, chunk by chunk, the separating conjunction over the SparseCores c, their tiles s and the
  four chunks r of a tile of the chunk held, and the index array the one over c and s of the block held. A conjunction
  over (c, s) of a conjunction of three things is the conjunction of the three conjunctions, which gives: the three
  arrays held whole are exactly what the tiles are handed. Coming back, every chunk of the result is held at contents of
  its own that agree with the specification on the chunk; disjoint pieces held at different contents are their union
  held at contents that agree with each piece's on that piece, and every element lies in some chunk, so those contents
  are the specification's everywhere.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.KBRes
import proofs.«212448_g4037269258948_cont_8to1_b_1693_16_alg».proof.Proof.Chunks
import proofs.«212448_g4037269258948_cont_8to1_b_1693_16_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ)

/-! ## Iterated conjunctions over the SparseCores, their tiles and a tile's four chunks -/

omit [FloatOps F] in
/-- The conjunction over the kernel's SparseCores is the one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A conjunction over `Fin 4` is its four conjuncts. -/
theorem bigSep_univ_four (Ψ : Fin 4 → sProp 𝕄) : bigSep Finset.univ Ψ = iprop(Ψ 0 ∗ Ψ 1 ∗ Ψ 2 ∗ Ψ 3) := by
  rw [show (Finset.univ : Finset (Fin 4)) = {0, 1, 2, 3} from by decide, bigSep_insert (by decide), bigSep_insert (by decide),
    bigSep_insert (by decide), bigSep_singleton]
  rfl

omit [FloatOps F] in
/-- A conjunction over the triples (c, s, r) is the iterated one. -/
theorem bigSep_univ3 (Φ : Fin 2 × Fin 16 × Fin 4 → sProp 𝕄) :
    bigSep Finset.univ Φ
      = bigSep Finset.univ fun c : Fin 2 => bigSep Finset.univ fun s : Fin 16 => bigSep Finset.univ fun r : Fin 4 => Φ (c, s, r) := by
  rw [BI.bigSep_univ_prod]
  exact bigSep_congr fun c _ => BI.bigSep_univ_prod _

omit [FloatOps F] in
/-- A conjunction over (c, s) of three things side by side is the three conjunctions side by side. -/
theorem bigSep2_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)) := by
  rw [← bigSep_sep', ← bigSep_sep']
  refine bigSep_congr fun c _ => ?_
  rw [bigSep_sep', bigSep_sep']

omit [FloatOps F] in
/-- Separating conjunction is associative. -/
theorem sep_assoc_eq (P Q R : sProp 𝕄) : iprop((P ∗ Q) ∗ R) = iprop(P ∗ Q ∗ R) :=
  Idealize.SL.BI.sep_assoc.antisymm Idealize.SL.BI.sep_assoc'

/-! ## The pieces of tile (c, s) -/

/-- The four chunks of tile (c, s) of the flat input, held at `f`. -/
def X0 (d : Dev nD) (f : Buf (Elt F) (v0Loc d)) (c : Fin 2) (s : Fin 16) : sProp 𝕄 :=
  iprop((v0Loc d ↦[cS c s 0]{fullShare} f) ∗ (v0Loc d ↦[cS c s 1]{fullShare} f)
    ∗ (v0Loc d ↦[cS c s 2]{fullShare} f) ∗ (v0Loc d ↦[cS c s 3]{fullShare} f))
/-- The block of rows of tile (c, s) of the index array, held at `f`. -/
def XB (d : Dev nD) (f : Buf (Elt F) (a2Loc d)) (c : Fin 2) (s : Fin 16) : sProp 𝕄 :=
  a2Loc d ↦[bS c s]{fullShare} f
/-- The four chunks of tile (c, s) of the flat result, held at `f`. -/
def X1 (d : Dev nD) (f : Buf (Elt F) (v1Loc d)) (c : Fin 2) (s : Fin 16) : sProp 𝕄 :=
  iprop((v1Loc d ↦[cS c s 0]{fullShare} f) ∗ (v1Loc d ↦[cS c s 1]{fullShare} f)
    ∗ (v1Loc d ↦[cS c s 2]{fullShare} f) ∗ (v1Loc d ↦[cS c s 3]{fullShare} f))
/-- A chunk of the flat result held at some contents that agree with the specification on it. -/
def Y1 (d : Dev nD) (t : Fin 2 × Fin 16 × Fin 4) : sProp 𝕄 :=
  iprop(∃ f, (v1Loc d ↦[cS t.1 t.2.1 t.2.2]{fullShare} f) ∗ ⌜OKc m d f t.1 t.2.1 t.2.2⌝)

omit [FloatOps F] in
/-- The flat input held whole is its chunks held, tile by tile. -/
theorem v0_tiles (d : Dev nD) (f : Buf (Elt F) (v0Loc d)) :
    (v0Loc d ↦{fullShare} f : sProp 𝕄) = bigSep Finset.univ fun c : Fin 2 => bigSep Finset.univ fun s : Fin 16 => X0 d f c s := by
  have e : (v0Loc d ↦{fullShare} f : sProp 𝕄)
      = bigSep Finset.univ fun t : Fin 2 × Fin 16 × Fin 4 => v0Loc d ↦[cS t.1 t.2.1 t.2.2]{fullShare} f := by
    rw [← pointsTo_biUnion Finset.univ (ℓ := v0Loc d) (fun t : Fin 2 × Fin 16 × Fin 4 => cS t.1 t.2.1 t.2.2) Chunks.cRect_disjoint,
      Chunks.cRect_cover]; try rfl
  rw [e, bigSep_univ3]
  exact bigSep_congr fun c _ => bigSep_congr fun s _ => bigSep_univ_four (fun r => v0Loc d ↦[cS c s r]{fullShare} f)

omit [FloatOps F] in
/-- The flat result held whole is its chunks held, tile by tile. -/
theorem v1_tiles (d : Dev nD) (f : Buf (Elt F) (v1Loc d)) :
    (v1Loc d ↦{fullShare} f : sProp 𝕄) = bigSep Finset.univ fun c : Fin 2 => bigSep Finset.univ fun s : Fin 16 => X1 d f c s := by
  have e : (v1Loc d ↦{fullShare} f : sProp 𝕄)
      = bigSep Finset.univ fun t : Fin 2 × Fin 16 × Fin 4 => v1Loc d ↦[cS t.1 t.2.1 t.2.2]{fullShare} f := by
    rw [← pointsTo_biUnion Finset.univ (ℓ := v1Loc d) (fun t : Fin 2 × Fin 16 × Fin 4 => cS t.1 t.2.1 t.2.2) Chunks.cRect_disjoint,
      Chunks.cRect_cover]; try rfl
  rw [e, bigSep_univ3]
  exact bigSep_congr fun c _ => bigSep_congr fun s _ => bigSep_univ_four (fun r => v1Loc d ↦[cS c s r]{fullShare} f)

omit [FloatOps F] in
/-- The index array held whole is its blocks of rows held, tile by tile. -/
theorem a2_tiles (d : Dev nD) (f : Buf (Elt F) (a2Loc d)) :
    (a2Loc d ↦{fullShare} f : sProp 𝕄) = bigSep Finset.univ fun c : Fin 2 => bigSep Finset.univ fun s : Fin 16 => XB d f c s := by
  have e : (a2Loc d ↦{fullShare} f : sProp 𝕄)
      = bigSep Finset.univ fun t : Fin 2 × Fin 16 => a2Loc d ↦[bS t.1 t.2]{fullShare} f := by
    rw [← pointsTo_biUnion Finset.univ (ℓ := a2Loc d) (fun t : Fin 2 × Fin 16 => bS t.1 t.2) Chunks.bRect_disjoint,
      Chunks.bRect_cover]; try rfl
  rw [e, BI.bigSep_univ_prod]
  rfl

/-- What tile (c, s) is handed, grouped by array. -/
theorem GO_eq (d : Dev nD) (c : Fin 2) (s : Fin 16) :
    GO m d c s = iprop(X0 d (Yf m d) c s ∗ XB d (m (a2Loc d)) c s ∗ X1 d (m (v1Loc d)) c s) := by
  unfold GO X0 XB X1
  simp only [sep_assoc_eq]

/-- What tile (c, s) hands back, grouped by array. -/
theorem TD_eq (d : Dev nD) (c : Fin 2) (s : Fin 16) :
    TD m d c s = iprop(X0 d (Yf m d) c s ∗ XB d (m (a2Loc d)) c s ∗ bigSep Finset.univ fun r : Fin 4 => Y1 m d (c, s, r)) := by
  rw [bigSep_univ_four]
  unfold TD X0 XB Y1
  simp only [sep_assoc_eq]

/-- What the SparseCores take is the three arrays held whole. -/
theorem st_eq (d : Dev nD) :
    (bigSep Finset.univ fun c : Fin ((K (F := F)).nCore 0) => (P m).st 0 d c : sProp 𝕄)
      = iprop((v0Loc d ↦{fullShare} Yf m d) ∗ (a2Loc d ↦{fullShare} m (a2Loc d)) ∗ (v1Loc d ↦{fullShare} m (v1Loc d))) := by
  rw [v0_tiles, a2_tiles, v1_tiles, ← bigSep2_sep3]
  show (bigSep Finset.univ fun c : Fin ((K (F := F)).nCore 0) => bigSep Finset.univ fun s : Fin 16 => GO m d (Fin.cast nCore_zero c) s) = _
  rw [bigSep_cores (F := F) (fun c => bigSep Finset.univ fun s : Fin 16 => GO m d c s)]
  exact bigSep_congr fun c _ => bigSep_congr fun s _ => GO_eq m d c s

/-- What the SparseCores bring back is the flat input and the index array held whole, and every chunk of the flat
    result held at contents that agree with the specification on it. -/
theorem dn_eq (d : Dev nD) :
    (bigSep Finset.univ fun c : Fin ((K (F := F)).nCore 0) => (P m).dn 0 d c : sProp 𝕄)
      = iprop((v0Loc d ↦{fullShare} Yf m d) ∗ (a2Loc d ↦{fullShare} m (a2Loc d))
          ∗ bigSep Finset.univ fun t : Fin 2 × Fin 16 × Fin 4 => Y1 m d t) := by
  rw [v0_tiles, a2_tiles, bigSep_univ3, ← bigSep2_sep3]
  show (bigSep Finset.univ fun c : Fin ((K (F := F)).nCore 0) => bigSep Finset.univ fun s : Fin 16 => TD m d (Fin.cast nCore_zero c) s) = _
  rw [bigSep_cores (F := F) (fun c => bigSep Finset.univ fun s : Fin 16 => TD m d c s)]
  exact bigSep_congr fun c _ => bigSep_congr fun s _ => TD_eq m d c s

/-- A chunk's conjunct with the agreement first. -/
theorem Y1_comm (d : Dev nD) (t : Fin 2 × Fin 16 × Fin 4) :
    (Y1 m d t : sProp 𝕄) ⊢ iprop(∃ f, ⌜OKc m d f t.1 t.2.1 t.2.2⌝ ∗ (v1Loc d ↦[cS t.1 t.2.1 t.2.2]{fullShare} f)) := by
  unfold Y1
  iintro ⟨%f, Hp, %hok⟩
  iexists f
  isplitr
  · ipureintro; exact hok
  · iexact Hp

/-- The chunks of the flat result, each held at contents that agree with the specification on it, are the flat result
    held whole at the specification. -/
theorem v1_join (d : Dev nD) :
    (bigSep Finset.univ fun t : Fin 2 × Fin 16 × Fin 4 => Y1 m d t : sProp 𝕄)
      ⊢ iprop(∃ f, (v1Loc d ↦{fullShare} f) ∗ ⌜f = Spec.Gflat (cmK (F := F)) (czK (F := F)) (Yf m d) (m (a2Loc d))⌝) := by
  have hcov : ∀ g : Buf (Elt F) (v1Loc d),
      (v1Loc d ↦[(Finset.univ : Finset (Fin 2 × Fin 16 × Fin 4)).biUnion fun t => cS t.1 t.2.1 t.2.2]{fullShare} g : sProp 𝕄)
        = (v1Loc d ↦{fullShare} g) := by
    intro g; rw [Chunks.cRect_cover]; try rfl
  refine (bigSep_mono (Ψ := fun t : Fin 2 × Fin 16 × Fin 4 =>
    iprop(∃ f, ⌜OKc m d f t.1 t.2.1 t.2.2⌝ ∗ (v1Loc d ↦[cS t.1 t.2.1 t.2.2]{fullShare} f))) fun t _ => Y1_comm m d t).trans ?_
  refine (bigSep_exists_pi Finset.univ (fun (t : Fin 2 × Fin 16 × Fin 4) (f : Buf (Elt F) (v1Loc d)) =>
    iprop(⌜OKc m d f t.1 t.2.1 t.2.2⌝ ∗ (v1Loc d ↦[cS t.1 t.2.1 t.2.2]{fullShare} f)))).trans ?_
  iintro ⟨%fs, H⟩
  ihave H2 := (bigSep_pure_sep Finset.univ (fun t : Fin 2 × Fin 16 × Fin 4 => OKc m d (fs t) t.1 t.2.1 t.2.2)
    (fun t : Fin 2 × Fin 16 × Fin 4 => (v1Loc d ↦[cS t.1 t.2.1 t.2.2]{fullShare} fs t : sProp 𝕄))) $$ H
  icases H2 with ⟨%hok, Hp⟩
  ihave H3 := (pointsTo_biUnion_join Finset.univ (fun t : Fin 2 × Fin 16 × Fin 4 => cS t.1 t.2.1 t.2.2) fs (fs (0, 0, 0))
    Chunks.cRect_disjoint) $$ Hp
  icases H3 with ⟨%g, %hg, Hg⟩
  iexists g
  isplitl [Hg]
  · iapply (Entails.of_eq (hcov g)); iexact Hg
  · ipureintro
    funext p
    obtain ⟨c, s, r, hp⟩ := Chunks.exists_chunk p
    rw [hg (c, s, r) (Finset.mem_univ _) p hp]
    exact hok (c, s, r) (Finset.mem_univ _) p hp

/-- Before the call: the flat input, the index array and the flat result, each held whole, are the two SparseCores' sixteen tiles' pieces. -/
theorem st_of_whole (d : Dev nD) :
    (iprop((v0Loc d ↦{fullShare} Yf m d) ∗ (a2Loc d ↦{fullShare} m (a2Loc d)) ∗ (v1Loc d ↦{fullShare} m (v1Loc d))) : sProp 𝕄)
      ⊢ bigSep Finset.univ fun c : Fin ((K (F := F)).nCore 0) => (P m).st 0 d c := by
  exact Entails.of_eq (st_eq m d).symm

/-- After the call: the pieces the tiles hand back are the flat input and the index array whole and unchanged, and the flat result whole at the specification. -/
theorem dn_to_whole (d : Dev nD) :
    (bigSep Finset.univ fun c : Fin ((K (F := F)).nCore 0) => (P m).dn 0 d c : sProp 𝕄)
      ⊢ iprop((v0Loc d ↦{fullShare} Yf m d) ∗ (a2Loc d ↦{fullShare} m (a2Loc d))
          ∗ ∃ f, (v1Loc d ↦{fullShare} f) ∗ ⌜f = Spec.Gflat (cmK (F := F)) (czK (F := F)) (Yf m d) (m (a2Loc d))⌝) := by
  rw [dn_eq]
  iintro ⟨H0, H2, H1⟩
  isplitl [H0]; · iexact H0
  isplitl [H2]; · iexact H2
  iapply (v1_join m d); iexact H1

end Cert.Proof.KB

end
-- ==== Proof.KBMain.lean ====
/-
  The TensorCore's side of `Kernel`, the split of a SparseCore's pieces among its tiles, and the launch's ghost state.
  @main reshapes the feature array to the flat input, makes the one call — which takes the flat input, the index array and the
  flat result whole and brings them back, the result at the specification over the flat array — and reshapes the flat
  result to the result. The three arguments are never written. A SparseCore's pieces ARE its sixteen tiles' pieces, so
  the split is the identity. The kernel's semaphores are each tile's own, used by local copies only: the launch's ghost
  state is the handshakes' rounds, with nothing of the kernel's.
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.KBRes
import proofs.«212448_g4037269258948_cont_8to1_b_1693_16_alg».proof.Proof.Spec
import proofs.«212448_g4037269258948_cont_8to1_b_1693_16_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

open Cert.Proof (Spec.Gflat)

variable [FloatOps F] (m : (ℓ : Loc nD τ sig) → Buf (Elt F) ℓ) (ρ : Dev nD → PrngReg)

/-! ## A SparseCore's pieces are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => GO m d (Fin.cast nCore_zero c) s) ⊢ |={Set.univ}=> iprop(
      (bigSep Finset.univ fun i : Fin ((K (F := F)).nSub 0) => GO m d (Fin.cast nCore_zero c) (Fin.cast nSub_zero i))
      ∗ ((bigSep Finset.univ fun i : Fin ((K (F := F)).nSub 0) => TD m d (Fin.cast nCore_zero c) (Fin.cast nSub_zero i))
          -∗ bigSep Finset.univ fun s : Fin 16 => TD m d (Fin.cast nCore_zero c) s))
  rw [bigSep_tasks (F := F) (fun s => GO m d (Fin.cast nCore_zero c) s), bigSep_tasks (F := F) (fun s => TD m d (Fin.cast nCore_zero c) s)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The TensorCore's arrays, all unscoped. -/
abbrev S6 : Finset (DevRef τ sig) := {a0', a1', a2', v0', v1', v2'}

abbrev op1 : HloOp τ sig (Elt F) := StableHlo.reshape main_arg0 main_v0 rfl shapeCasts_S256x128x128_S4194304
abbrev op2 : HloOp τ sig (Elt F) := StableHlo.reshape main_v1 main_v2 rfl shapeCasts_S4194304_S256x128x128

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (v0Loc d ↦{fullShare} W v0') ∗ (v1Loc d ↦{fullShare} W v1') ∗ v2Loc d ↦{fullShare} W v2') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (v1Loc d ↦{fullShare} W main_v1) ∗ v2Loc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The flat result at the specification, and the result: its reshape. -/
abbrev Gf (d : Dev nD) : Buf (Elt F) (v1Loc d) := Spec.Gflat (cmK (F := F)) (czK (F := F)) (Yf m d) (m (a2Loc d))
abbrev RES (d : Dev nD) : Buf (Elt F) (v2Loc d) := shapeCast S256x128x128 (Gf m d) shapeCasts_S4194304_S256x128x128

/-- The launch valuation; and the one after the call: the flat input written, the flat result at the specification. -/
def V0 (d : Dev nD) : Valuation τ sig (Elt F) := fun b => m (d, b)
def V2 (d : Dev nD) : Valuation τ sig (Elt F) := Function.update (Function.update (V0 m d) v0' (Yf m d)) v1' (Gf m d)

theorem unscoped_held (d : Dev nD) : (unscopedBufs d (fun b => m ((SparseCore.T d).loc b)) : sProp 𝕄) = held (T d) S6 (V0 m d) := by
  rw [unscopedBufs_eq, held_S6]; rfl

theorem hop1 : (op1 (F := F)).bufs ⊆ S6 := show ({a0', v0'} : Finset (DevRef τ sig)) ⊆ S6 by decide
theorem hop2 : (op2 (F := F)).bufs ⊆ S6 := show ({v1', v2'} : Finset (DevRef τ sig)) ⊆ S6 by decide

/-! ### The two reshapes' results -/

theorem res1_v0 (d : Dev nD) : (op1 (F := F)).result (V0 m d) v0' = Yf m d :=
  (StableHlo.reshape_result main_arg0 main_v0 rfl shapeCasts_S256x128x128_S4194304 ⟨by decide, rfl⟩ ⟨by decide, rfl⟩ (V0 m d)).trans rfl
theorem res1_a0 (d : Dev nD) : (op1 (F := F)).result (V0 m d) a0' = m (a0Loc d) := (op1 (F := F)).result_of_not_mem (V0 m d) (b := a0') (show a0' ∉ ({v0'} : Finset (DevRef τ sig)) by decide)
theorem res1_a1 (d : Dev nD) : (op1 (F := F)).result (V0 m d) a1' = m (a1Loc d) := (op1 (F := F)).result_of_not_mem (V0 m d) (b := a1') (show a1' ∉ ({v0'} : Finset (DevRef τ sig)) by decide)
theorem res1_a2 (d : Dev nD) : (op1 (F := F)).result (V0 m d) a2' = m (a2Loc d) := (op1 (F := F)).result_of_not_mem (V0 m d) (b := a2') (show a2' ∉ ({v0'} : Finset (DevRef τ sig)) by decide)
theorem res1_v1 (d : Dev nD) : (op1 (F := F)).result (V0 m d) v1' = m (v1Loc d) := (op1 (F := F)).result_of_not_mem (V0 m d) (b := v1') (show v1' ∉ ({v0'} : Finset (DevRef τ sig)) by decide)
theorem res1_v2 (d : Dev nD) : (op1 (F := F)).result (V0 m d) v2' = m (v2Loc d) := (op1 (F := F)).result_of_not_mem (V0 m d) (b := v2') (show v2' ∉ ({v0'} : Finset (DevRef τ sig)) by decide)

theorem held_after1 (d : Dev nD) :
    (held (T d) S6 ((op1 (F := F)).result (V0 m d)) : sProp 𝕄) = iprop((a0Loc d ↦{fullShare} m (a0Loc d)) ∗ (a1Loc d ↦{fullShare} m (a1Loc d))
      ∗ (a2Loc d ↦{fullShare} m (a2Loc d)) ∗ (v0Loc d ↦{fullShare} Yf m d) ∗ (v1Loc d ↦{fullShare} m (v1Loc d)) ∗ v2Loc d ↦{fullShare} m (v2Loc d)) := by
  rw [held_S6, res1_a0, res1_a1, res1_a2, res1_v0, res1_v1, res1_v2]

theorem V2_a0 (d : Dev nD) : V2 m d a0' = m (a0Loc d) := by
  unfold V2; rw [Function.update_of_ne (show a0' ≠ v1' by decide), Function.update_of_ne (show a0' ≠ v0' by decide)]; rfl
theorem V2_a1 (d : Dev nD) : V2 m d a1' = m (a1Loc d) := by
  unfold V2; rw [Function.update_of_ne (show a1' ≠ v1' by decide), Function.update_of_ne (show a1' ≠ v0' by decide)]; rfl
theorem V2_a2 (d : Dev nD) : V2 m d a2' = m (a2Loc d) := by
  unfold V2; rw [Function.update_of_ne (show a2' ≠ v1' by decide), Function.update_of_ne (show a2' ≠ v0' by decide)]; rfl
theorem V2_v0 (d : Dev nD) : V2 m d v0' = Yf m d := by
  unfold V2; rw [Function.update_of_ne (show v0' ≠ v1' by decide), Function.update_self]
theorem V2_v1 (d : Dev nD) : V2 m d v1' = Gf m d := by unfold V2; rw [Function.update_self]
theorem V2_v2 (d : Dev nD) : V2 m d v2' = m (v2Loc d) := by
  unfold V2; rw [Function.update_of_ne (show v2' ≠ v1' by decide), Function.update_of_ne (show v2' ≠ v0' by decide)]; rfl

theorem res2_v2 (d : Dev nD) : (op2 (F := F)).result (V2 m d) v2' = RES m d := by
  refine (StableHlo.reshape_result main_v1 main_v2 rfl shapeCasts_S4194304_S256x128x128 ⟨by decide, rfl⟩ ⟨by decide, rfl⟩ (V2 m d)).trans ?_
  show (fun i => shapeCast S256x128x128 (V2 m d v1') shapeCasts_S4194304_S256x128x128 i) = _
  rw [V2_v1]; rfl
theorem res2_a0 (d : Dev nD) : (op2 (F := F)).result (V2 m d) a0' = m (a0Loc d) := ((op2 (F := F)).result_of_not_mem (V2 m d) (b := a0') (show a0' ∉ ({v2'} : Finset (DevRef τ sig)) by decide)).trans (V2_a0 m d)
theorem res2_a1 (d : Dev nD) : (op2 (F := F)).result (V2 m d) a1' = m (a1Loc d) := ((op2 (F := F)).result_of_not_mem (V2 m d) (b := a1') (show a1' ∉ ({v2'} : Finset (DevRef τ sig)) by decide)).trans (V2_a1 m d)
theorem res2_a2 (d : Dev nD) : (op2 (F := F)).result (V2 m d) a2' = m (a2Loc d) := ((op2 (F := F)).result_of_not_mem (V2 m d) (b := a2') (show a2' ∉ ({v2'} : Finset (DevRef τ sig)) by decide)).trans (V2_a2 m d)

theorem held_before2 (d : Dev nD) :
    (held (T d) S6 (V2 m d) : sProp 𝕄) = iprop((a0Loc d ↦{fullShare} m (a0Loc d)) ∗ (a1Loc d ↦{fullShare} m (a1Loc d))
      ∗ (a2Loc d ↦{fullShare} m (a2Loc d)) ∗ (v0Loc d ↦{fullShare} Yf m d) ∗ (v1Loc d ↦{fullShare} Gf m d) ∗ v2Loc d ↦{fullShare} m (v2Loc d)) := by
  rw [held_S6, V2_a0, V2_a1, V2_a2, V2_v0, V2_v1, V2_v2]

theorem held_after2 (d : Dev nD) :
    (held (T d) S6 ((op2 (F := F)).result (V2 m d)) : sProp 𝕄) = iprop((a0Loc d ↦{fullShare} m (a0Loc d)) ∗ (a1Loc d ↦{fullShare} m (a1Loc d))
      ∗ (a2Loc d ↦{fullShare} m (a2Loc d)) ∗ (v0Loc d ↦{fullShare} (op2 (F := F)).result (V2 m d) v0') ∗ (v1Loc d ↦{fullShare} (op2 (F := F)).result (V2 m d) v1')
      ∗ v2Loc d ↦{fullShare} RES m d) := by
  rw [held_S6, res2_a0, res2_a1, res2_a2, res2_v2]

/-- What @main leaves the claim: the three arguments at their launch contents, the result at the specification. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ v2Loc d ↦{fullShare} RES m d)

/-- @main on device `d`'s TensorCore: the first reshape, the call over the three whole arrays, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the flat input written
  iapply (wp_hlo_within 𝒱 (SparseCore.T d) none Set.univ (op := op1) (S := S6) hop1 (V := V0 m d)) $$ [Hb Hheld]
  · isplitl [Hb]; · iexact Hb
    iexact Hheld
  iintro ⟨Hb, Hheld⟩
  ihave Hh := (Entails.of_eq (held_after1 (F := F) m d)) $$ Hheld
  icases Hh with ⟨Ha0, Ha1, Ha2, Hv0, Hv1, Hv2⟩
  rw [wp_ret]; imodintro
  -- the call: the flat input, the index array and the flat result to the tiles and back
  iapply ((K (F := F)).wp_run (D (F := F)) 𝒱 (EH := EH) (P := P m) κ d 0) $$ [Hst Hv0 Ha2 Hv1 Hb Ha0 Ha1 Hv2]
  isplitr; · iexact Hctx
  isplitl [Hst]; · iexact Hst
  isplitl [Hv0 Ha2 Hv1]
  · iapply (st_of_whole m d)
    isplitl [Hv0]; · iexact Hv0
    isplitl [Ha2]; · iexact Ha2
    iexact Hv1
  iintro ⟨Hst, Hdn⟩
  ihave Hdn' := (dn_to_whole m d) $$ Hdn
  icases Hdn' with ⟨Hv0, Ha2, %f, Hv1, %hf⟩
  subst hf
  -- the second reshape: the flat result's elements as the result
  iapply (wp_hlo_within 𝒱 (SparseCore.T d) none Set.univ (op := op2) (S := S6) hop2 (V := V2 m d)) $$ [Hb Ha0 Ha1 Ha2 Hv0 Hv1 Hv2]
  · isplitl [Hb]; · iexact Hb
    rw [held_before2]
    isplitl [Ha0]; · iexact Ha0
    isplitl [Ha1]; · iexact Ha1
    isplitl [Ha2]; · iexact Ha2
    isplitl [Hv0]; · iexact Hv0
    isplitl [Hv1]; · iexact Hv1
    iexact Hv2
  iintro ⟨Hb, Hheld⟩
  ihave Hh := (Entails.of_eq (held_after2 (F := F) m d)) $$ Hheld
  icases Hh with ⟨Ha0, Ha1, Ha2, -, -, Hv2⟩
  rw [wp_ret]; imodintro; imodintro
  isplitl [Hst]; · iexact Hst
  isplitl [Ha0]; · iexact Ha0
  isplitl [Ha1]; · iexact Ha1
  isplitl [Ha2]; · iexact Ha2
  iexact Hv2

/-- What the final memory says: the arguments unchanged, the result at the specification. -/
def fq (d : Dev nD) (s' : Phys nD τ sig (Elt F)) : Prop :=
  s'.mem.mem (v2Loc d) = RES m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v2Loc d) (I := Finset.univ) (q := fullShare) (f := RES m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

end Cert.Proof.KB

end
-- ==== Proof.KBRun.lean ====
/-
  The run of `Kernel`: every weakly fair execution of the device's 35 threads — the TensorCore's @main, the two
  sequencers, the 32 tiles — from a memory whose listed node numbers are at most 127 terminates, nothing faulting, with the
  three arguments unchanged and the result at the specification: the feature array with feature 0 and feature 1 of every
  listed node's row replaced by the two constants. The launch theorem, applied to the tile's obligation (KITile), the
  split of a SparseCore's pieces among its tiles, the launch element and @main (KIMain).
-/
import proofs.«212448_g4037269258948_cont_8to1_b_1693_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.KBSetup
import proofs.«212448_g4037269258948_cont_8to1_b_1693_16_alg».proof.Proof.KBRes
import proofs.«212448_g4037269258948_cont_8to1_b_1693_16_alg».proof.Proof.KBTile
import proofs.«212448_g4037269258948_cont_8to1_b_1693_16_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}
local notation "𝕄" => MT nD τ sig (HIx 1) (Elt F) ℕ UU ℕ

variable [FloatOps F] (m : (ℓ : Loc nD τ sig) → Buf (Elt F) ℓ) (ρ : Dev nD → PrngReg)

/-- The claim's post: on every device the result at the specification, the arguments unchanged. -/
def QC : PUnit × MemSt nD τ sig (Elt F) → Prop := fun r => ∀ c : Dev nD,
  r.2.mem (v2Loc c) = RES m c ∧ r.2.mem (a0Loc c) = m (a0Loc c) ∧ r.2.mem (a1Loc c) = m (a1Loc c) ∧ r.2.mem (a2Loc c) = m (a2Loc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The certificate of a SparseCore kernel that masks listed nodes of a batch of graphs against its jnp reference.
  Both programs take a feature array [256, 128, 128], an adjacency array they never read, and for each of the 256 graphs
  32 node numbers in [0, 127] (the precondition), and return the feature array with, in the row of every listed node,
  feature 0 replaced by 119 and feature 1 by 0 (`Spec.G`). The reference does it by two scatters with a plain "set"
  combiner (RefValue: a node listed twice is set twice to the same value). The kernel reshapes the array flat, lets each of
  32 tiles stage its graphs chunk by chunk, overwrite the two features in the staging buffer by indexed stores and copy
  the chunk out, and reshapes back (KIRun at the ideal instance, KBRun at the word-level one: the same text over the two
  printed programs). The frames are the runs with the value dropped; the ideal pass rewrote nothing, so `preserves` is
  trivial; `algebraic` is the two runs side by side, both at `Spec.G` of arguments that agree.
-/
import proofs.«212448_g4037269258948_cont_8to1_b_1693_16_alg».proof.Defs
import proofs.«212448_g4037269258948_cont_8to1_b_1693_16_alg».proof.Proof.Gen.Kernel
import proofs.«212448_g4037269258948_cont_8to1_b_1693_16_alg».proof.Proof.Gen.Kernel.Skeleton
import proofs.«212448_g4037269258948_cont_8to1_b_1693_16_alg».proof.Proof.Gen.KernelIdeal
import proofs.«212448_g4037269258948_cont_8to1_b_1693_16_alg».proof.Proof.Gen.KernelIdeal.Skeleton
import proofs.«212448_g4037269258948_cont_8to1_b_1693_16_alg».proof.Proof.Gen.ReferenceIdeal
import proofs.«212448_g4037269258948_cont_8to1_b_1693_16_alg».proof.Proof.Gen.ReferenceIdeal.Run
import proofs.«212448_g4037269258948_cont_8to1_b_1693_16_alg».proof.Proof.Gen.ReferenceIdeal.Read
import proofs.«212448_g4037269258948_cont_8to1_b_1693_16_alg».proof.Proof.Gen.Pre_input_domain
import proofs.«212448_g4037269258948_cont_8to1_b_1693_16_alg».proof.Proof.RefFrame
import proofs.«212448_g4037269258948_cont_8to1_b_1693_16_alg».proof.Proof.RefValue
import proofs.«212448_g4037269258948_cont_8to1_b_1693_16_alg».proof.Proof.PreRange
import proofs.«212448_g4037269258948_cont_8to1_b_1693_16_alg».proof.Proof.Reshape
import proofs.«212448_g4037269258948_cont_8to1_b_1693_16_alg».proof.Proof.KIRun
import proofs.«212448_g4037269258948_cont_8to1_b_1693_16_alg».proof.Proof.KBRun
import Idealize.ShloMosaic.Adequacy
import Idealize.ShloMosaic.Init

noncomputable section

namespace Cert.Proof

open Idealize.ShloMosaic Idealize.SL.Sem

/-- The precondition gives what the kernel's runs ask of the launch memory: every listed node number is at most 127. -/
theorem preOK_kernel (m : (ℓ : Loc Cert.Kernel.nD Cert.Kernel.τ Cert.Kernel.sig) → Buf (Elt Bits) ℓ)
    (h : @Cert.Pre_Kernel Cert.Pre_input_domain.Gen.facts m) : KB.PreOK m :=
  fun d => PreRange.pre_range (F := Bits) _ _ _ (h d)
theorem preOK_kernelIdeal (m : (ℓ : Loc Cert.KernelIdeal.nD Cert.KernelIdeal.τ Cert.KernelIdeal.sig) → Buf (Elt Ideal) ℓ)
    (h : @Cert.Pre_KernelIdeal Cert.Pre_input_domain.Gen.facts m) : KI.PreOK m :=
  fun d => PreRange.pre_range (F := Ideal) _ _ _ (h d)

theorem frame_k : @Cert.frame_Kernel Cert.Kernel.Gen.facts Cert.Pre_input_domain.Gen.facts := fun m ρ hpre =>
  (θ_run Cert.Kernel.defs _ _).mono (fun _ h c => (h c).2) (KB.run_main (F := Bits) m ρ (preOK_kernel m hpre))

theorem frame_ki : @Cert.frame_KernelIdeal Cert.KernelIdeal.Gen.facts Cert.Pre_input_domain.Gen.facts := fun m ρ hpre =>
  (θ_run Cert.KernelIdeal.defs _ _).mono (fun _ h c => (h c).2) (KI.run_main (F := Ideal) m ρ (preOK_kernelIdeal m hpre))

/-- The kernel's result, the flat specification reshaped, is the specification over [256, 128, 128]. -/
theorem res_eq_G (m : (ℓ : Loc Cert.KernelIdeal.nD Cert.KernelIdeal.τ Cert.KernelIdeal.sig) → Buf (Elt Ideal) ℓ) (c : Dev Cert.KernelIdeal.nD) :
    KI.RES m c = Spec.G (Ideal.ofBits .f32 0x42EE0000#32) (Ideal.ofBits .f32 0x00000000#32) (m (KI.a0Loc c)) (m (KI.a2Loc c)) :=
  Reshape.shapeCast_Gflat _ _ _ _ _ _

theorem algebraic : @Cert.algebraic_KernelIdeal_ReferenceIdeal Cert.KernelIdeal.Gen.facts Cert.ReferenceIdeal.Gen.facts Cert.Pre_input_domain.Gen.facts := by
  intro m ρ m' ρ' hpre hagree
  refine ⟨fun c => KI.RES m c, (θ_run Cert.KernelIdeal.defs _ _).mono (fun _ h c => h c) (KI.run_main (F := Ideal) m ρ (preOK_kernelIdeal m hpre)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2.2]
  exact (Cert.ReferenceIdeal.Read.val_main_v39_eq _ _).trans
    ((RefValue.ref_eq_G _ _ (preOK_kernelIdeal m hpre c)).trans (res_eq_G m c).symm)

theorem claim : Cert.Claim := ⟨Cert.Kernel.Gen.facts, Cert.KernelIdeal.Gen.facts, Cert.ReferenceIdeal.Gen.facts, Cert.Pre_input_domain.Gen.facts,
  frame_k, frame_ki, RefFrame.frame_ri, trivial, algebraic⟩

end Cert.Proof

end
